-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100000 .f32) : IVec S_ 1 :=
  let main_v0 : FVec F S100000 .f32 := Host.absf main_arg1
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 99999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100000 : Shape := ⟨1, ![100000]⟩
abbrev S512 : Shape := ⟨1, ![512]⟩
abbrev S_ : Shape := ⟨0, ![]⟩
abbrev S256 : Shape := ⟨1, ![256]⟩
abbrev S16 : Shape := ⟨1, ![16]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S100000, .f32⟩
  | .hbm, ⟨2, _⟩ => ⟨S16384, .f32⟩
  | .local .scVector .vmem, ⟨0, _⟩ => ⟨S512, .i32⟩
  | .local .scVector .vmem, ⟨1, _⟩ => ⟨S512, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_38 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v144 : BitVec 32 := Scalar.addi v2 c0_i32_38
  ![v144.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S512_S256_0 : ∀ a, (![0] : Fin 1 → Nat) a + S256.size a ≤ S512.size a
  inb_S100000_S100000_0 : ∀ a, (![0] : Fin 1 → Nat) a + S100000.size a ≤ S100000.size a
  gathers_S100000_S256 : S100000.Gathers 0 S256
  inb_S512_S256_256 : ∀ a, (![256] : Fin 1 → Nat) a + S256.size a ≤ S512.size a
  inb_S512_S16_0 : ∀ a, (![0] : Fin 1 → Nat) a + S16.size a ≤ S512.size a
  h_S16 : 0 < S16.numel
  shapeCasts_S16_S16 : S16.ShapeCasts S16
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  hcc0_scratch2 : 0 + S_.numel ≤ 4
  hcc0_scratch3 : 1 + S_.numel ≤ 4
  hcc0_scratch4 : 2 + S_.numel ≤ 4
  hcc0_scratch5 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 2), ∀ a, (k0_off2 i (BitVec.ofNat 32 (256 * r.val))) a + S256.size a ≤ S16384.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5

class Facts : Prop extends Facts₀ where

variable [Facts]
-- ==== ReferenceIdeal.lean ====
abbrev S16384 : Shape := ⟨1, ![16384]⟩
abbrev S100000 : Shape := ⟨1, ![100000]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S100000_S16384x1_S16384_n_0_n_n_0_1_1_wf : GatherDims.WF S100000 S16384x1 S16384 [] [0] [] [0] [] 1 ![1]

variable [Facts₀]

def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf

class Facts : Prop extends Facts₀ where

variable [Facts]
-- ==== Proof.PreRange.lean ====
/-
  The index precondition read back. The predicate `Cert.Pre_input_domain.fn ids vars` is the conjunction of two
  `all`-reductions: every entry of `vars` is finite, and every entry of `ids`, read signed, lies in [0, 99999].
  Stating that the predicate is the one-bit word 1 therefore gives, entry by entry, 0 ≤ ids[i] ≤ 99999 as integers;
  and a 32-bit word whose signed reading is nonnegative reads the same unsigned, so ids[i] < 100000 as a natural
  number, which is what addressing a 100000-entry array needs. Only the integer half of the conjunction is used, so
  the statements hold at every float instance.
-/
import proofs.«207177_g90812788506957_cont_sun_c4_559_12_alg».proof.Pre_input_domain
import Idealize.ShloMosaic.Lib.ReduceAll

noncomputable section

namespace Cert.PreRange

open Idealize.ShloMosaic Cert.Pre_input_domain

/-- A rank-0 array has exactly one index. -/
instance : Subsingleton S_.Idx := ⟨fun a b => funext fun d => d.elim0⟩

/-- The one index of a rank-0 array. -/
def i0 : S_.Idx := fun d => d.elim0

variable [Facts]

/-- The signed readings of the two bounds. -/
theorem toInt_zero : (0#32 : BitVec 32).toInt = 0 := by decide
theorem toInt_hi : (99999#32 : BitVec 32).toInt = 99999 := by decide

/-- One entry: the conjunction of the two signed comparisons being 1 is the two integer inequalities. -/
theorem entry_range (w : BitVec 32)
    (h : IntOp.andi (IntOp.cmpi .sge w 0#32) (IntOp.cmpi .sle w 99999#32) = 1#1) :
    (0 : Int) ≤ w.toInt ∧ w.toInt ≤ 99999 := by
  obtain ⟨h0, h1⟩ := IntOp.andi_eq_one.1 h
  rw [IntOp.cmpi_sge, toInt_zero] at h0
  rw [IntOp.cmpi_sle, toInt_hi] at h1
  exact ⟨h0, h1⟩

/-- A word whose signed reading is in [0, 99999] is below 100000 read unsigned. -/
theorem toNat_lt_of_range (w : BitVec 32) (h : (0 : Int) ≤ w.toInt ∧ w.toInt ≤ 99999) : w.toNat < 100000 := by
  obtain ⟨h0, h1⟩ := h
  have hc := BitVec.toInt_eq_toNat_cond w
  have hlt := w.isLt
  split at hc <;> omega

/-- The array of one-bit words the predicate reduces over the index array: entry i is
    (ids[i] ≥ 0) and (ids[i] ≤ 99999), both comparisons signed. -/
def inRange (ids : IVec S16384 32) : IVec S16384 1 :=
  andi (cmpi .sge ids (broadcastInDim S16384 ![] Facts.bcast_S_S16384 (constantI S_ 32 0#32)))
    (cmpi .sle ids (broadcastInDim S16384 ![] Facts.bcast_S_S16384 (constantI S_ 32 99999#32)))

/-- Entry i of that array, in terms of the word ids[i] alone: a broadcast scalar constant reads the constant. -/
theorem inRange_apply (ids : IVec S16384 32) (i : S16384.Idx) :
    inRange ids i = IntOp.andi (IntOp.cmpi .sge (ids i) 0#32) (IntOp.cmpi .sle (ids i) 99999#32) := rfl

/-- The predicate being 1 makes the reduction by `and` of the in-range array 1 (the second conjunct). -/
theorem reduce_inRange {F : FTy → Type} [FloatOps F] (ids : IVec S16384 32) (vars : FVec F S100000 .f32)
    (h : Cert.Pre_input_domain.fn (F := F) ids vars = (fun _ => 1#1)) :
    Host.reduce IntOp.andi (inRange ids) (constantI S_ 1 1#1) Facts.reducesTo_S16384_S_d0 Facts.h_S_ i0 = 1#1 := by
  have e := congrFun h i0
  dsimp only [Cert.Pre_input_domain.fn] at e
  exact (IntOp.andi_eq_one.1 e).2

/-- Every index word, read signed, lies in [0, 99999]. -/
theorem ids_range {F : FTy → Type} [FloatOps F] (ids : IVec S16384 32) (vars : FVec F S100000 .f32)
    (h : Cert.Pre_input_domain.fn (F := F) ids vars = (fun _ => 1#1)) :
    ∀ i : S16384.Idx, (0 : Int) ≤ (ids i).toInt ∧ (ids i).toInt ≤ 99999 := by
  intro i
  have e := Host.reduce_andi_all (inRange ids) (constantI S_ 1 1#1) Facts.reducesTo_S16384_S_d0 Facts.h_S_ i0
    (reduce_inRange ids vars h) i
  rw [inRange_apply] at e
  exact entry_range (ids i) e

/-- Every index word, read unsigned, is below 100000: it names an entry of a 100000-entry array. -/
theorem ids_lt {F : FTy → Type} [FloatOps F] (ids : IVec S16384 32) (vars : FVec F S100000 .f32)
    (h : Cert.Pre_input_domain.fn (F := F) ids vars = (fun _ => 1#1)) :
    ∀ i : S16384.Idx, (ids i).toNat < 100000 :=
  fun i => toNat_lt_of_range (ids i) (ids_range ids vars h i)

end Cert.PreRange

end
-- ==== Proof.BlocksBits.lean ====
/-
  How the 16384 entries are shared out among the 32 vector subcores. The subcore at coordinates (c, s) — core c of 2,
  subcore s of 16 — owns the run of 512 consecutive entries starting at 1024·s + 512·c: it reads its indices from that
  run of the index array, and writes its results to the same run of the output array in two halves of 256. Here: the
  sets of entries these slices name, by coordinates; the two output halves are disjoint and together make the run of
  512; and, over subcores and then over cores, the runs are pairwise disjoint and cover all 16384 entries. Every fact
  is linear arithmetic over the entry's coordinate and the closed forms of the slice offsets; no index set is ever
  enumerated.
-/
import proofs.«207177_g90812788506957_cont_sun_c4_559_12_alg».proof.Proof.Gen.Kernel

noncomputable section

namespace Cert.Kernel.Blocks

open Cert.Kernel Cert.Kernel.Gen Idealize.ShloMosaic

/-- The coordinates of subcore s of core c. -/
def coords (c : Fin (grid0.bound 0)) (s : Fin (grid0.bound 1)) : grid0.Coords :=
  fun | 0 => c | 1 => s | ⟨_ + 2, h⟩ => absurd h (Nat.not_lt.2 (Nat.le_add_left _ _))

@[simp] theorem coords_zero (c : Fin (grid0.bound 0)) (s : Fin (grid0.bound 1)) : coords c s 0 = c := rfl
@[simp] theorem coords_one (c : Fin (grid0.bound 0)) (s : Fin (grid0.bound 1)) : coords c s 1 = s := rfl

/-- The entries of the index array that subcore L reads: a run of 512. -/
abbrev iSet (L : grid0.Coords) : Finset S16384.Idx :=
  ((View.whole (main_arg0_scv : Ref sig .scVector)).slice
    (Rect.unit (s := S16384) (k0_off1 L) S512.size (k0_off1_inb L))).set

/-- The entries of the output array that subcore L writes first: the lower 256 of its run. -/
abbrev oLoSet (L : grid0.Coords) : Finset S16384.Idx :=
  ((View.whole (main_v0_scv : Ref sig .scVector)).slice
    (Rect.unit (s := S16384) (k0_off2 L 0#32) S256.size (k0_off2_inb L 0))).set

/-- The entries of the output array that subcore L writes second: the upper 256 of its run. -/
abbrev oHiSet (L : grid0.Coords) : Finset S16384.Idx :=
  ((View.whole (main_v0_scv : Ref sig .scVector)).slice
    (Rect.unit (s := S16384) (k0_off2 L 256#32) S256.size (k0_off2_inb L 1))).set

/-- All the entries of the output array that subcore L writes. -/
abbrev oSet (L : grid0.Coords) : Finset S16384.Idx := oLoSet L ∪ oHiSet L

/-- Where subcore L's run starts. -/
abbrev base (L : grid0.Coords) : Nat := 1024 * (L 1).val + 512 * (L 0).val

/-- A run of n consecutive entries of a one-axis array, starting at lo: membership by the coordinate. -/
theorem mem_run {off size : Fin 1 → Nat} {inb : ∀ a, off a + size a ≤ S16384.size a} (lo n : Nat)
    (hoff : off = ![lo]) (hsize : size 0 = n) (j : S16384.Idx) :
    j ∈ (Rect.unit (s := S16384) off size inb).set ↔ lo ≤ (j 0).val ∧ (j 0).val < lo + n := by
  subst hoff
  rw [Rect.mem_set_unit]
  constructor
  · intro h
    have h0 := h 0
    simpa [hsize] using h0
  · intro h a
    fin_cases a
    simpa [hsize] using h

/-! ## Membership, by coordinates -/

theorem mem_iSet (L : grid0.Coords) (j : S16384.Idx) :
    j ∈ iSet L ↔ 1024 * (L 1).val + 512 * (L 0).val ≤ (j 0).val
      ∧ (j 0).val < 1024 * (L 1).val + 512 * (L 0).val + 512 := by
  unfold iSet
  rw [View.set_slice_whole]
  exact mem_run _ 512 (k0_off1_eq L) rfl j

theorem mem_oLoSet (L : grid0.Coords) (j : S16384.Idx) :
    j ∈ oLoSet L ↔ 1024 * (L 1).val + 512 * (L 0).val ≤ (j 0).val
      ∧ (j 0).val < 1024 * (L 1).val + 512 * (L 0).val + 256 := by
  unfold oLoSet
  rw [View.set_slice_whole]
  have e : k0_off2 L 0#32 = ![1024 * (L 1).val + 512 * (L 0).val + 256 * 0] := k0_off2_eq L ⟨0, by decide⟩
  exact mem_run _ 256 e rfl j

theorem mem_oHiSet (L : grid0.Coords) (j : S16384.Idx) :
    j ∈ oHiSet L ↔ 1024 * (L 1).val + 512 * (L 0).val + 256 ≤ (j 0).val
      ∧ (j 0).val < 1024 * (L 1).val + 512 * (L 0).val + 512 := by
  unfold oHiSet
  rw [View.set_slice_whole]
  have e : k0_off2 L 256#32 = ![1024 * (L 1).val + 512 * (L 0).val + 256 * 1] := k0_off2_eq L ⟨1, by decide⟩
  exact (mem_run _ 256 e rfl j).trans (by omega)

/-! ## The two output halves -/

theorem disjoint_oLo_oHi (L : grid0.Coords) : Disjoint (oLoSet L) (oHiSet L) := by
  rw [Finset.disjoint_left]
  intro j h1 h2
  rw [mem_oLoSet] at h1
  rw [mem_oHiSet] at h2
  omega

theorem mem_oSet (L : grid0.Coords) (j : S16384.Idx) :
    j ∈ oSet L ↔ 1024 * (L 1).val + 512 * (L 0).val ≤ (j 0).val
      ∧ (j 0).val < 1024 * (L 1).val + 512 * (L 0).val + 512 := by
  unfold oSet
  rw [Finset.mem_union, mem_oLoSet, mem_oHiSet]
  omega

/-- The output run and the index run of a subcore are the same set of entries. -/
theorem oSet_eq_iSet (L : grid0.Coords) : oSet L = iSet L := by
  ext j
  rw [mem_oSet, mem_iSet]

/-! ## The partition over subcores, then cores

A family K of sets indexed by coordinates, each the run of 512 from the subcore's start. -/

/-- The bounds of the two coordinates, as numbers. -/
theorem core_lt (c : Fin (grid0.bound 0)) : c.val < 2 := c.isLt
theorem sub_lt (s : Fin (grid0.bound 1)) : s.val < 16 := s.isLt
theorem entry_lt (j : S16384.Idx) : (j 0).val < 16384 := (j 0).isLt

section Partition

variable (K : grid0.Coords → Finset S16384.Idx)
  (hK : ∀ L j, j ∈ K L ↔ 1024 * (L 1).val + 512 * (L 0).val ≤ (j 0).val
      ∧ (j 0).val < 1024 * (L 1).val + 512 * (L 0).val + 512)

include hK

/-- On one core, different subcores own disjoint runs. -/
theorem inner_of (c : Fin (grid0.bound 0)) :
    ∀ s ∈ (Finset.univ : Finset (Fin (grid0.bound 1))), ∀ s' ∈ (Finset.univ : Finset (Fin (grid0.bound 1))),
      s ≠ s' → Disjoint (K (coords c s)) (K (coords c s')) := by
  intro s _ s' _ hne
  rw [Finset.disjoint_left]
  intro j h1 h2
  rw [hK] at h1 h2
  simp only [coords_zero, coords_one] at h1 h2
  have hv : s.val ≠ s'.val := fun e => hne (Fin.ext e)
  omega

/-- Membership in what one core's subcores own together. -/
theorem mem_core_of (c : Fin (grid0.bound 0)) (j : S16384.Idx) :
    j ∈ (Finset.univ : Finset (Fin (grid0.bound 1))).biUnion (fun s => K (coords c s))
      ↔ ∃ s : Fin (grid0.bound 1), 1024 * s.val + 512 * c.val ≤ (j 0).val ∧ (j 0).val < 1024 * s.val + 512 * c.val + 512 := by
  rw [Finset.mem_biUnion]
  constructor
  · rintro ⟨s, -, h⟩
    rw [hK] at h
    exact ⟨s, h⟩
  · rintro ⟨s, h⟩
    refine ⟨s, Finset.mem_univ s, ?_⟩
    rw [hK]
    exact h

/-- Different cores own disjoint sets of entries. -/
theorem outer_of :
    ∀ c ∈ (Finset.univ : Finset (Fin (grid0.bound 0))), ∀ c' ∈ (Finset.univ : Finset (Fin (grid0.bound 0))),
      c ≠ c' → Disjoint ((Finset.univ : Finset (Fin (grid0.bound 1))).biUnion fun s => K (coords c s))
        ((Finset.univ : Finset (Fin (grid0.bound 1))).biUnion fun s => K (coords c' s)) := by
  intro c _ c' _ hne
  rw [Finset.disjoint_left]
  intro j h1 h2
  obtain ⟨s, h1⟩ := (mem_core_of K hK c j).1 h1
  obtain ⟨s', h2⟩ := (mem_core_of K hK c' j).1 h2
  have hv : c.val ≠ c'.val := fun e => hne (Fin.ext e)
  have := core_lt c
  have := core_lt c'
  omega

/-- Every entry is owned by some subcore of some core: entry n by subcore n / 1024 of core (n / 512) mod 2. -/
theorem cover_of :
    ((Finset.univ : Finset (Fin (grid0.bound 0))).biUnion fun c =>
      (Finset.univ : Finset (Fin (grid0.bound 1))).biUnion fun s => K (coords c s)) = Finset.univ := by
  rw [Finset.eq_univ_iff_forall]
  intro j
  have hj := entry_lt j
  rw [Finset.mem_biUnion]
  refine ⟨⟨((j 0).val / 512) % 2, Nat.mod_lt _ (by decide)⟩, Finset.mem_univ _, ?_⟩
  rw [mem_core_of K hK]
  refine ⟨⟨(j 0).val / 1024, ?_⟩, ?_⟩
  · show (j 0).val / 1024 < 16
    omega
  · show 1024 * ((j 0).val / 1024) + 512 * (((j 0).val / 512) % 2) ≤ (j 0).val
      ∧ (j 0).val < 1024 * ((j 0).val / 1024) + 512 * (((j 0).val / 512) % 2) + 512
    omega

end Partition

/-! ## The index array -/

theorem iSet_inner (c : Fin (grid0.bound 0)) :
    ∀ s ∈ (Finset.univ : Finset (Fin (grid0.bound 1))), ∀ s' ∈ (Finset.univ : Finset (Fin (grid0.bound 1))),
      s ≠ s' → Disjoint (iSet (coords c s)) (iSet (coords c s')) :=
  inner_of iSet mem_iSet c

theorem iSet_outer :
    ∀ c ∈ (Finset.univ : Finset (Fin (grid0.bound 0))), ∀ c' ∈ (Finset.univ : Finset (Fin (grid0.bound 0))),
      c ≠ c' → Disjoint ((Finset.univ : Finset (Fin (grid0.bound 1))).biUnion fun s => iSet (coords c s))
        ((Finset.univ : Finset (Fin (grid0.bound 1))).biUnion fun s => iSet (coords c' s)) :=
  outer_of iSet mem_iSet

theorem iSet_cover :
    ((Finset.univ : Finset (Fin (grid0.bound 0))).biUnion fun c =>
      (Finset.univ : Finset (Fin (grid0.bound 1))).biUnion fun s => iSet (coords c s)) = Finset.univ :=
  cover_of iSet mem_iSet

/-! ## The output array -/

theorem oSet_inner (c : Fin (grid0.bound 0)) :
    ∀ s ∈ (Finset.univ : Finset (Fin (grid0.bound 1))), ∀ s' ∈ (Finset.univ : Finset (Fin (grid0.bound 1))),
      s ≠ s' → Disjoint (oLoSet (coords c s) ∪ oHiSet (coords c s)) (oLoSet (coords c s') ∪ oHiSet (coords c s')) :=
  inner_of oSet mem_oSet c

theorem oSet_outer :
    ∀ c ∈ (Finset.univ : Finset (Fin (grid0.bound 0))), ∀ c' ∈ (Finset.univ : Finset (Fin (grid0.bound 0))),
      c ≠ c' → Disjoint
        ((Finset.univ : Finset (Fin (grid0.bound 1))).biUnion fun s => oLoSet (coords c s) ∪ oHiSet (coords c s))
        ((Finset.univ : Finset (Fin (grid0.bound 1))).biUnion fun s => oLoSet (coords c' s) ∪ oHiSet (coords c' s)) :=
  outer_of oSet mem_oSet

theorem oSet_cover :
    ((Finset.univ : Finset (Fin (grid0.bound 0))).biUnion fun c =>
      (Finset.univ : Finset (Fin (grid0.bound 1))).biUnion fun s => oLoSet (coords c s) ∪ oHiSet (coords c s))
      = Finset.univ :=
  cover_of oSet mem_oSet

end Cert.Kernel.Blocks

end
-- ==== Proof.LibShareDeal.lean ====
/-
  A points-to dealt out in equal shares. A positive tree share q is the composite of its left and right halves, and
  a points-to held at q is the separating conjunction of the points-tos held at the two halves. Halving n times gives
  2^n pairwise-composable "leaf" shares of q, and the points-to at q is the separating conjunction of the 2^n
  points-tos at the leaves: an EQUALITY of assertions, so it serves to deal the shares out (to 2^n parties that read
  the same elements at once) and to gather them back. The two-level form deals to a family indexed by a pair: first
  2^a shares, then each of these into 2^b; and, as the instance most used, to 2 × 16 parties.
-/
import Idealize.ShloMosaic.Rules.PointsTo

noncomputable section

namespace Idealize.ShloMosaic.ShareDeal

open Idealize.SL
open Idealize.SL.RA Idealize.SL.Sem Idealize.SL.ProofMode
open Idealize.SL.BI (sProp bigSep bigSep_congr bigSep_univ_equiv bigSep_univ_sum bigSep_univ_of_subsingleton)
open scoped Idealize.SL.BI
open Idealize.SL.BI.BIBase Idealize.SL.BI.Laws

/-! ## The leaves of a share -/

/-- The indices below 2^(n+1) are those below 2^n (the left half) and those from 2^n on (the right half). -/
def halves (n : ℕ) : Fin (2 ^ n) ⊕ Fin (2 ^ n) ≃ Fin (2 ^ (n + 1)) :=
  finSumFinEquiv.trans (finCongr (by rw [Nat.pow_succ]; omega))

/-- An index of the left half keeps its value. -/
theorem halves_inl_val (n : ℕ) (a : Fin (2 ^ n)) : (halves n (.inl a)).val = a.val := by
  simp [halves]

/-- An index of the right half is shifted by 2^n. -/
theorem halves_inr_val (n : ℕ) (b : Fin (2 ^ n)) : (halves n (.inr b)).val = 2 ^ n + b.val := by
  simp [halves, Nat.add_comm]

/-- Leaf `i` of the share `q` halved `n` times: the leaves below 2^n are those of the left half of `q`, the
    others those of its right half. With `n = 0` the one leaf is `q` itself. -/
def leafShare : (n : ℕ) → PosShare TreeShare → Fin (2 ^ n) → PosShare TreeShare
  | 0, q, _ => q
  | n + 1, q, i =>
    if h : i.val < 2 ^ n then leafShare n q.left ⟨i.val, h⟩
    else leafShare n q.right ⟨i.val - 2 ^ n, by have := i.isLt; have e : 2 ^ (n + 1) = 2 ^ n * 2 := (by rw [Nat.pow_succ]); omega⟩

/-- Halved no times, the one leaf is the share itself. -/
@[simp] theorem leafShare_zero (q : PosShare TreeShare) (i : Fin (2 ^ 0)) : leafShare 0 q i = q := rfl

/-- Halved once more: a leaf below 2^n is a leaf of the left half, another one a leaf of the right half. -/
theorem leafShare_succ (n : ℕ) (q : PosShare TreeShare) (i : Fin (2 ^ (n + 1))) :
    leafShare (n + 1) q i
      = if h : i.val < 2 ^ n then leafShare n q.left ⟨i.val, h⟩
        else leafShare n q.right ⟨i.val - 2 ^ n, by have := i.isLt; have e : 2 ^ (n + 1) = 2 ^ n * 2 := (by rw [Nat.pow_succ]); omega⟩ :=
  rfl

/-- The leaves of the left half of the index range are the leaves of the left half of the share. -/
theorem leafShare_halves_inl (n : ℕ) (q : PosShare TreeShare) (a : Fin (2 ^ n)) :
    leafShare (n + 1) q (halves n (.inl a)) = leafShare n q.left a := by
  have hv := halves_inl_val n a
  rw [leafShare_succ, dif_pos (by rw [hv]; exact a.isLt)]
  exact congrArg (leafShare n q.left) (Fin.ext hv)

/-- The leaves of the right half of the index range are the leaves of the right half of the share. -/
theorem leafShare_halves_inr (n : ℕ) (q : PosShare TreeShare) (b : Fin (2 ^ n)) :
    leafShare (n + 1) q (halves n (.inr b)) = leafShare n q.right b := by
  have hv := halves_inr_val n b
  rw [leafShare_succ, dif_neg (by rw [hv]; omega)]
  exact congrArg (leafShare n q.right) (Fin.ext (by show (halves n (.inr b)).val - 2 ^ n = b.val; rw [hv]; omega))

/-! ## A points-to at a share is its leaves' points-tos together -/

section PointsTo

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

/-- A points-to at a share is the points-tos at its two halves, as an equality of assertions. -/
theorem pointsTo_halves (ℓ : Loc nD τ sig) (I : Finset (Idx ℓ)) (f : Buf Val ℓ) (q : PosShare TreeShare) :
    (ℓ ↦[I]{q} f : sProp 𝕄) = iprop((ℓ ↦[I]{q.left} f) ∗ ℓ ↦[I]{q.right} f) := by
  have hs : (ℓ ↦[I]{q} f : sProp 𝕄) ⊣⊢ iprop((ℓ ↦[I]{q.left} f) ∗ ℓ ↦[I]{q.right} f) :=
    pointsTo_share (PosShare.mem_left_op_right q)
  exact BI.equiv_iff.mp ⟨hs.1, hs.2⟩

/-- A points-to held at the share `q` is the same as its 2^n leaf shares held together. -/
theorem pointsTo_leafShares (ℓ : Loc nD τ sig) (I : Finset (Idx ℓ)) (f : Buf Val ℓ) (n : ℕ) (q : PosShare TreeShare) :
    (ℓ ↦[I]{q} f : sProp 𝕄) = bigSep Finset.univ fun i : Fin (2 ^ n) => ℓ ↦[I]{leafShare n q i} f := by
  induction n generalizing q with
  | zero =>
    haveI : Subsingleton (Fin (2 ^ 0)) := inferInstanceAs (Subsingleton (Fin 1))
    rw [bigSep_univ_of_subsingleton (⟨0, by decide⟩ : Fin (2 ^ 0))]
    rfl
  | succ n ih =>
    rw [bigSep_univ_equiv (halves n) (fun i : Fin (2 ^ (n + 1)) => (ℓ ↦[I]{leafShare (n + 1) q i} f : sProp 𝕄)),
      bigSep_univ_sum]
    simp only [leafShare_halves_inl, leafShare_halves_inr]
    rw [← ih q.left, ← ih q.right]
    exact pointsTo_halves ℓ I f q

/-- The two-level form: 2^a shares, each dealt again into 2^b. -/
theorem pointsTo_leafShares₂ (ℓ : Loc nD τ sig) (I : Finset (Idx ℓ)) (f : Buf Val ℓ) (a b : ℕ) (q : PosShare TreeShare) :
    (ℓ ↦[I]{q} f : sProp 𝕄)
      = bigSep Finset.univ fun c : Fin (2 ^ a) => bigSep Finset.univ fun s : Fin (2 ^ b) =>
          ℓ ↦[I]{leafShare b (leafShare a q c) s} f := by
  rw [pointsTo_leafShares ℓ I f a q]
  exact bigSep_congr fun c _ => pointsTo_leafShares ℓ I f b (leafShare a q c)

end PointsTo

/-! ## Two by sixteen -/

/-- The share of party `(c, s)` of 2 × 16 when `q` is dealt to all of them: half of `q` by `c`, then a sixteenth of
    that half by `s`. -/
def dealShare (q : PosShare TreeShare) (c : Fin 2) (s : Fin 16) : PosShare TreeShare :=
  leafShare 4 (leafShare 1 q (c : Fin (2 ^ 1))) (s : Fin (2 ^ 4))

section Deal

variable {nD : Nat} {τ : Topo} {sig : RefSig} {Ix : Type} [DecidableEq Ix]
variable {Val : EltTy → Type} {Name : Type} [DecidableEq Name]
variable {U : Type} [URA U]
variable {Lvl : Type}
local notation "𝕄" => MT nD τ sig Ix Val Name U Lvl

/-- A points-to at `q` is the 32 points-tos at the shares dealt to 2 × 16 parties, held together: read from left to
    right it deals the shares out, from right to left it gathers them back. -/
theorem pointsTo_deal (ℓ : Loc nD τ sig) (I : Finset (Idx ℓ)) (f : Buf Val ℓ) (q : PosShare TreeShare) :
    (ℓ ↦[I]{q} f : sProp 𝕄)
      = bigSep Finset.univ fun c : Fin 2 => bigSep Finset.univ fun s : Fin 16 => ℓ ↦[I]{dealShare q c s} f :=
  pointsTo_leafShares₂ ℓ I f 1 4 q

end Deal

end Idealize.ShloMosaic.ShareDeal

end
-- ==== Proof.ChunkBits.lean ====
/-
  One subcore's row scratch, as pure functions. The scratch holds 512 floats; each half of 256 is filled by a fetch
  and then rewritten sixteen lanes at a time: the box at offset `o` is loaded, every lane `x` replaced by
  `exp (x · c)` (`c` the constant word), and stored back. Here: the lane function; that every box payload is the lane
  function lane by lane; the step that rewrites one more box, as an invariant on the contents (rewritten below the
  frontier, the fetched contents above); and what the copy-out of a finished half reads.
-/
import proofs.«207177_g90812788506957_cont_sun_c4_559_12_alg».proof.Proof.Gen.Kernel.Skeleton
import Idealize.ShloMosaic.Lib.Pipeline.Value
import Idealize.ShloMosaic.Lib.Writes

noncomputable section

namespace Cert.Kernel.Chunk

open Cert.Kernel Cert.Kernel.Gen Idealize.ShloMosaic

variable {F : FTy → Type} [FloatOps F]

/-! ## The lane function and the payloads -/

/-- What one lane becomes: the exponential of the lane times the constant. -/
def lane (x : Elt F .f32) : Elt F .f32 := FloatOps.exp (FloatOps.mulf x (Scalar.ofBits .f32 0x3F317218#32))

/-- A payload that casts to its own shape, multiplies by the splat constant, exponentiates and casts back is the
    lane function at every lane. -/
macro "pay_lane" : tactic => `(tactic| (simp only [shapeCast_self]; rfl))

theorem pay2_lane (v : Vec F S16 .f32) (i : S16.Idx) : k0_pay2 v i = lane (v i) := by unfold k0_pay2; pay_lane
theorem pay3_lane (v : Vec F S16 .f32) (i : S16.Idx) : k0_pay3 v i = lane (v i) := by unfold k0_pay3; pay_lane
theorem pay4_lane (v : Vec F S16 .f32) (i : S16.Idx) : k0_pay4 v i = lane (v i) := by unfold k0_pay4; pay_lane
theorem pay5_lane (v : Vec F S16 .f32) (i : S16.Idx) : k0_pay5 v i = lane (v i) := by unfold k0_pay5; pay_lane
theorem pay6_lane (v : Vec F S16 .f32) (i : S16.Idx) : k0_pay6 v i = lane (v i) := by unfold k0_pay6; pay_lane
theorem pay7_lane (v : Vec F S16 .f32) (i : S16.Idx) : k0_pay7 v i = lane (v i) := by unfold k0_pay7; pay_lane
theorem pay8_lane (v : Vec F S16 .f32) (i : S16.Idx) : k0_pay8 v i = lane (v i) := by unfold k0_pay8; pay_lane
theorem pay9_lane (v : Vec F S16 .f32) (i : S16.Idx) : k0_pay9 v i = lane (v i) := by unfold k0_pay9; pay_lane
theorem pay10_lane (v : Vec F S16 .f32) (i : S16.Idx) : k0_pay10 v i = lane (v i) := by unfold k0_pay10; pay_lane
theorem pay11_lane (v : Vec F S16 .f32) (i : S16.Idx) : k0_pay11 v i = lane (v i) := by unfold k0_pay11; pay_lane
theorem pay12_lane (v : Vec F S16 .f32) (i : S16.Idx) : k0_pay12 v i = lane (v i) := by unfold k0_pay12; pay_lane
theorem pay13_lane (v : Vec F S16 .f32) (i : S16.Idx) : k0_pay13 v i = lane (v i) := by unfold k0_pay13; pay_lane
theorem pay14_lane (v : Vec F S16 .f32) (i : S16.Idx) : k0_pay14 v i = lane (v i) := by unfold k0_pay14; pay_lane
theorem pay15_lane (v : Vec F S16 .f32) (i : S16.Idx) : k0_pay15 v i = lane (v i) := by unfold k0_pay15; pay_lane
theorem pay16_lane (v : Vec F S16 .f32) (i : S16.Idx) : k0_pay16 v i = lane (v i) := by unfold k0_pay16; pay_lane
theorem pay17_lane (v : Vec F S16 .f32) (i : S16.Idx) : k0_pay17 v i = lane (v i) := by unfold k0_pay17; pay_lane
theorem pay18_lane (v : Vec F S16 .f32) (i : S16.Idx) : k0_pay18 v i = lane (v i) := by unfold k0_pay18; pay_lane
theorem pay19_lane (v : Vec F S16 .f32) (i : S16.Idx) : k0_pay19 v i = lane (v i) := by unfold k0_pay19; pay_lane
theorem pay20_lane (v : Vec F S16 .f32) (i : S16.Idx) : k0_pay20 v i = lane (v i) := by unfold k0_pay20; pay_lane
theorem pay21_lane (v : Vec F S16 .f32) (i : S16.Idx) : k0_pay21 v i = lane (v i) := by unfold k0_pay21; pay_lane
theorem pay22_lane (v : Vec F S16 .f32) (i : S16.Idx) : k0_pay22 v i = lane (v i) := by unfold k0_pay22; pay_lane
theorem pay25_lane (v : Vec F S16 .f32) (i : S16.Idx) : k0_pay25 v i = lane (v i) := by unfold k0_pay25; pay_lane
theorem pay26_lane (v : Vec F S16 .f32) (i : S16.Idx) : k0_pay26 v i = lane (v i) := by unfold k0_pay26; pay_lane
theorem pay27_lane (v : Vec F S16 .f32) (i : S16.Idx) : k0_pay27 v i = lane (v i) := by unfold k0_pay27; pay_lane
theorem pay28_lane (v : Vec F S16 .f32) (i : S16.Idx) : k0_pay28 v i = lane (v i) := by unfold k0_pay28; pay_lane
theorem pay31_lane (v : Vec F S16 .f32) (i : S16.Idx) : k0_pay31 v i = lane (v i) := by unfold k0_pay31; pay_lane
theorem pay32_lane (v : Vec F S16 .f32) (i : S16.Idx) : k0_pay32 v i = lane (v i) := by unfold k0_pay32; pay_lane
theorem pay33_lane (v : Vec F S16 .f32) (i : S16.Idx) : k0_pay33 v i = lane (v i) := by unfold k0_pay33; pay_lane
theorem pay34_lane (v : Vec F S16 .f32) (i : S16.Idx) : k0_pay34 v i = lane (v i) := by unfold k0_pay34; pay_lane

theorem pay24_23_lane (v : Vec F S16 .f32) (i : S16.Idx) : k0_pay24 (k0_pay23 v) i = lane (v i) := by
  unfold k0_pay24 k0_pay23; pay_lane
theorem pay30_29_lane (v : Vec F S16 .f32) (i : S16.Idx) : k0_pay30 (k0_pay29 v) i = lane (v i) := by
  unfold k0_pay30 k0_pay29; pay_lane
theorem pay1_35_lane (v : Vec F S16 .f32) (i : S16.Idx) : k0_pay1 (k0_pay35 v) i = lane (v i) := by
  unfold k0_pay1 k0_pay35; pay_lane

/-! ## A store through a rectangle of a whole buffer, for any buffer -/

section AnyBuffer
variable {sig : RefSig} {κ : Kind} {Val : EltTy → Type}

/-- An unmasked store through a rectangle of a whole buffer leaves the payload at each element under the rectangle. -/
theorem write_whole_emb (b : Ref sig κ) (r : Rect b.ty.shape) (f : b.ty.Contents Val) (w : r.shape.Idx → Val b.ty.elt)
    (x : r.shape.Idx) : ((View.whole b).slice r).write Val f w Finset.univ (r.emb x) = w x :=
  View.write_emb_of_mem (v := (View.whole b).slice r) f w (Finset.mem_univ x)

/-- An unmasked store through a rectangle of a whole buffer leaves the old contents at each element off the rectangle. -/
theorem write_whole_of_not_mem (b : Ref sig κ) (r : Rect b.ty.shape) (f : b.ty.Contents Val) (w : r.shape.Idx → Val b.ty.elt)
    (i : b.ty.shape.Idx) (h : i ∉ r.set) : ((View.whole b).slice r).write Val f w Finset.univ i = f i :=
  View.write_of_not_mem (v := (View.whole b).slice r) f w Finset.univ (by rw [View.setOn_univ, View.set_slice_whole]; exact h)

/-- A load through a whole buffer at a rectangle's coordinates reads the contents under the rectangle. -/
theorem readAt_whole_apply (b : Ref sig κ) (r : Rect b.ty.shape) (f : b.ty.Contents Val) (x : r.shape.Idx) :
    (View.whole b).readAt Val r.toLoadRect f x = f (r.emb x) := rfl

end AnyBuffer

/-! ## The step -/

/-- The row scratch, whole. -/
abbrev rV : Memref sig .scVector .vmem S512 .f32 := Memref.whole cc0_scratch1

/-- ONE BOX MORE. Contents `g` that are the lane function of `B` on `[base, base + 16k)` and `B` elsewhere, after the
    box at `o = base + 16k` is loaded, mapped by a payload that is the lane function lane by lane, and stored back,
    are the lane function of `B` on `[base, base + 16(k+1))` and `B` elsewhere. -/
theorem chunk_inv (base k o : Nat) (hb : ∀ a, (![o] : Fin 1 → Nat) a + S16.size a ≤ S512.size a) (ho : o = base + 16 * k)
    (g B : (rV).view.ty.Contents (Elt F)) (w : Vec F S16 .f32 → FVec F S16 .f32) (hw : ∀ v i, w v i = lane (v i))
    (hinv : ∀ p : S512.Idx, g p = if base ≤ (p 0).val ∧ (p 0).val < base + 16 * k then lane (B p) else B p) :
    ∀ p : S512.Idx,
      ((rV).access (Rect.unit (s := S512) ![o] S16.size hb)).write (Elt F) g
          (w ((rV).view.readAt (Elt F) (Rect.unit (s := S512) ![o] S16.size hb).toLoadRect g)) Finset.univ p
        = if base ≤ (p 0).val ∧ (p 0).val < base + 16 * (k + 1) then lane (B p) else B p := by
  intro p
  by_cases hp : p ∈ (Rect.unit (s := S512) ![o] S16.size hb).set
  · obtain ⟨x, rfl⟩ := (Rect.unit (s := S512) ![o] S16.size hb).exists_idx_of_mem hp
    have h0 : (((Rect.unit (s := S512) ![o] S16.size hb).idx x) 0).val = o + 1 * (x 0).val := rfl
    have h0' : (((Rect.unit (s := S512) ![o] S16.size hb).emb x) 0).val = o + 1 * (x 0).val := rfl
    have hx : (x 0).val < 16 := (x 0).isLt
    refine (write_whole_emb (Val := Elt F) cc0_scratch1 (Rect.unit (s := S512) ![o] S16.size hb) g _ x).trans ?_
    refine (hw _ x).trans ?_
    refine (congrArg lane ((readAt_whole_apply (Val := Elt F) cc0_scratch1 (Rect.unit (s := S512) ![o] S16.size hb) g x).trans
      ((hinv _).trans (if_neg (by omega))))).trans ?_
    exact (if_pos (by omega)).symm
  · refine (write_whole_of_not_mem (Val := Elt F) cc0_scratch1 (Rect.unit (s := S512) ![o] S16.size hb) g _ p hp).trans ?_
    have hout : ¬ (o ≤ (p 0).val ∧ (p 0).val < o + 16) := fun h =>
      hp (Rect.mem_set_unit.mpr (Fin.forall_fin_one.mpr ⟨h.1, h.2⟩))
    refine (hinv p).trans ?_
    by_cases hc : base ≤ (p 0).val ∧ (p 0).val < base + 16 * k
    · rw [if_pos hc, if_pos (by omega)]
    · rw [if_neg hc, if_neg (by omega)]

/-! ## The halves, and the copy-out of a finished half -/

/-- The low half of the row scratch (elements 0 … 255) and the high half (256 … 511). -/
abbrev rLoK : Memref sig .scVector .vmem S256 .f32 :=
  (rV).slice (Rect.unit (s := S512) ![0] S256.size inb_S512_S256_0) (fun _ => rfl)
abbrev rHiK : Memref sig .scVector .vmem S256 .f32 :=
  (rV).slice (Rect.unit (s := S512) ![256] S256.size inb_S512_S256_256) (fun _ => rfl)

/-- Where element `y` of the low half sits in the scratch: at `y`. -/
theorem emb_lo (y : S256.Idx) : (((rLoK).view.emb y) 0).val = (y 0).val := by
  show 0 + 1 * (y 0).val = (y 0).val
  omega

/-- Where element `y` of the high half sits in the scratch: at `256 + y`. -/
theorem emb_hi (y : S256.Idx) : (((rHiK).view.emb y) 0).val = 256 + (y 0).val := by
  show 256 + 1 * (y 0).val = 256 + (y 0).val
  omega

/-- A half filled by one whole fetch `G` holds `G y` at its element `y`, whatever it held before. -/
theorem base_lo (G : S256.Idx → Elt F .f32) (y : S256.Idx) :
    ((rLoK).view.writes (Elt F) (rLoK).view.junk [⟨Rect.whole S256, G⟩]) ((rLoK).view.emb y) = G y := by
  have h := View.write_emb_of_mem (v := (rLoK).view.slice (Rect.whole S256)) (Val := Elt F) (rLoK).view.junk G
    (M := Finset.univ) (x := y) (Finset.mem_univ _)
  have he : ((rLoK).view.slice (Rect.whole S256)).emb y = (rLoK).view.emb y :=
    congrArg (rLoK).view.emb (Rect.emb_whole_apply S256 y)
  rw [he] at h
  exact h

theorem base_hi (G : S256.Idx → Elt F .f32) (y : S256.Idx) :
    ((rHiK).view.writes (Elt F) (rHiK).view.junk [⟨Rect.whole S256, G⟩]) ((rHiK).view.emb y) = G y := by
  have h := View.write_emb_of_mem (v := (rHiK).view.slice (Rect.whole S256)) (Val := Elt F) (rHiK).view.junk G
    (M := Finset.univ) (x := y) (Finset.mem_univ _)
  have he : ((rHiK).view.slice (Rect.whole S256)).emb y = (rHiK).view.emb y :=
    congrArg (rHiK).view.emb (Rect.emb_whole_apply S256 y)
  rw [he] at h
  exact h

/-- What the copy-out of the low half moves at `y`: the scratch's contents at the element `y` sits at. -/
theorem read_lo (W : (rV).view.ty.Contents (Elt F)) (y : S256.Idx) :
    (ReadAs.same : ReadAs (Elt F) S256 .f32 S256 .f32).apply
        (View.read (Elt F) ((Memref.whole cc0_scratch1).slice (Rect.unit (s := S512) ![0] S256.size inb_S512_S256_0) (fun _ => rfl)).view W) y
      = W ((rLoK).view.emb y) := rfl

theorem read_hi (W : (rV).view.ty.Contents (Elt F)) (y : S256.Idx) :
    (ReadAs.same : ReadAs (Elt F) S256 .f32 S256 .f32).apply
        (View.read (Elt F) ((Memref.whole cc0_scratch1).slice (Rect.unit (s := S512) ![256] S256.size inb_S512_S256_256) (fun _ => rfl)).view W) y
      = W ((rHiK).view.emb y) := rfl

/-- A FINISHED LOW HALF: contents that are the lane function of `B` on `[0, 256)`, `B` the scratch after the half's
    fetch `G`, are copied out as the lane function of `G`. -/
theorem half_done_lo (W B : (rV).view.ty.Contents (Elt F)) (G : S256.Idx → Elt F .f32)
    (hW : ∀ p : S512.Idx, W p = if 0 ≤ (p 0).val ∧ (p 0).val < 0 + 16 * 16 then lane (B p) else B p)
    (hB : B = (rLoK).view.writes (Elt F) (rLoK).view.junk [⟨Rect.whole S256, G⟩]) (y : S256.Idx) :
    (ReadAs.same : ReadAs (Elt F) S256 .f32 S256 .f32).apply
        (View.read (Elt F) ((Memref.whole cc0_scratch1).slice (Rect.unit (s := S512) ![0] S256.size inb_S512_S256_0) (fun _ => rfl)).view W) y
      = lane (G y) := by
  have hy : (y 0).val < 256 := (y 0).isLt
  have he := emb_lo y
  refine (read_lo W y).trans ((hW _).trans ((if_pos (by omega)).trans (congrArg lane ?_)))
  rw [hB]; exact base_lo G y

/-- A FINISHED HIGH HALF, likewise on `[256, 512)`. -/
theorem half_done_hi (W B : (rV).view.ty.Contents (Elt F)) (G : S256.Idx → Elt F .f32)
    (hW : ∀ p : S512.Idx, W p = if 256 ≤ (p 0).val ∧ (p 0).val < 256 + 16 * 16 then lane (B p) else B p)
    (hB : B = (rHiK).view.writes (Elt F) (rHiK).view.junk [⟨Rect.whole S256, G⟩]) (y : S256.Idx) :
    (ReadAs.same : ReadAs (Elt F) S256 .f32 S256 .f32).apply
        (View.read (Elt F) ((Memref.whole cc0_scratch1).slice (Rect.unit (s := S512) ![256] S256.size inb_S512_S256_256) (fun _ => rfl)).view W) y
      = lane (G y) := by
  have hy : (y 0).val < 256 := (y 0).isLt
  have he := emb_hi y
  refine (read_hi W y).trans ((hW _).trans ((if_pos (by omega)).trans (congrArg lane ?_)))
  rw [hB]; exact base_hi G y

end Cert.Kernel.Chunk

end
-- ==== Proof.FetchBits.lean ====
/-
  What one indexed fetch delivers, read at an entry; and where the slices of the three arrays sit.
  A subcore copies its run of 512 index words into an index scratch, written whole, and then fetches, for each half of
  256 of the scratch, the table entries those words name: entry y of a fetch over a list of words is the table's entry
  at the list's y-th word. Here that is stated as a fact about functions: the payload of the fetch at y is the table
  at the word the scratch holds under y — for the lower half the scratch's entry y, for the upper half its entry
  256 + y. Beside it, the bookkeeping of positions: entry z of a subcore's run of the index array is entry
  base + z of that array (base = 1024·subcore + 512·core), the two output halves sit at base + y and base + 256 + y,
  so the entry of the index array under a scratch position and the entry of the output array under the same
  position are the same number; and an output half written whole reads back, at each of its entries, what was
  written.
-/
import proofs.«207177_g90812788506957_cont_sun_c4_559_12_alg».proof.Proof.BlocksBits
import Idealize.ShloMosaic.Lib.SparseCore.Stream
import Idealize.ShloMosaic.Lib.ValueIdx
import Idealize.ShloMosaic.Lib.Writes

noncomputable section

namespace Cert.Kernel.Fetch

open Cert.Kernel Cert.Kernel.Gen Cert.Kernel.Blocks Idealize.ShloMosaic

/-! ## The arrays and their slices -/

/-- The index array, the table, the output array, and the index scratch, each whole. -/
abbrev iV : Memref sig .scVector .hbm S16384 .i32 := Memref.whole main_arg0_scv
abbrev xV : Memref sig .scVector .hbm S100000 .f32 := Memref.whole main_arg1_scv
abbrev oV : Memref sig .scVector .hbm S16384 .f32 := Memref.whole main_v0_scv
abbrev sV : Memref sig .scVector .vmem S512 .i32 := Memref.whole cc0_scratch0

/-- Subcore L's run of 512 of the index array. -/
abbrev iBlkK (L : grid0.Coords) : Memref sig .scVector .hbm S512 .i32 :=
  iV.slice (Rect.unit (s := S16384) (k0_off1 L) S512.size (k0_off1_inb L)) (fun _ => rfl)
/-- The lower and the upper 256 of subcore L's run of the output array. -/
abbrev oLoK (L : grid0.Coords) : Memref sig .scVector .hbm S256 .f32 :=
  oV.slice (Rect.unit (s := S16384) (k0_off2 L 0#32) S256.size (k0_off2_inb L 0)) (fun _ => rfl)
abbrev oHiK (L : grid0.Coords) : Memref sig .scVector .hbm S256 .f32 :=
  oV.slice (Rect.unit (s := S16384) (k0_off2 L 256#32) S256.size (k0_off2_inb L 1)) (fun _ => rfl)
/-- The lower and the upper 256 of the index scratch. -/
abbrev sLoK : Memref sig .scVector .vmem S256 .i32 :=
  sV.slice (Rect.unit (s := S512) ![0] S256.size inb_S512_S256_0) (fun _ => rfl)
abbrev sHiK : Memref sig .scVector .vmem S256 .i32 :=
  sV.slice (Rect.unit (s := S512) ![256] S256.size inb_S512_S256_256) (fun _ => rfl)
/-- The table, sliced whole. -/
abbrev xAllK : Memref sig .scVector .hbm S100000 .f32 :=
  xV.slice (Rect.unit (s := S100000) ![0] S100000.size inb_S100000_S100000_0) (fun _ => rfl)

/-- The element sets of these slices are the sets of entries named before. -/
theorem iSet_eq (L : grid0.Coords) : iSet L = (iBlkK L).view.set := rfl
theorem oLoSet_eq (L : grid0.Coords) : oLoSet L = (oLoK L).view.set := rfl
theorem oHiSet_eq (L : grid0.Coords) : oHiSet L = (oHiK L).view.set := rfl

/-! ## Positions -/

/-- Entry z of subcore L's run of the index array is entry base + z of the array. -/
theorem iBlk_emb_val (L : grid0.Coords) (z : S512.Idx) :
    (((iBlkK L).view.emb z) 0).val = 1024 * (L 1).val + 512 * (L 0).val + (z 0).val := by
  show (k0_off1 L) 0 + 1 * (z 0).val = _
  rw [k0_off1_eq]
  simp

/-- Entry y of the lower output half is entry base + y of the output array. -/
theorem oLo_emb_val (L : grid0.Coords) (y : S256.Idx) :
    (((oLoK L).view.emb y) 0).val = 1024 * (L 1).val + 512 * (L 0).val + (y 0).val := by
  show (k0_off2 L 0#32) 0 + 1 * (y 0).val = _
  have e : k0_off2 L 0#32 = ![1024 * (L 1).val + 512 * (L 0).val + 256 * 0] := k0_off2_eq L ⟨0, by decide⟩
  rw [e]
  simp

/-- Entry y of the upper output half is entry base + 256 + y of the output array. -/
theorem oHi_emb_val (L : grid0.Coords) (y : S256.Idx) :
    (((oHiK L).view.emb y) 0).val = 1024 * (L 1).val + 512 * (L 0).val + 256 + (y 0).val := by
  show (k0_off2 L 256#32) 0 + 1 * (y 0).val = _
  have e : k0_off2 L 256#32 = ![1024 * (L 1).val + 512 * (L 0).val + 256 * 1] := k0_off2_eq L ⟨1, by decide⟩
  rw [e]
  simp

/-- Entry y of the lower half of the scratch is its entry y; of the upper half, its entry 256 + y. -/
theorem sLo_emb_val (y : S256.Idx) : (((sLoK).view.emb y) 0).val = (y 0).val := by
  show (![0] : Fin 1 → Nat) 0 + 1 * (y 0).val = _
  simp

theorem sHi_emb_val (y : S256.Idx) : (((sHiK).view.emb y) 0).val = 256 + (y 0).val := by
  show (![256] : Fin 1 → Nat) 0 + 1 * (y 0).val = _
  simp

/-- The table sliced whole places each entry at itself. -/
theorem xAll_emb (i : S100000.Idx) : (xAllK).view.emb i = i := by
  funext a
  apply Fin.ext
  fin_cases a
  show (![0] : Fin 1 → Nat) 0 + 1 * (i 0).val = (i 0).val
  simp

/-- The index entry under position y of the lower scratch half and the output entry under y of the lower output
    half are the same entry of the 16384; likewise for the upper halves. -/
theorem iBlk_emb_sLo (L : grid0.Coords) (y : S256.Idx) :
    ((iBlkK L).view.emb ((sLoK).view.emb y) : S16384.Idx) = ((oLoK L).view.emb y : S16384.Idx) := by
  funext a
  apply Fin.ext
  fin_cases a
  show (((iBlkK L).view.emb ((sLoK).view.emb y)) 0).val = (((oLoK L).view.emb y) 0).val
  rw [iBlk_emb_val, oLo_emb_val, sLo_emb_val]

theorem iBlk_emb_sHi (L : grid0.Coords) (y : S256.Idx) :
    ((iBlkK L).view.emb ((sHiK).view.emb y) : S16384.Idx) = ((oHiK L).view.emb y : S16384.Idx) := by
  funext a
  apply Fin.ext
  fin_cases a
  show (((iBlkK L).view.emb ((sHiK).view.emb y)) 0).val = (((oHiK L).view.emb y) 0).val
  rw [iBlk_emb_val, oHi_emb_val, sHi_emb_val]
  omega

/-- Every entry of an output half is under some position of the half. -/
theorem exists_of_mem_oLo (L : grid0.Coords) (i : S16384.Idx) (hi : i ∈ (oLoK L).view.set) :
    ∃ y : S256.Idx, ((oLoK L).view.emb y : S16384.Idx) = i := by
  obtain ⟨y, -, e⟩ := Finset.mem_map.mp hi
  exact ⟨y, e⟩

theorem exists_of_mem_oHi (L : grid0.Coords) (i : S16384.Idx) (hi : i ∈ (oHiK L).view.set) :
    ∃ y : S256.Idx, ((oHiK L).view.emb y : S16384.Idx) = i := by
  obtain ⟨y, -, e⟩ := Finset.mem_map.mp hi
  exact ⟨y, e⟩

variable {F : FTy → Type}

/-! ## The index scratch and the fetch -/

/-- The index scratch, written whole, holds what was written. -/
theorem scratch_written (fs : (sV).view.ty.Contents (Elt F)) (pay : S512.Idx → Elt F .i32) :
    View.write (Elt F) (sV).view fs pay Finset.univ = pay :=
  View.write_whole_univ cc0_scratch0 fs pay

/-- Read through a half of the scratch written whole: the word written under the half's position. -/
theorem sLo_read (fs : (sV).view.ty.Contents (Elt F)) (pay : S512.Idx → Elt F .i32) (x : S256.Idx) :
    (sLoK).view.read (Elt F) (View.write (Elt F) (sV).view fs pay Finset.univ) x = pay ((sLoK).view.emb x) := by
  rw [View.read_apply, scratch_written]
  rfl

theorem sHi_read (fs : (sV).view.ty.Contents (Elt F)) (pay : S512.Idx → Elt F .i32) (x : S256.Idx) :
    (sHiK).view.read (Elt F) (View.write (Elt F) (sV).view fs pay Finset.univ) x = pay ((sHiK).view.emb x) := by
  rw [View.read_apply, scratch_written]
  rfl

/-- In a one-axis shape the row-major position is the coordinate: the index at position (y 0) is y. -/
theorem rowMajor_symm_cast (y : S256.Idx) (n : Nat) (hn : S256.numel = n) (k : Fin n) (hk : k.val = (y 0).val) :
    S256.rowMajor.symm (k.cast hn.symm) = y := by
  rw [Equiv.symm_apply_eq]
  apply Fin.ext
  rw [Shape.rowMajor_val_one]
  exact hk

/-- A fetch from the table over a list of 256 words, read at entry y: the table at any entry whose number is the
    list's y-th word. -/
theorem fetch_of (vars : (xV).view.ty.Contents (Elt F)) (idx : S256.Idx → Elt F .i32)
    (hn : S256.numel = S256.size gathers_S100000_S256.axis')
    (hin : ∀ x, (idx x).toNat < S100000.size gathers_S100000_S256.axis)
    (y : S256.Idx) (j : S100000.Idx) (hj : (j 0).val = (idx y).toNat) :
    SparseCore.gatherPayload gathers_S100000_S256 (View.read (Elt F) (xAllK).view vars) (SparseCore.rows idx hn hin) y
      = vars j := by
  unfold SparseCore.gatherPayload
  rw [View.read_apply, xAll_emb]
  have hidx : gathers_S100000_S256.idx (SparseCore.rows idx hn hin) y = j := by
    funext a
    apply Fin.ext
    fin_cases a
    have h1 := congrArg Fin.val (Shape.Gathers.idx_axis gathers_S100000_S256 (SparseCore.rows idx hn hin) y)
    refine h1.trans (Eq.trans ?_ hj.symm)
    show (idx (S256.rowMajor.symm ((y gathers_S100000_S256.axis').cast hn.symm))).toNat = _
    rw [rowMajor_symm_cast y _ hn (y gathers_S100000_S256.axis') rfl]
  rw [hidx]
  rfl

/-- The fetch over the lower half of the scratch, read at entry y: the table at the word the scratch holds under
    the lower half's position y. Stated for every table entry j of that number. -/
theorem fetch_lo_of (vars : (xV).view.ty.Contents (Elt F)) (fs : (sV).view.ty.Contents (Elt F)) (pay : S512.Idx → Elt F .i32)
    (hn : S256.numel = S256.size gathers_S100000_S256.axis')
    (hin : ∀ x, ((sLoK).view.read (Elt F) (View.write (Elt F) (sV).view fs pay Finset.univ) x).toNat
      < S100000.size gathers_S100000_S256.axis)
    (y : S256.Idx) (j : S100000.Idx) (hj : (j 0).val = (pay ((sLoK).view.emb y)).toNat) :
    SparseCore.gatherPayload gathers_S100000_S256 (View.read (Elt F) (xAllK).view vars)
        (SparseCore.rows (View.read (Elt F) (sLoK).view (View.write (Elt F) (sV).view fs pay Finset.univ)) hn hin) y
      = vars j :=
  fetch_of vars _ hn hin y j (by rw [sLo_read]; exact hj)

/-- The same over the upper half of the scratch. -/
theorem fetch_hi_of (vars : (xV).view.ty.Contents (Elt F)) (fs : (sV).view.ty.Contents (Elt F)) (pay : S512.Idx → Elt F .i32)
    (hn : S256.numel = S256.size gathers_S100000_S256.axis')
    (hin : ∀ x, ((sHiK).view.read (Elt F) (View.write (Elt F) (sV).view fs pay Finset.univ) x).toNat
      < S100000.size gathers_S100000_S256.axis)
    (y : S256.Idx) (j : S100000.Idx) (hj : (j 0).val = (pay ((sHiK).view.emb y)).toNat) :
    SparseCore.gatherPayload gathers_S100000_S256 (View.read (Elt F) (xAllK).view vars)
        (SparseCore.rows (View.read (Elt F) (sHiK).view (View.write (Elt F) (sV).view fs pay Finset.univ)) hn hin) y
      = vars j :=
  fetch_of vars _ hn hin y j (by rw [sHi_read]; exact hj)

/-- The words of the lower half are in range as numbers below 100000 (what the fetch asks of its list). -/
theorem word_lt_lo (fs : (sV).view.ty.Contents (Elt F)) (pay : S512.Idx → Elt F .i32)
    (hin : ∀ x, ((sLoK).view.read (Elt F) (View.write (Elt F) (sV).view fs pay Finset.univ) x).toNat
      < S100000.size gathers_S100000_S256.axis) (y : S256.Idx) :
    (pay ((sLoK).view.emb y)).toNat < 100000 := by
  have h := hin y
  rw [sLo_read] at h
  exact h

theorem word_lt_hi (fs : (sV).view.ty.Contents (Elt F)) (pay : S512.Idx → Elt F .i32)
    (hin : ∀ x, ((sHiK).view.read (Elt F) (View.write (Elt F) (sV).view fs pay Finset.univ) x).toNat
      < S100000.size gathers_S100000_S256.axis) (y : S256.Idx) :
    (pay ((sHiK).view.emb y)).toNat < 100000 := by
  have h := hin y
  rw [sHi_read] at h
  exact h

/-- The fetch over the lower half, at the table entry built from the word. -/
theorem fetch_lo (vars : (xV).view.ty.Contents (Elt F)) (fs : (sV).view.ty.Contents (Elt F)) (pay : S512.Idx → Elt F .i32)
    (hn : S256.numel = S256.size gathers_S100000_S256.axis')
    (hin : ∀ x, ((sLoK).view.read (Elt F) (View.write (Elt F) (sV).view fs pay Finset.univ) x).toNat
      < S100000.size gathers_S100000_S256.axis)
    (y : S256.Idx) :
    SparseCore.gatherPayload gathers_S100000_S256 (View.read (Elt F) (xAllK).view vars)
        (SparseCore.rows (View.read (Elt F) (sLoK).view (View.write (Elt F) (sV).view fs pay Finset.univ)) hn hin) y
      = vars (ValueIdx.ix1 ⟨(pay ((sLoK).view.emb y)).toNat, word_lt_lo fs pay hin y⟩) :=
  fetch_lo_of vars fs pay hn hin y _ rfl

/-- The fetch over the upper half, at the table entry built from the word. -/
theorem fetch_hi (vars : (xV).view.ty.Contents (Elt F)) (fs : (sV).view.ty.Contents (Elt F)) (pay : S512.Idx → Elt F .i32)
    (hn : S256.numel = S256.size gathers_S100000_S256.axis')
    (hin : ∀ x, ((sHiK).view.read (Elt F) (View.write (Elt F) (sV).view fs pay Finset.univ) x).toNat
      < S100000.size gathers_S100000_S256.axis)
    (y : S256.Idx) :
    SparseCore.gatherPayload gathers_S100000_S256 (View.read (Elt F) (xAllK).view vars)
        (SparseCore.rows (View.read (Elt F) (sHiK).view (View.write (Elt F) (sV).view fs pay Finset.univ)) hn hin) y
      = vars (ValueIdx.ix1 ⟨(pay ((sHiK).view.emb y)).toNat, word_lt_hi fs pay hin y⟩) :=
  fetch_hi_of vars fs pay hn hin y _ rfl

/-! ## What the copy-out leaves -/

/-- An output half written whole reads back, at its entry y, what was written there. -/
theorem out_lo_apply (L : grid0.Coords) (f0 : (oV).view.ty.Contents (Elt F)) (w : S256.Idx → Elt F .f32) (y : S256.Idx) :
    ((oLoK L).view.writes (Elt F) f0 [⟨Rect.whole S256, w⟩]) ((oLoK L).view.emb y) = w y := by
  have h := View.read_writes_cons_emb (oLoK L).view f0 (Rect.whole S256) w [] y
  rw [Rect.emb_whole_apply, View.read_apply] at h
  exact h

theorem out_hi_apply (L : grid0.Coords) (f0 : (oV).view.ty.Contents (Elt F)) (w : S256.Idx → Elt F .f32) (y : S256.Idx) :
    ((oHiK L).view.writes (Elt F) f0 [⟨Rect.whole S256, w⟩]) ((oHiK L).view.emb y) = w y := by
  have h := View.read_writes_cons_emb (oHiK L).view f0 (Rect.whole S256) w [] y
  rw [Rect.emb_whole_apply, View.read_apply] at h
  exact h

end Cert.Kernel.Fetch

end
-- ==== Proof.TileBits.lean ====
/-
  One vector subcore's task of the lookup, at a symbolic place.

  The output is out[i] = exp (vars[ids[i]] * c) for a fixed constant c. Thirty-two subcores (two cores of sixteen) each own
  a run of 512 consecutive entries: subcore s of core k owns the entries from 1024·s + 512·k. A task copies its 512 indices
  into its index scratch, fetches the two halves of the rows they name by two indexed copies (one semaphore each) into
  the two halves of its row scratch, rewrites each half sixteen lanes at a time with the exponential, and copies each
  finished half to the matching 256 entries of the output (both copies on one semaphore, waited for at the end).
  Nothing a pending copy reads or writes is touched before that copy's wait: the second fetch lands in the upper half of the
  row scratch while the lower half is rewritten, and the first copy-out reads the lower half while the upper is rewritten.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import Idealize.ShloMosaic.Lib.ValueIdx
import proofs.«207177_g90812788506957_cont_sun_c4_559_12_alg».proof.Proof.Gen.Kernel
import proofs.«207177_g90812788506957_cont_sun_c4_559_12_alg».proof.Proof.Gen.Kernel.Skeleton
import proofs.«207177_g90812788506957_cont_sun_c4_559_12_alg».proof.Proof.BlocksBits
import proofs.«207177_g90812788506957_cont_sun_c4_559_12_alg».proof.Proof.LibShareDeal
import proofs.«207177_g90812788506957_cont_sun_c4_559_12_alg».proof.Proof.ChunkBits
import proofs.«207177_g90812788506957_cont_sun_c4_559_12_alg».proof.Proof.FetchBits

noncomputable section

namespace Cert.Kernel.Lookup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareDeal (dealShare)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100000 EltTy.f32)
local notation "oV" => (Memref.whole Cert.Kernel.main_v0_scv : Memref Cert.Kernel.sig Kind.scVector Space.hbm Cert.Kernel.S16384 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The task's 512 indices and its two runs of 256 outputs, as the task addresses them. -/
abbrev iBlkK (L : grid0.Coords) : Memref sig .scVector .hbm S512 .i32 :=
  (iV).slice (Rect.unit (s := S16384) (k0_off1 L) S512.size (k0_off1_inb L)) (fun _ => rfl)
abbrev oLoK (L : grid0.Coords) : Memref sig .scVector .hbm S256 .f32 :=
  (oV).slice (Rect.unit (s := S16384) (k0_off2 L 0#32) S256.size (k0_off2_inb L 0)) (fun _ => rfl)
abbrev oHiK (L : grid0.Coords) : Memref sig .scVector .hbm S256 .f32 :=
  (oV).slice (Rect.unit (s := S16384) (k0_off2 L 256#32) S256.size (k0_off2_inb L 1)) (fun _ => rfl)

/-- The entries those three memrefs address, as sets of indices of the arrays. -/
def iSetK (L : grid0.Coords) : Finset S16384.Idx := (iBlkK L).view.set
def oLoSetK (L : grid0.Coords) : Finset S16384.Idx := (oLoK L).view.set
def oHiSetK (L : grid0.Coords) : Finset S16384.Idx := (oHiK L).view.set

omit [FloatOps F] in
theorem pts_iBlkK (f : Buf (Elt F) (iLoc d)) :
    ((iBlkK L).view.loc (V d (cV L) (jV L)) ↦[(iBlkK L).view.set]{fullShare} f : sProp 𝕄) = iLoc d ↦[iSetK L]{fullShare} f := rfl
omit [FloatOps F] in
theorem pts_oLoK (f : Buf (Elt F) (oLoc d)) :
    ((oLoK L).view.loc (V d (cV L) (jV L)) ↦[(oLoK L).view.set]{fullShare} f : sProp 𝕄) = oLoc d ↦[oLoSetK L]{fullShare} f := rfl
omit [FloatOps F] in
theorem pts_oHiK (f : Buf (Elt F) (oLoc d)) :
    ((oHiK L).view.loc (V d (cV L) (jV L)) ↦[(oHiK L).view.set]{fullShare} f : sProp 𝕄) = oLoc d ↦[oHiSetK L]{fullShare} f := rfl
omit [FloatOps F] in
theorem pts_xV (q : PosShare TreeShare) (f : Buf (Elt F) (xLoc d)) :
    ((xV).view.loc (V d (cV L) (jV L)) ↦{q} f : sProp 𝕄) = xLoc d ↦{q} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scratch4.sem)
abbrev cDcell (d : Dev nD) (c : Fin τ.nSC) (i : Fin τ.nSub) : GSem nD τ sig := (V d c i, .dma cc0_scratch5.sem)

omit [FloatOps F] in
/-- The subcore's four transfer counters are among its own cells. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase (cDcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch4.sem : SemLoc sig).isScoped .scVector = true; decide⟩⟩⟩),
    SparseCore.bigSep_erase' (Finset.mem_erase.mpr ⟨by simp [cCcell, cDcell]; decide, Finset.mem_erase.mpr ⟨by simp [cBcell, cDcell]; decide,
      Finset.mem_erase.mpr ⟨by simp [cAcell, cDcell]; decide,
      (mem_ownCells (g := cDcell d (cV L) (jV L))).mpr ⟨rfl, by show (SemLoc.dma cc0_scratch5.sem : SemLoc sig).isScoped .scVector = true; decide⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- What the proof asks of the launch memory: every index names a row of the table. -/
def PreOK : Prop := ∀ (d : Dev nD) (j : S16384.Idx), (m (iLoc d) j).toNat < 100000

/-- The scalar function applied to every fetched row: x ↦ exp (x · c), c the constant's word. -/
def lane (x : Elt F .f32) : Elt F .f32 := FloatOps.exp (FloatOps.mulf x (Scalar.ofBits .f32 0x3F317218#32))

/-- The whole output array as one function of the launch memory: entry i is the table's row named by index i, through
    the scalar function. -/
def outFn (hpre : PreOK m) (d : Dev nD) : Buf (Elt F) (oLoc d) :=
  fun i : S16384.Idx => lane (m (xLoc d) (ValueIdx.ix1 ⟨(m (iLoc d) i).toNat, hpre d i⟩))

/-- The two halves of the index scratch, as the indexed copies name their lists. -/
abbrev sLoK : Memref sig .scVector .vmem S256 .i32 := (sV).slice (Rect.unit (s := S512) ![0] S256.size inb_S512_S256_0) (fun _ => rfl)
abbrev sHiK : Memref sig .scVector .vmem S256 .i32 := (sV).slice (Rect.unit (s := S512) ![256] S256.size inb_S512_S256_256) (fun _ => rfl)

/-- The two halves of the row scratch. -/
abbrev rLoK : Memref sig .scVector .vmem S256 .f32 := (rV).slice (Rect.unit (s := S512) ![0] S256.size inb_S512_S256_0) (fun _ => rfl)
abbrev rHiK : Memref sig .scVector .vmem S256 .f32 := (rV).slice (Rect.unit (s := S512) ![256] S256.size inb_S512_S256_256) (fun _ => rfl)

omit [FloatOps F] in
/-- The lower half of the row scratch is its entries below 256, -/
theorem mem_rLo (p : S512.Idx) : p ∈ (rLoK).view.set ↔ (p 0).val < 256 := by
  show p ∈ ((View.whole (cc0_scratch1 : Ref sig .scVector)).slice (Rect.unit (s := S512) ![0] S256.size inb_S512_S256_0)).set ↔ _
  rw [View.set_slice_whole, Rect.mem_set_unit]
  constructor
  · intro h; have h0 := h 0; simpa using h0
  · intro h a; fin_cases a; simpa using h

omit [FloatOps F] in
/-- the upper half those from 256 on, -/
theorem mem_rHi (p : S512.Idx) : p ∈ (rHiK).view.set ↔ 256 ≤ (p 0).val := by
  show p ∈ ((View.whole (cc0_scratch1 : Ref sig .scVector)).slice (Rect.unit (s := S512) ![256] S256.size inb_S512_S256_256)).set ↔ _
  rw [View.set_slice_whole, Rect.mem_set_unit]
  have hp : (p 0).val < 512 := (p 0).isLt
  constructor
  · intro h; have h0 := h 0; simp at h0; omega
  · intro h a; fin_cases a; simp; omega

omit [FloatOps F] in
/-- and the upper half is what is left of the scratch beside the lower. -/
theorem compl_rLo : (Finset.univ \ (rLoK).view.set : Finset S512.Idx) = (rHiK).view.set := by
  ext p; rw [Finset.mem_sdiff, mem_rLo, mem_rHi]; simp

omit [FloatOps F] in
theorem pts_rLoK (g : Buf (Elt F) ((V d (cV L) (jV L)).loc cc0_scratch1)) :
    ((rLoK).view.loc (V d (cV L) (jV L)) ↦[(rLoK).view.set]{fullShare} g : sProp 𝕄)
      = (V d (cV L) (jV L)).loc cc0_scratch1 ↦[(rLoK).view.set]{fullShare} g := rfl
omit [FloatOps F] in
theorem pts_rHiK (g : Buf (Elt F) ((V d (cV L) (jV L)).loc cc0_scratch1)) :
    ((rHiK).view.loc (V d (cV L) (jV L)) ↦[(rHiK).view.set]{fullShare} g : sProp 𝕄)
      = (V d (cV L) (jV L)).loc cc0_scratch1 ↦[Finset.univ \ (rLoK).view.set]{fullShare} g := by
  rw [compl_rLo]

omit [FloatOps F] in
/-- The two halves of the row scratch, each at its own contents, are the whole scratch at some contents. -/
theorem scratch1_join (WL WH : Buf (Elt F) ((V d (cV L) (jV L)).loc cc0_scratch1)) :
    iprop(((rLoK).view.loc (V d (cV L) (jV L)) ↦[(rLoK).view.set]{fullShare} WL)
        ∗ ((rHiK).view.loc (V d (cV L) (jV L)) ↦[(rHiK).view.set]{fullShare} WH))
      ⊢ (iprop(∃ f, (V d (cV L) (jV L)).loc cc0_scratch1 ↦{fullShare} f) : sProp 𝕄) := by
  have hdis : Disjoint ((rLoK).view.set : Finset S512.Idx) (rHiK).view.set :=
    Finset.disjoint_left.mpr fun p h1 h2 => by rw [mem_rLo] at h1; rw [mem_rHi] at h2; omega
  have hcov : ((rLoK).view.set ∪ (rHiK).view.set : Finset S512.Idx) = Finset.univ :=
    Finset.eq_univ_iff_forall.mpr fun p => by rw [Finset.mem_union, mem_rLo, mem_rHi]; omega
  iintro ⟨HL, HH⟩
  ihave H := (pointsTo_join (ℓ := (V d (cV L) (jV L)).loc cc0_scratch1) (q := fullShare) (f := WL) (g := WH) hdis) $$ [HL HH]
  · isplitl [HL]
    · iexact HL
    · iexact HH
  rw [hcov]
  iexists _; iexact H

/-- Every word the index fetch brings in is one of the launch memory's indices, so it names a row of the table. -/
theorem fetched_lt (hpre : PreOK m) (j : S512.Idx) : ((iBlkK L).view.read (Elt F) (m (iLoc d)) j).toNat < 100000 := by
  rw [show (iBlkK L).view.read (Elt F) (m (iLoc d)) j = m (iLoc d) ((iBlkK L).view.emb j) from (View.read_apply _ _).trans (cast_eq _ _)]
  exact hpre d _

/-- The lower list's words are in range, whatever the index scratch held before the fetch. -/
theorem offs_lo_inb (hpre : PreOK m) (fs : Buf (Elt F) ((V d (cV L) (jV L)).loc cc0_scratch0)) (pay : S512.Idx → Elt F .i32)
    (hpay : pay = (iBlkK L).view.read (Elt F) (m (iLoc d))) :
    ∀ x, ((sLoK).view.read (Elt F) (View.write (Elt F) (sV).view fs pay Finset.univ) x).toNat < S100000.size gathers_S100000_S256.axis := by
  subst hpay; intro x
  simp only [Memref.view_whole, View.write_whole_univ]
  rw [show ∀ g : S512.Idx → Elt F .i32, (sLoK).view.read (Elt F) g x = g ((sLoK).view.emb x) from fun g => (View.read_apply _ _).trans (cast_eq _ _)]
  exact fetched_lt m d L hpre _

/-- The upper list's words likewise. -/
theorem offs_hi_inb (hpre : PreOK m) (fs : Buf (Elt F) ((V d (cV L) (jV L)).loc cc0_scratch0)) (pay : S512.Idx → Elt F .i32)
    (hpay : pay = (iBlkK L).view.read (Elt F) (m (iLoc d))) :
    ∀ x, ((sHiK).view.read (Elt F) (View.write (Elt F) (sV).view fs pay Finset.univ) x).toNat < S100000.size gathers_S100000_S256.axis := by
  subst hpay; intro x
  simp only [Memref.view_whole, View.write_whole_univ]
  rw [show ∀ g : S512.Idx → Elt F .i32, (sHiK).view.read (Elt F) g x = g ((sHiK).view.emb x) from fun g => (View.read_apply _ _).trans (cast_eq _ _)]
  exact fetched_lt m d L hpre _

/-- Where a half of the row scratch stands after k of its sixteen boxes: the entries of the boxes done hold the scalar
    function of what the fetch brought, every other entry still what it held (B, the contents when the rewriting began). -/
def BoxesDone (base k : Nat) (g B : (Chunk.rV).view.ty.Contents (Elt F)) : Prop :=
  ∀ p : S512.Idx, g p = if base ≤ (p 0).val ∧ (p 0).val < base + 16 * k then Chunk.lane (B p) else B p

theorem boxesDone_zero (base : Nat) (B : (Chunk.rV).view.ty.Contents (Elt F)) : BoxesDone base 0 B B :=
  fun p => (if_neg (by omega)).symm

/-- One more box: its sixteen lanes are loaded, passed through a lane-wise payload, and stored back. -/
theorem boxesDone_succ (base k o : Nat) (hb : ∀ a, (![o] : Fin 1 → Nat) a + S16.size a ≤ S512.size a) (ho : o = base + 16 * k)
    (g B : (Chunk.rV).view.ty.Contents (Elt F)) (w : Vec F S16 .f32 → FVec F S16 .f32) (hw : ∀ v i, w v i = Chunk.lane (v i))
    (h : BoxesDone base k g B) :
    BoxesDone base (k + 1)
      (View.write (Elt F) ((Chunk.rV).access (Rect.unit (s := S512) ![o] S16.size hb)) g
        (w (View.readAt (Elt F) (Chunk.rV).view (Rect.unit (s := S512) ![o] S16.size hb).toLoadRect g)) Finset.univ) B :=
  Chunk.chunk_inv base k o hb ho g B w hw h

set_option maxHeartbeats 4000000 in
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ ((iLoc d ↦[iSetK L]{fullShare} m (iLoc d)) ∗ (xLoc d ↦{q} m (xLoc d))
            ∗ (oLoc d ↦[oLoSetK L]{fullShare} m (oLoc d)) ∗ (oLoc d ↦[oHiSetK L]{fullShare} m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L iV (Memref.isWhole_whole _) xV (Memref.isWhole_whole _) oV (Memref.isWhole_whole _)
            sV (Memref.isWhole_whole _) rV (Memref.isWhole_whole _) cc0_scratch2 cc0_scratch3 cc0_scratch4 cc0_scratch5)
          fun _ => (iprop(((iLoc d ↦[iSetK L]{fullShare} m (iLoc d)) ∗ (xLoc d ↦{q} m (xLoc d))
              ∗ (oLoc d ↦[oLoSetK L]{fullShare} outFn m hpre d) ∗ (oLoc d ↦[oHiSetK L]{fullShare} outFn m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho0, Ho1⟩, ⟨⟨%fs, Hs⟩, ⟨%fr, Hr⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Hxx := (pointsTo_share (PosShare.mem_left_op_right q)).1 $$ Hx
  icases Hxx with ⟨Hxa, Hxb⟩
  ihave Hxa' := (Entails.of_eq (pts_xV (F := F) d L _ _).symm) $$ Hxa
  ihave Hxb' := (Entails.of_eq (pts_xV (F := F) d L _ _).symm) $$ Hxb
  ihave Ho0' := (Entails.of_eq (pts_oLoK (F := F) d L _).symm) $$ Ho0
  ihave Ho1' := (Entails.of_eq (pts_oHiK (F := F) d L _).symm) $$ Ho1
  ihave Hs' := (Entails.of_eq (pts_sV (F := F) d L _).symm) $$ Hs
  ihave Hsp := (pointsTo_split_subset (q := fullShare) (f := fr) (S := Finset.univ) (Finset.subset_univ (rLoK).view.set)).1 $$ Hr
  icases Hsp with ⟨HrL, HrH⟩
  ihave HrL' := (Entails.of_eq (pts_rLoK (F := F) d L _).symm) $$ HrL
  ihave HrH' := (Entails.of_eq (pts_rHiK (F := F) d L _).symm) $$ HrH
  have _plan : Transfers.BatchOf (V d (cV L) (jV L)) (SemLoc.dma (sig := sig) cc0_scratch5.sem) 2 := trivial
  sl_exec
  have hin0 := offs_lo_inb m d L hpre fs (tile_body.sl.dma0 m d L) rfl
  have hin1 := offs_hi_inb m d L hpre fs (tile_body.sl.dma0 m d L) rfl
  sl_exec
  sl_step
  -- the lower half of the row scratch, box by box: what its copy-out carries is the scalar function of the first fetch
  let B0 : (Chunk.rV).view.ty.Contents (Elt F) :=
    (Chunk.rLoK).view.writes (Elt F) (Chunk.rLoK).view.junk [⟨Rect.whole S256, tile_body.sl.gather0 m d L fs hin0⟩]
  have l0 : BoxesDone 0 0 B0 B0 := boxesDone_zero 0 B0
  have l1 : BoxesDone 0 1 (tile_body.sl.HrL'_w1 m d L fs hin0) B0 := boxesDone_succ 0 0 0 _ rfl _ _ k0_pay3 Chunk.pay3_lane l0
  have l2 : BoxesDone 0 2 (tile_body.sl.HrL'_w2 m d L fs hin0) B0 := boxesDone_succ 0 1 16 _ rfl _ _ k0_pay4 Chunk.pay4_lane l1
  have l3 : BoxesDone 0 3 (tile_body.sl.HrL'_w3 m d L fs hin0) B0 := boxesDone_succ 0 2 32 _ rfl _ _ k0_pay5 Chunk.pay5_lane l2
  have l4 : BoxesDone 0 4 (tile_body.sl.HrL'_w4 m d L fs hin0) B0 := boxesDone_succ 0 3 48 _ rfl _ _ k0_pay6 Chunk.pay6_lane l3
  have l5 : BoxesDone 0 5 (tile_body.sl.HrL'_w5 m d L fs hin0) B0 := boxesDone_succ 0 4 64 _ rfl _ _ k0_pay7 Chunk.pay7_lane l4
  have l6 : BoxesDone 0 6 (tile_body.sl.HrL'_w6 m d L fs hin0) B0 := boxesDone_succ 0 5 80 _ rfl _ _ k0_pay8 Chunk.pay8_lane l5
  have l7 : BoxesDone 0 7 (tile_body.sl.HrL'_w7 m d L fs hin0) B0 := boxesDone_succ 0 6 96 _ rfl _ _ k0_pay9 Chunk.pay9_lane l6
  have l8 : BoxesDone 0 8 (tile_body.sl.HrL'_w8 m d L fs hin0) B0 := boxesDone_succ 0 7 112 _ rfl _ _ k0_pay10 Chunk.pay10_lane l7
  have l9 : BoxesDone 0 9 (tile_body.sl.HrL'_w9 m d L fs hin0) B0 := boxesDone_succ 0 8 128 _ rfl _ _ k0_pay11 Chunk.pay11_lane l8
  have l10 : BoxesDone 0 10 (tile_body.sl.HrL'_w10 m d L fs hin0) B0 := boxesDone_succ 0 9 144 _ rfl _ _ k0_pay12 Chunk.pay12_lane l9
  have l11 : BoxesDone 0 11 (tile_body.sl.HrL'_w11 m d L fs hin0) B0 := boxesDone_succ 0 10 160 _ rfl _ _ k0_pay13 Chunk.pay13_lane l10
  have l12 : BoxesDone 0 12 (tile_body.sl.HrL'_w12 m d L fs hin0) B0 := boxesDone_succ 0 11 176 _ rfl _ _ k0_pay14 Chunk.pay14_lane l11
  have l13 : BoxesDone 0 13 (tile_body.sl.HrL'_w13 m d L fs hin0) B0 := boxesDone_succ 0 12 192 _ rfl _ _ k0_pay15 Chunk.pay15_lane l12
  have l14 : BoxesDone 0 14 (tile_body.sl.HrL'_w14 m d L fs hin0) B0 := boxesDone_succ 0 13 208 _ rfl _ _ k0_pay16 Chunk.pay16_lane l13
  have l15 : BoxesDone 0 15 (tile_body.sl.HrL'_w15 m d L fs hin0) B0 := boxesDone_succ 0 14 224 _ rfl _ _ k0_pay17 Chunk.pay17_lane l14
  have l16 : BoxesDone 0 16 (tile_body.sl.HrL'_w16 m d L fs hin0) B0 := boxesDone_succ 0 15 240 _ rfl _ _ k0_pay18 Chunk.pay18_lane l15
  have hd0 : ∀ y : S256.Idx, tile_body.sl.dma50 m d L fs hin0 y = Chunk.lane (tile_body.sl.gather0 m d L fs hin0 y) :=
    fun y => Chunk.half_done_lo _ B0 _ l16 rfl y
  -- the upper half likewise, from the second fetch
  let B1 : (Chunk.rV).view.ty.Contents (Elt F) :=
    (Chunk.rHiK).view.writes (Elt F) (Chunk.rHiK).view.junk [⟨Rect.whole S256, tile_body.sl.gather1 m d L fs hin1⟩]
  have u0 : BoxesDone 256 0 B1 B1 := boxesDone_zero 256 B1
  have u1 : BoxesDone 256 1 (tile_body.sl.HrH'_w17 m d L fs hin1) B1 := boxesDone_succ 256 0 256 _ rfl _ _ k0_pay19 Chunk.pay19_lane u0
  have u2 : BoxesDone 256 2 (tile_body.sl.HrH'_w18 m d L fs hin1) B1 := boxesDone_succ 256 1 272 _ rfl _ _ k0_pay20 Chunk.pay20_lane u1
  have u3 : BoxesDone 256 3 (tile_body.sl.HrH'_w19 m d L fs hin1) B1 := boxesDone_succ 256 2 288 _ rfl _ _ k0_pay21 Chunk.pay21_lane u2
  have u4 : BoxesDone 256 4 (tile_body.sl.HrH'_w20 m d L fs hin1) B1 := boxesDone_succ 256 3 304 _ rfl _ _ k0_pay22 Chunk.pay22_lane u3
  have u5 : BoxesDone 256 5 (tile_body.sl.HrH'_w21 m d L fs hin1) B1 := boxesDone_succ 256 4 320 _ rfl _ _ (fun v => k0_pay24 (k0_pay23 v)) Chunk.pay24_23_lane u4
  have u6 : BoxesDone 256 6 (tile_body.sl.HrH'_w22 m d L fs hin1) B1 := boxesDone_succ 256 5 336 _ rfl _ _ k0_pay25 Chunk.pay25_lane u5
  have u7 : BoxesDone 256 7 (tile_body.sl.HrH'_w23 m d L fs hin1) B1 := boxesDone_succ 256 6 352 _ rfl _ _ k0_pay26 Chunk.pay26_lane u6
  have u8 : BoxesDone 256 8 (tile_body.sl.HrH'_w24 m d L fs hin1) B1 := boxesDone_succ 256 7 368 _ rfl _ _ k0_pay27 Chunk.pay27_lane u7
  have u9 : BoxesDone 256 9 (tile_body.sl.HrH'_w25 m d L fs hin1) B1 := boxesDone_succ 256 8 384 _ rfl _ _ k0_pay28 Chunk.pay28_lane u8
  have u10 : BoxesDone 256 10 (tile_body.sl.HrH'_w26 m d L fs hin1) B1 := boxesDone_succ 256 9 400 _ rfl _ _ (fun v => k0_pay30 (k0_pay29 v)) Chunk.pay30_29_lane u9
  have u11 : BoxesDone 256 11 (tile_body.sl.HrH'_w27 m d L fs hin1) B1 := boxesDone_succ 256 10 416 _ rfl _ _ k0_pay31 Chunk.pay31_lane u10
  have u12 : BoxesDone 256 12 (tile_body.sl.HrH'_w28 m d L fs hin1) B1 := boxesDone_succ 256 11 432 _ rfl _ _ k0_pay32 Chunk.pay32_lane u11
  have u13 : BoxesDone 256 13 (tile_body.sl.HrH'_w29 m d L fs hin1) B1 := boxesDone_succ 256 12 448 _ rfl _ _ k0_pay33 Chunk.pay33_lane u12
  have u14 : BoxesDone 256 14 (tile_body.sl.HrH'_w30 m d L fs hin1) B1 := boxesDone_succ 256 13 464 _ rfl _ _ k0_pay34 Chunk.pay34_lane u13
  have u15 : BoxesDone 256 15 (tile_body.sl.HrH'_w31 m d L fs hin1) B1 := boxesDone_succ 256 14 480 _ rfl _ _ (fun v => k0_pay1 (k0_pay35 v)) Chunk.pay1_35_lane u14
  have u16 : BoxesDone 256 16 (tile_body.sl.HrH'_w32 m d L fs hin1) B1 := boxesDone_succ 256 15 496 _ rfl _ _ k0_pay2 Chunk.pay2_lane u15
  have hd1 : ∀ y : S256.Idx, tile_body.sl.dma99 m d L fs hin1 y = Chunk.lane (tile_body.sl.gather1 m d L fs hin1 y) :=
    fun y => Chunk.half_done_hi _ B1 _ u16 rfl y
  -- an output entry holds the scalar function of the table's row its own index names
  have hv0 : ∀ i ∈ oLoSetK L, (oLoK L).view.writes (Elt F) (m (oLoc d)) [⟨Rect.whole S256, tile_body.sl.dma50 m d L fs hin0⟩] i = outFn m hpre d i := by
    intro i hi
    obtain ⟨y, rfl⟩ := Fetch.exists_of_mem_oLo L i hi
    refine (Fetch.out_lo_apply L _ _ y).trans ((hd0 y).trans ?_)
    refine congrArg Chunk.lane ?_
    refine Fetch.fetch_lo_of (m (xLoc d)) fs (tile_body.sl.dma0 m d L) _ hin0 y _ ?_
    show (m (iLoc d) ((Fetch.oLoK L).view.emb y)).toNat = (tile_body.sl.dma0 m d L ((Fetch.sLoK).view.emb y)).toNat
    rw [← Fetch.iBlk_emb_sLo L y]; rfl
  have hv1 : ∀ i ∈ oHiSetK L, (oHiK L).view.writes (Elt F) (m (oLoc d)) [⟨Rect.whole S256, tile_body.sl.dma99 m d L fs hin1⟩] i = outFn m hpre d i := by
    intro i hi
    obtain ⟨y, rfl⟩ := Fetch.exists_of_mem_oHi L i hi
    refine (Fetch.out_hi_apply L _ _ y).trans ((hd1 y).trans ?_)
    refine congrArg Chunk.lane ?_
    refine Fetch.fetch_hi_of (m (xLoc d)) fs (tile_body.sl.dma0 m d L) _ hin1 y _ ?_
    show (m (iLoc d) ((Fetch.oHiK L).view.emb y)).toNat = (tile_body.sl.dma0 m d L ((Fetch.sHiK).view.emb y)).toNat
    rw [← Fetch.iBlk_emb_sHi L y]; rfl
  isplitl [Hi' Hxa' Hxb' Ho0' Ho1']
  · isplitl [Hi']; · iapply (Entails.of_eq (pts_iBlkK (F := F) d L _)); iexact Hi'
    isplitl [Hxa' Hxb']
    · iapply (pointsTo_share (PosShare.mem_left_op_right q)).2
      isplitl [Hxa']
      · iapply (Entails.of_eq (pts_xV (F := F) d L _ _)); iexact Hxa'
      · iapply (Entails.of_eq (pts_xV (F := F) d L _ _)); iexact Hxb'
    isplitl [Ho0']
    · iapply (Entails.of_eq ((pts_oLoK (F := F) d L _).trans (pointsTo_congr hv0))); iexact Ho0'
    · iapply (Entails.of_eq ((pts_oHiK (F := F) d L _).trans (pointsTo_congr hv1))); iexact Ho1'
  isplitl [Hs' HrL' HrH' Hbufs]
  · isplitl [Hs']; · iexists _; iapply (Entails.of_eq (pts_sV (F := F) d L _)); iexact Hs'
    isplitl [HrL' HrH']
    · iapply (scratch1_join (F := F) d L _ _); isplitl [HrL']
      · iexact HrL'
      · iexact HrH'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## What the handshakes carry, and the obligation -/

end Tile

/-- Task i of core c, as coordinates. -/
abbrev LofV (c : Fin ((K (F := F)).nCore 0)) (i : Fin ((K (F := F)).nSub 0)) : grid0.Coords := Blocks.coords ⟨c.val, c.isLt⟩ ⟨i.val, i.isLt⟩
/-- Its read share of the table. -/
abbrev xq (c : Fin ((K (F := F)).nCore 0)) (i : Fin ((K (F := F)).nSub 0)) : PosShare TreeShare :=
  dealShare fullShare (Fin.cast nCore_zero c) (Fin.cast nSub_zero i)

/-- What a task is handed: its 512 indices, its read share of the table, its two runs of 256 outputs as launched; -/
abbrev goRes (d : Dev nD) (c : Fin ((K (F := F)).nCore 0)) (i : Fin ((K (F := F)).nSub 0)) : sProp 𝕄 :=
  iprop((iLoc d ↦[iSetK (LofV c i)]{fullShare} m (iLoc d)) ∗ (xLoc d ↦{xq c i} m (xLoc d))
    ∗ (oLoc d ↦[oLoSetK (LofV c i)]{fullShare} m (oLoc d)) ∗ (oLoc d ↦[oHiSetK (LofV c i)]{fullShare} m (oLoc d)))
/-- and what it hands back: the same, its outputs now the output function's. -/
abbrev tdRes (hpre : PreOK m) (d : Dev nD) (c : Fin ((K (F := F)).nCore 0)) (i : Fin ((K (F := F)).nSub 0)) : sProp 𝕄 :=
  iprop((iLoc d ↦[iSetK (LofV c i)]{fullShare} m (iLoc d)) ∗ (xLoc d ↦{xq c i} m (xLoc d))
    ∗ (oLoc d ↦[oLoSetK (LofV c i)]{fullShare} outFn m hpre d) ∗ (oLoc d ↦[oHiSetK (LofV c i)]{fullShare} outFn m hpre d))

/-- A core is handed its sixteen tasks' resources together and hands them back together; the split among the cores
    is made where the call is launched. -/
def P (hpre : PreOK m) : (K (F := F)).Pay (nD := nD) (Val := Elt F) (Name := ℕ) (U := UU) where
  st := fun q d c => match q with | 0 => bigSep Finset.univ fun i => goRes m d c i
  dn := fun q d c => match q with | 0 => bigSep Finset.univ fun i => tdRes m hpre d c i
  go := fun q d c i => match q with | 0 => goRes m d c i
  td := fun q d c i => match q with | 0 => tdRes m hpre d c i
  x := fun _ _ => iprop(emp)

instance P_storable (hpre : PreOK m) : (P (F := F) m hpre).IsStorable where
  st q d c := match q with
    | 0 => (inferInstance : BI.Storable (upEmb : UEmb _ 𝕄) (bigSep Finset.univ fun i => goRes m d c i))
  dn q d c := match q with
    | 0 => (inferInstance : BI.Storable (upEmb : UEmb _ 𝕄) (bigSep Finset.univ fun i => tdRes m hpre d c i))
  go q d c i := match q with
    | 0 => (inferInstance : BI.Storable (upEmb : UEmb _ 𝕄) (goRes m d c i))
  td q d c i := match q with
    | 0 => (inferInstance : BI.Storable (upEmb : UEmb _ 𝕄) (tdRes m hpre d c i))

theorem defs₀_vector (c : Fin τ.nSC) (s : Fin τ.nSub) :
    defs₀ (F := F) (.scVector c s) 0 ()
      = SparseCore.onTile hcore0 hsub0 (fun c s => cc0__body (Blocks.coords c s)
          iV (Memref.isWhole_whole _) xV (Memref.isWhole_whole _) oV (Memref.isWhole_whole _)
          sV (Memref.isWhole_whole _) rV (Memref.isWhole_whole _) cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (Blocks.coords ⟨_, hci.1⟩ ⟨_, hci.2⟩) hF hpre (xq c i) O W hO).trans (wp_mono frame _ _ fun _ => obl_post)

end Cert.Kernel.Lookup

end
-- ==== Proof.LaunchBits.lean ====
/-
  The launch of the lookup's thirty-two tasks, and what the program's run leaves.

  The TensorCore starts the one call holding the index array, the table and the output array whole. The index array and
  the output array are dealt out by runs of 512 entries (one run per task: the runs are pairwise disjoint and cover the
  arrays), the table by read shares (every task reads all of it at once, so each gets a share of the whole table, the
  full share halved five times). Each task returns its run of the output holding the output function's entries there,
  so the runs joined again are the output array holding the output function; the index array and the table come back as
  they were.
-/
import proofs.«207177_g90812788506957_cont_sun_c4_559_12_alg».proof.Proof.TileBits

noncomputable section

namespace Cert.Kernel.Lookup

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareDeal (dealShare pointsTo_deal)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A core's tasks: nothing to split, the core holds its tasks' resources as they are -/

theorem vecSplit (hpre : PreOK m) : (K (F := F)).VecSplit' (P m hpre) 0 := by
  intro d c
  show (bigSep Finset.univ fun i => goRes m d c i) ⊢ |={Set.univ}=> iprop(
      (bigSep Finset.univ fun i : Fin ((K (F := F)).nSub 0) => goRes m d c i)
      ∗ ((bigSep Finset.univ fun i : Fin ((K (F := F)).nSub 0) => tdRes m hpre d c i)
          -∗ bigSep Finset.univ fun i : Fin ((K (F := F)).nSub 0) => tdRes m hpre d c i))
  iintro H; imodintro
  isplitl [H]; · iexact H
  iintro H'; iexact H'

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_emp']
  iempintro

/-! ## The arrays dealt to the tasks -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f

omit [FloatOps F] in
/-- An array of 16384 entries held whole is its thirty-two runs of 512 held together, -/
theorem deal_i (d : Dev nD) (f : Buf (Elt F) (iLoc d)) :
    (iLoc d ↦{fullShare} f : sProp 𝕄)
      = bigSep Finset.univ fun c : Fin ((K (F := F)).nCore 0) => bigSep Finset.univ fun i : Fin ((K (F := F)).nSub 0) => iLoc d ↦[iSetK (LofV c i)]{fullShare} f := by
  have e1 : ∀ c : Fin ((K (F := F)).nCore 0),
      (bigSep Finset.univ fun i : Fin ((K (F := F)).nSub 0) => (iLoc d ↦[iSetK (LofV c i)]{fullShare} f : sProp 𝕄))
        = iLoc d ↦[Finset.univ.biUnion fun i : Fin ((K (F := F)).nSub 0) => iSetK (LofV c i)]{fullShare} f :=
    fun c => (pointsTo_biUnion Finset.univ (ℓ := iLoc d) (fun i : Fin ((K (F := F)).nSub 0) => iSetK (LofV c i)) (Blocks.iSet_inner c)).symm
  rw [show (bigSep Finset.univ fun c : Fin ((K (F := F)).nCore 0) => bigSep Finset.univ fun i : Fin ((K (F := F)).nSub 0) => (iLoc d ↦[iSetK (LofV c i)]{fullShare} f : sProp 𝕄))
      = bigSep Finset.univ fun c : Fin ((K (F := F)).nCore 0) => iLoc d ↦[Finset.univ.biUnion fun i : Fin ((K (F := F)).nSub 0) => iSetK (LofV c i)]{fullShare} f from
    bigSep_congr fun c _ => e1 c]
  exact (congrArg (fun S => (iLoc d ↦[S]{fullShare} f : sProp 𝕄)) Blocks.iSet_cover.symm).trans
    (pointsTo_biUnion Finset.univ (ℓ := iLoc d) (q := fullShare) (f := f)
      (fun c : Fin ((K (F := F)).nCore 0) => Finset.univ.biUnion fun i : Fin ((K (F := F)).nSub 0) => iSetK (LofV c i)) Blocks.iSet_outer)

omit [FloatOps F] in
/-- likewise with each run in its two halves, -/
theorem deal_o (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          iprop((oLoc d ↦[oLoSetK (LofV c i)]{fullShare} f) ∗ oLoc d ↦[oHiSetK (LofV c i)]{fullShare} f) := by
  have e0 : ∀ (c : Fin ((K (F := F)).nCore 0)) (i : Fin ((K (F := F)).nSub 0)),
      (iprop((oLoc d ↦[oLoSetK (LofV c i)]{fullShare} f) ∗ oLoc d ↦[oHiSetK (LofV c i)]{fullShare} f) : sProp 𝕄)
        = oLoc d ↦[oLoSetK (LofV c i) ∪ oHiSetK (LofV c i)]{fullShare} f :=
    fun c i => (BI.Entails.antisymm (pointsTo_union (Blocks.disjoint_oLo_oHi (LofV c i))).1 (pointsTo_union (Blocks.disjoint_oLo_oHi (LofV c i))).2).symm
  have e1 : ∀ c : Fin ((K (F := F)).nCore 0),
      (bigSep Finset.univ fun i : Fin ((K (F := F)).nSub 0) =>
          (iprop((oLoc d ↦[oLoSetK (LofV c i)]{fullShare} f) ∗ oLoc d ↦[oHiSetK (LofV c i)]{fullShare} f) : sProp 𝕄))
        = oLoc d ↦[Finset.univ.biUnion fun i : Fin ((K (F := F)).nSub 0) => oLoSetK (LofV c i) ∪ oHiSetK (LofV c i)]{fullShare} f :=
    fun c => (bigSep_congr fun i _ => e0 c i).trans
      (pointsTo_biUnion Finset.univ (ℓ := oLoc d) (fun i : Fin ((K (F := F)).nSub 0) => oLoSetK (LofV c i) ∪ oHiSetK (LofV c i)) (Blocks.oSet_inner c)).symm
  rw [show (bigSep Finset.univ fun c : Fin ((K (F := F)).nCore 0) => bigSep Finset.univ fun i : Fin ((K (F := F)).nSub 0) =>
          (iprop((oLoc d ↦[oLoSetK (LofV c i)]{fullShare} f) ∗ oLoc d ↦[oHiSetK (LofV c i)]{fullShare} f) : sProp 𝕄))
      = bigSep Finset.univ fun c : Fin ((K (F := F)).nCore 0) => oLoc d ↦[Finset.univ.biUnion fun i : Fin ((K (F := F)).nSub 0) => oLoSetK (LofV c i) ∪ oHiSetK (LofV c i)]{fullShare} f from
    bigSep_congr fun c _ => e1 c]
  exact (congrArg (fun S => (oLoc d ↦[S]{fullShare} f : sProp 𝕄)) Blocks.oSet_cover.symm).trans
    (pointsTo_biUnion Finset.univ (ℓ := oLoc d) (q := fullShare) (f := f)
      (fun c : Fin ((K (F := F)).nCore 0) => Finset.univ.biUnion fun i : Fin ((K (F := F)).nSub 0) => oLoSetK (LofV c i) ∪ oHiSetK (LofV c i)) Blocks.oSet_outer)

omit [FloatOps F] in
/-- and the table held whole is its thirty-two read shares held together. -/
theorem deal_x (d : Dev nD) (f : Buf (Elt F) (xLoc d)) :
    (xLoc d ↦{fullShare} f : sProp 𝕄)
      = bigSep Finset.univ fun c : Fin ((K (F := F)).nCore 0) => bigSep Finset.univ fun i : Fin ((K (F := F)).nSub 0) => xLoc d ↦{xq c i} f :=
  pointsTo_deal (xLoc d) Finset.univ f fullShare

omit [FloatOps F] in
/-- Four families held task by task are the four held family by family. -/
theorem bigSep_four (A B C E : Fin ((K (F := F)).nCore 0) → Fin ((K (F := F)).nSub 0) → sProp 𝕄) :
    (bigSep Finset.univ fun c => bigSep Finset.univ fun i => iprop(A c i ∗ B c i ∗ C c i ∗ E c i))
      = iprop((bigSep Finset.univ fun c => bigSep Finset.univ fun i => A c i) ∗ (bigSep Finset.univ fun c => bigSep Finset.univ fun i => B c i)
          ∗ (bigSep Finset.univ fun c => bigSep Finset.univ fun i => iprop(C c i ∗ E c i))) := by
  rw [show (bigSep Finset.univ fun c => bigSep Finset.univ fun i => iprop(A c i ∗ B c i ∗ C c i ∗ E c i))
      = bigSep Finset.univ fun c => iprop((bigSep Finset.univ fun i => A c i) ∗ (bigSep Finset.univ fun i => B c i) ∗ (bigSep Finset.univ fun i => iprop(C c i ∗ E c i))) from
    bigSep_congr fun c _ => by rw [bigSep_sep', bigSep_sep'], bigSep_sep', bigSep_sep']

theorem st0_eq (hpre : PreOK m) (d : Dev nD) :
    (bigSep Finset.univ fun c : Fin ((K (F := F)).nCore 0) => (P m hpre).st 0 d c) = iprop(iPts m d ∗ xPts m d ∗ oPts d (m (oLoc d))) := by
  show (bigSep Finset.univ fun c => bigSep Finset.univ fun i => goRes m d c i) = _
  unfold iPts xPts oPts
  rw [deal_i, deal_x, deal_o]
  exact bigSep_four _ _ _ _

theorem dn0_eq (hpre : PreOK m) (d : Dev nD) :
    (bigSep Finset.univ fun c : Fin ((K (F := F)).nCore 0) => (P m hpre).dn 0 d c) = iprop(iPts m d ∗ xPts m d ∗ oPts d (outFn m hpre d)) := by
  show (bigSep Finset.univ fun c => bigSep Finset.univ fun i => tdRes m hpre d c i) = _
  unfold iPts xPts oPts
  rw [deal_i, deal_x, deal_o]
  exact bigSep_four _ _ _ _

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (hpre : PreOK m) (d : Dev nD) : sProp 𝕄 := iprop(iPts m d ∗ xPts m d ∗ oPts d (outFn m hpre d))

/-- @main on device d's TensorCore: the one call, from the three arrays; the index array and the table kept, the output
    array left at the output function. -/
theorem hmain (hpre : PreOK m) (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m hpre) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m hpre d)) $$ Hdn
  icases Hdn' with ⟨Hi, Hx, Ho⟩
  imodintro
  isplitl [Hst]; · iexact Hst
  isplitl [Hi]; · iexact Hi
  isplitl [Hx]; · iexact Hx
  iexact Ho

def fq (hpre : PreOK m) (d : Dev nD) (s' : Phys nD τ sig (Elt F)) : Prop :=
  s'.mem.mem (oLoc d) = outFn m hpre d ∧ s'.mem.mem (iLoc d) = m (iLoc d) ∧ s'.mem.mem (xLoc d) = m (xLoc d)

set_option maxRecDepth 16384 in
theorem hfin (hpre : PreOK m) (d : Dev nD) (s' : Phys nD τ sig (Elt F)) : iprop(FIN m hpre d ∗ SI s') ⊢ (⌜fq m hpre d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outFn m hpre d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC (hpre : PreOK m) : PUnit × MemSt nD τ sig (Elt F) → Prop := fun r => ∀ c : Dev nD,
  r.2.mem (oLoc c) = outFn m hpre c ∧ r.2.mem (iLoc c) = m (iLoc c) ∧ r.2.mem (xLoc c) = m (xLoc c)

/-- Every weakly fair execution of the program from a launch memory whose indices name rows of the table terminates,
    nothing faulting, with the output array holding the output function of the launch memory and the two argument arrays
    unchanged. -/
theorem run_main [∀ e, Nonempty (Elt F e)] (hpre : PreOK m) :
    θ_run (Cert.Kernel.defs (F := F)) (Cert.Kernel.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (fq m hpre) (hfin m hpre) (QC m hpre) (fun _ h => h)

end Cert.Kernel.Lookup

end
-- ==== Proof.BlocksIdeal.lean ====
/-
  How the 16384 entries are shared out among the 32 vector subcores. The subcore at coordinates (c, s) — core c of 2,
  subcore s of 16 — owns the run of 512 consecutive entries starting at 1024·s + 512·c: it reads its indices from that
  run of the index array, and writes its results to the same run of the output array in two halves of 256. Here: the
  sets of entries these slices name, by coordinates; the two output halves are disjoint and together make the run of
  512; and, over subcores and then over cores, the runs are pairwise disjoint and cover all 16384 entries. Every fact
  is linear arithmetic over the entry's coordinate and the closed forms of the slice offsets; no index set is ever
  enumerated.
-/
import proofs.«207177_g90812788506957_cont_sun_c4_559_12_alg».proof.Proof.Gen.KernelIdeal

noncomputable section

namespace Cert.KernelIdeal.Blocks

open Cert.KernelIdeal Cert.KernelIdeal.Gen Idealize.ShloMosaic

/-- The coordinates of subcore s of core c. -/
def coords (c : Fin (grid0.bound 0)) (s : Fin (grid0.bound 1)) : grid0.Coords :=
  fun | 0 => c | 1 => s | ⟨_ + 2, h⟩ => absurd h (Nat.not_lt.2 (Nat.le_add_left _ _))

@[simp] theorem coords_zero (c : Fin (grid0.bound 0)) (s : Fin (grid0.bound 1)) : coords c s 0 = c := rfl
@[simp] theorem coords_one (c : Fin (grid0.bound 0)) (s : Fin (grid0.bound 1)) : coords c s 1 = s := rfl

/-- The entries of the index array that subcore L reads: a run of 512. -/
abbrev iSet (L : grid0.Coords) : Finset S16384.Idx :=
  ((View.whole (main_arg0_scv : Ref sig .scVector)).slice
    (Rect.unit (s := S16384) (k0_off1 L) S512.size (k0_off1_inb L))).set

/-- The entries of the output array that subcore L writes first: the lower 256 of its run. -/
abbrev oLoSet (L : grid0.Coords) : Finset S16384.Idx :=
  ((View.whole (main_v0_scv : Ref sig .scVector)).slice
    (Rect.unit (s := S16384) (k0_off2 L 0#32) S256.size (k0_off2_inb L 0))).set

/-- The entries of the output array that subcore L writes second: the upper 256 of its run. -/
abbrev oHiSet (L : grid0.Coords) : Finset S16384.Idx :=
  ((View.whole (main_v0_scv : Ref sig .scVector)).slice
    (Rect.unit (s := S16384) (k0_off2 L 256#32) S256.size (k0_off2_inb L 1))).set

/-- All the entries of the output array that subcore L writes. -/
abbrev oSet (L : grid0.Coords) : Finset S16384.Idx := oLoSet L ∪ oHiSet L

/-- Where subcore L's run starts. -/
abbrev base (L : grid0.Coords) : Nat := 1024 * (L 1).val + 512 * (L 0).val

/-- A run of n consecutive entries of a one-axis array, starting at lo: membership by the coordinate. -/
theorem mem_run {off size : Fin 1 → Nat} {inb : ∀ a, off a + size a ≤ S16384.size a} (lo n : Nat)
    (hoff : off = ![lo]) (hsize : size 0 = n) (j : S16384.Idx) :
    j ∈ (Rect.unit (s := S16384) off size inb).set ↔ lo ≤ (j 0).val ∧ (j 0).val < lo + n := by
  subst hoff
  rw [Rect.mem_set_unit]
  constructor
  · intro h
    have h0 := h 0
    simpa [hsize] using h0
  · intro h a
    fin_cases a
    simpa [hsize] using h

/-! ## Membership, by coordinates -/

theorem mem_iSet (L : grid0.Coords) (j : S16384.Idx) :
    j ∈ iSet L ↔ 1024 * (L 1).val + 512 * (L 0).val ≤ (j 0).val
      ∧ (j 0).val < 1024 * (L 1).val + 512 * (L 0).val + 512 := by
  unfold iSet
  rw [View.set_slice_whole]
  exact mem_run _ 512 (k0_off1_eq L) rfl j

theorem mem_oLoSet (L : grid0.Coords) (j : S16384.Idx) :
    j ∈ oLoSet L ↔ 1024 * (L 1).val + 512 * (L 0).val ≤ (j 0).val
      ∧ (j 0).val < 1024 * (L 1).val + 512 * (L 0).val + 256 := by
  unfold oLoSet
  rw [View.set_slice_whole]
  have e : k0_off2 L 0#32 = ![1024 * (L 1).val + 512 * (L 0).val + 256 * 0] := k0_off2_eq L ⟨0, by decide⟩
  exact mem_run _ 256 e rfl j

theorem mem_oHiSet (L : grid0.Coords) (j : S16384.Idx) :
    j ∈ oHiSet L ↔ 1024 * (L 1).val + 512 * (L 0).val + 256 ≤ (j 0).val
      ∧ (j 0).val < 1024 * (L 1).val + 512 * (L 0).val + 512 := by
  unfold oHiSet
  rw [View.set_slice_whole]
  have e : k0_off2 L 256#32 = ![1024 * (L 1).val + 512 * (L 0).val + 256 * 1] := k0_off2_eq L ⟨1, by decide⟩
  exact (mem_run _ 256 e rfl j).trans (by omega)

/-! ## The two output halves -/

theorem disjoint_oLo_oHi (L : grid0.Coords) : Disjoint (oLoSet L) (oHiSet L) := by
  rw [Finset.disjoint_left]
  intro j h1 h2
  rw [mem_oLoSet] at h1
  rw [mem_oHiSet] at h2
  omega

theorem mem_oSet (L : grid0.Coords) (j : S16384.Idx) :
    j ∈ oSet L ↔ 1024 * (L 1).val + 512 * (L 0).val ≤ (j 0).val
      ∧ (j 0).val < 1024 * (L 1).val + 512 * (L 0).val + 512 := by
  unfold oSet
  rw [Finset.mem_union, mem_oLoSet, mem_oHiSet]
  omega

/-- The output run and the index run of a subcore are the same set of entries. -/
theorem oSet_eq_iSet (L : grid0.Coords) : oSet L = iSet L := by
  ext j
  rw [mem_oSet, mem_iSet]

/-! ## The partition over subcores, then cores

A family K of sets indexed by coordinates, each the run of 512 from the subcore's start. -/

/-- The bounds of the two coordinates, as numbers. -/
theorem core_lt (c : Fin (grid0.bound 0)) : c.val < 2 := c.isLt
theorem sub_lt (s : Fin (grid0.bound 1)) : s.val < 16 := s.isLt
theorem entry_lt (j : S16384.Idx) : (j 0).val < 16384 := (j 0).isLt

section Partition

variable (K : grid0.Coords → Finset S16384.Idx)
  (hK : ∀ L j, j ∈ K L ↔ 1024 * (L 1).val + 512 * (L 0).val ≤ (j 0).val
      ∧ (j 0).val < 1024 * (L 1).val + 512 * (L 0).val + 512)

include hK

/-- On one core, different subcores own disjoint runs. -/
theorem inner_of (c : Fin (grid0.bound 0)) :
    ∀ s ∈ (Finset.univ : Finset (Fin (grid0.bound 1))), ∀ s' ∈ (Finset.univ : Finset (Fin (grid0.bound 1))),
      s ≠ s' → Disjoint (K (coords c s)) (K (coords c s')) := by
  intro s _ s' _ hne
  rw [Finset.disjoint_left]
  intro j h1 h2
  rw [hK] at h1 h2
  simp only [coords_zero, coords_one] at h1 h2
  have hv : s.val ≠ s'.val := fun e => hne (Fin.ext e)
  omega

/-- Membership in what one core's subcores own together. -/
theorem mem_core_of (c : Fin (grid0.bound 0)) (j : S16384.Idx) :
    j ∈ (Finset.univ : Finset (Fin (grid0.bound 1))).biUnion (fun s => K (coords c s))
      ↔ ∃ s : Fin (grid0.bound 1), 1024 * s.val + 512 * c.val ≤ (j 0).val ∧ (j 0).val < 1024 * s.val + 512 * c.val + 512 := by
  rw [Finset.mem_biUnion]
  constructor
  · rintro ⟨s, -, h⟩
    rw [hK] at h
    exact ⟨s, h⟩
  · rintro ⟨s, h⟩
    refine ⟨s, Finset.mem_univ s, ?_⟩
    rw [hK]
    exact h

/-- Different cores own disjoint sets of entries. -/
theorem outer_of :
    ∀ c ∈ (Finset.univ : Finset (Fin (grid0.bound 0))), ∀ c' ∈ (Finset.univ : Finset (Fin (grid0.bound 0))),
      c ≠ c' → Disjoint ((Finset.univ : Finset (Fin (grid0.bound 1))).biUnion fun s => K (coords c s))
        ((Finset.univ : Finset (Fin (grid0.bound 1))).biUnion fun s => K (coords c' s)) := by
  intro c _ c' _ hne
  rw [Finset.disjoint_left]
  intro j h1 h2
  obtain ⟨s, h1⟩ := (mem_core_of K hK c j).1 h1
  obtain ⟨s', h2⟩ := (mem_core_of K hK c' j).1 h2
  have hv : c.val ≠ c'.val := fun e => hne (Fin.ext e)
  have := core_lt c
  have := core_lt c'
  omega

/-- Every entry is owned by some subcore of some core: entry n by subcore n / 1024 of core (n / 512) mod 2. -/
theorem cover_of :
    ((Finset.univ : Finset (Fin (grid0.bound 0))).biUnion fun c =>
      (Finset.univ : Finset (Fin (grid0.bound 1))).biUnion fun s => K (coords c s)) = Finset.univ := by
  rw [Finset.eq_univ_iff_forall]
  intro j
  have hj := entry_lt j
  rw [Finset.mem_biUnion]
  refine ⟨⟨((j 0).val / 512) % 2, Nat.mod_lt _ (by decide)⟩, Finset.mem_univ _, ?_⟩
  rw [mem_core_of K hK]
  refine ⟨⟨(j 0).val / 1024, ?_⟩, ?_⟩
  · show (j 0).val / 1024 < 16
    omega
  · show 1024 * ((j 0).val / 1024) + 512 * (((j 0).val / 512) % 2) ≤ (j 0).val
      ∧ (j 0).val < 1024 * ((j 0).val / 1024) + 512 * (((j 0).val / 512) % 2) + 512
    omega

end Partition

/-! ## The index array -/

theorem iSet_inner (c : Fin (grid0.bound 0)) :
    ∀ s ∈ (Finset.univ : Finset (Fin (grid0.bound 1))), ∀ s' ∈ (Finset.univ : Finset (Fin (grid0.bound 1))),
      s ≠ s' → Disjoint (iSet (coords c s)) (iSet (coords c s')) :=
  inner_of iSet mem_iSet c

theorem iSet_outer :
    ∀ c ∈ (Finset.univ : Finset (Fin (grid0.bound 0))), ∀ c' ∈ (Finset.univ : Finset (Fin (grid0.bound 0))),
      c ≠ c' → Disjoint ((Finset.univ : Finset (Fin (grid0.bound 1))).biUnion fun s => iSet (coords c s))
        ((Finset.univ : Finset (Fin (grid0.bound 1))).biUnion fun s => iSet (coords c' s)) :=
  outer_of iSet mem_iSet

theorem iSet_cover :
    ((Finset.univ : Finset (Fin (grid0.bound 0))).biUnion fun c =>
      (Finset.univ : Finset (Fin (grid0.bound 1))).biUnion fun s => iSet (coords c s)) = Finset.univ :=
  cover_of iSet mem_iSet

/-! ## The output array -/

theorem oSet_inner (c : Fin (grid0.bound 0)) :
    ∀ s ∈ (Finset.univ : Finset (Fin (grid0.bound 1))), ∀ s' ∈ (Finset.univ : Finset (Fin (grid0.bound 1))),
      s ≠ s' → Disjoint (oLoSet (coords c s) ∪ oHiSet (coords c s)) (oLoSet (coords c s') ∪ oHiSet (coords c s')) :=
  inner_of oSet mem_oSet c

theorem oSet_outer :
    ∀ c ∈ (Finset.univ : Finset (Fin (grid0.bound 0))), ∀ c' ∈ (Finset.univ : Finset (Fin (grid0.bound 0))),
      c ≠ c' → Disjoint
        ((Finset.univ : Finset (Fin (grid0.bound 1))).biUnion fun s => oLoSet (coords c s) ∪ oHiSet (coords c s))
        ((Finset.univ : Finset (Fin (grid0.bound 1))).biUnion fun s => oLoSet (coords c' s) ∪ oHiSet (coords c' s)) :=
  outer_of oSet mem_oSet

theorem oSet_cover :
    ((Finset.univ : Finset (Fin (grid0.bound 0))).biUnion fun c =>
      (Finset.univ : Finset (Fin (grid0.bound 1))).biUnion fun s => oLoSet (coords c s) ∪ oHiSet (coords c s))
      = Finset.univ :=
  cover_of oSet mem_oSet

end Cert.KernelIdeal.Blocks

end
-- ==== Proof.ChunkIdeal.lean ====
/-
  One subcore's row scratch, as pure functions. The scratch holds 512 floats; each half of 256 is filled by a fetch
  and then rewritten sixteen lanes at a time: the box at offset `o` is loaded, every lane `x` replaced by
  `exp (x · c)` (`c` the constant word), and stored back. Here: the lane function; that every box payload is the lane
  function lane by lane; the step that rewrites one more box, as an invariant on the contents (rewritten below the
  frontier, the fetched contents above); and what the copy-out of a finished half reads.
-/
import proofs.«207177_g90812788506957_cont_sun_c4_559_12_alg».proof.Proof.Gen.KernelIdeal.Skeleton
import Idealize.ShloMosaic.Lib.Pipeline.Value
import Idealize.ShloMosaic.Lib.Writes

noncomputable section

namespace Cert.KernelIdeal.Chunk

open Cert.KernelIdeal Cert.KernelIdeal.Gen Idealize.ShloMosaic

variable {F : FTy → Type} [FloatOps F]

/-! ## The lane function and the payloads -/

/-- What one lane becomes: the exponential of the lane times the constant. -/
def lane (x : Elt F .f32) : Elt F .f32 := FloatOps.exp (FloatOps.mulf x (Scalar.ofBits .f32 0x3F317218#32))

/-- A payload that casts to its own shape, multiplies by the splat constant, exponentiates and casts back is the
    lane function at every lane. -/
macro "pay_lane" : tactic => `(tactic| (simp only [shapeCast_self]; rfl))

theorem pay2_lane (v : Vec F S16 .f32) (i : S16.Idx) : k0_pay2 v i = lane (v i) := by unfold k0_pay2; pay_lane
theorem pay3_lane (v : Vec F S16 .f32) (i : S16.Idx) : k0_pay3 v i = lane (v i) := by unfold k0_pay3; pay_lane
theorem pay4_lane (v : Vec F S16 .f32) (i : S16.Idx) : k0_pay4 v i = lane (v i) := by unfold k0_pay4; pay_lane
theorem pay5_lane (v : Vec F S16 .f32) (i : S16.Idx) : k0_pay5 v i = lane (v i) := by unfold k0_pay5; pay_lane
theorem pay6_lane (v : Vec F S16 .f32) (i : S16.Idx) : k0_pay6 v i = lane (v i) := by unfold k0_pay6; pay_lane
theorem pay7_lane (v : Vec F S16 .f32) (i : S16.Idx) : k0_pay7 v i = lane (v i) := by unfold k0_pay7; pay_lane
theorem pay8_lane (v : Vec F S16 .f32) (i : S16.Idx) : k0_pay8 v i = lane (v i) := by unfold k0_pay8; pay_lane
theorem pay9_lane (v : Vec F S16 .f32) (i : S16.Idx) : k0_pay9 v i = lane (v i) := by unfold k0_pay9; pay_lane
theorem pay10_lane (v : Vec F S16 .f32) (i : S16.Idx) : k0_pay10 v i = lane (v i) := by unfold k0_pay10; pay_lane
theorem pay11_lane (v : Vec F S16 .f32) (i : S16.Idx) : k0_pay11 v i = lane (v i) := by unfold k0_pay11; pay_lane
theorem pay12_lane (v : Vec F S16 .f32) (i : S16.Idx) : k0_pay12 v i = lane (v i) := by unfold k0_pay12; pay_lane
theorem pay13_lane (v : Vec F S16 .f32) (i : S16.Idx) : k0_pay13 v i = lane (v i) := by unfold k0_pay13; pay_lane
theorem pay14_lane (v : Vec F S16 .f32) (i : S16.Idx) : k0_pay14 v i = lane (v i) := by unfold k0_pay14; pay_lane
theorem pay15_lane (v : Vec F S16 .f32) (i : S16.Idx) : k0_pay15 v i = lane (v i) := by unfold k0_pay15; pay_lane
theorem pay16_lane (v : Vec F S16 .f32) (i : S16.Idx) : k0_pay16 v i = lane (v i) := by unfold k0_pay16; pay_lane
theorem pay17_lane (v : Vec F S16 .f32) (i : S16.Idx) : k0_pay17 v i = lane (v i) := by unfold k0_pay17; pay_lane
theorem pay18_lane (v : Vec F S16 .f32) (i : S16.Idx) : k0_pay18 v i = lane (v i) := by unfold k0_pay18; pay_lane
theorem pay19_lane (v : Vec F S16 .f32) (i : S16.Idx) : k0_pay19 v i = lane (v i) := by unfold k0_pay19; pay_lane
theorem pay20_lane (v : Vec F S16 .f32) (i : S16.Idx) : k0_pay20 v i = lane (v i) := by unfold k0_pay20; pay_lane
theorem pay21_lane (v : Vec F S16 .f32) (i : S16.Idx) : k0_pay21 v i = lane (v i) := by unfold k0_pay21; pay_lane
theorem pay22_lane (v : Vec F S16 .f32) (i : S16.Idx) : k0_pay22 v i = lane (v i) := by unfold k0_pay22; pay_lane
theorem pay25_lane (v : Vec F S16 .f32) (i : S16.Idx) : k0_pay25 v i = lane (v i) := by unfold k0_pay25; pay_lane
theorem pay26_lane (v : Vec F S16 .f32) (i : S16.Idx) : k0_pay26 v i = lane (v i) := by unfold k0_pay26; pay_lane
theorem pay27_lane (v : Vec F S16 .f32) (i : S16.Idx) : k0_pay27 v i = lane (v i) := by unfold k0_pay27; pay_lane
theorem pay28_lane (v : Vec F S16 .f32) (i : S16.Idx) : k0_pay28 v i = lane (v i) := by unfold k0_pay28; pay_lane
theorem pay31_lane (v : Vec F S16 .f32) (i : S16.Idx) : k0_pay31 v i = lane (v i) := by unfold k0_pay31; pay_lane
theorem pay32_lane (v : Vec F S16 .f32) (i : S16.Idx) : k0_pay32 v i = lane (v i) := by unfold k0_pay32; pay_lane
theorem pay33_lane (v : Vec F S16 .f32) (i : S16.Idx) : k0_pay33 v i = lane (v i) := by unfold k0_pay33; pay_lane
theorem pay34_lane (v : Vec F S16 .f32) (i : S16.Idx) : k0_pay34 v i = lane (v i) := by unfold k0_pay34; pay_lane

theorem pay24_23_lane (v : Vec F S16 .f32) (i : S16.Idx) : k0_pay24 (k0_pay23 v) i = lane (v i) := by
  unfold k0_pay24 k0_pay23; pay_lane
theorem pay30_29_lane (v : Vec F S16 .f32) (i : S16.Idx) : k0_pay30 (k0_pay29 v) i = lane (v i) := by
  unfold k0_pay30 k0_pay29; pay_lane
theorem pay1_35_lane (v : Vec F S16 .f32) (i : S16.Idx) : k0_pay1 (k0_pay35 v) i = lane (v i) := by
  unfold k0_pay1 k0_pay35; pay_lane

/-! ## A store through a rectangle of a whole buffer, for any buffer -/

section AnyBuffer
variable {sig : RefSig} {κ : Kind} {Val : EltTy → Type}

/-- An unmasked store through a rectangle of a whole buffer leaves the payload at each element under the rectangle. -/
theorem write_whole_emb (b : Ref sig κ) (r : Rect b.ty.shape) (f : b.ty.Contents Val) (w : r.shape.Idx → Val b.ty.elt)
    (x : r.shape.Idx) : ((View.whole b).slice r).write Val f w Finset.univ (r.emb x) = w x :=
  View.write_emb_of_mem (v := (View.whole b).slice r) f w (Finset.mem_univ x)

/-- An unmasked store through a rectangle of a whole buffer leaves the old contents at each element off the rectangle. -/
theorem write_whole_of_not_mem (b : Ref sig κ) (r : Rect b.ty.shape) (f : b.ty.Contents Val) (w : r.shape.Idx → Val b.ty.elt)
    (i : b.ty.shape.Idx) (h : i ∉ r.set) : ((View.whole b).slice r).write Val f w Finset.univ i = f i :=
  View.write_of_not_mem (v := (View.whole b).slice r) f w Finset.univ (by rw [View.setOn_univ, View.set_slice_whole]; exact h)

/-- A load through a whole buffer at a rectangle's coordinates reads the contents under the rectangle. -/
theorem readAt_whole_apply (b : Ref sig κ) (r : Rect b.ty.shape) (f : b.ty.Contents Val) (x : r.shape.Idx) :
    (View.whole b).readAt Val r.toLoadRect f x = f (r.emb x) := rfl

end AnyBuffer

/-! ## The step -/

/-- The row scratch, whole. -/
abbrev rV : Memref sig .scVector .vmem S512 .f32 := Memref.whole cc0_scratch1

/-- ONE BOX MORE. Contents `g` that are the lane function of `B` on `[base, base + 16k)` and `B` elsewhere, after the
    box at `o = base + 16k` is loaded, mapped by a payload that is the lane function lane by lane, and stored back,
    are the lane function of `B` on `[base, base + 16(k+1))` and `B` elsewhere. -/
theorem chunk_inv (base k o : Nat) (hb : ∀ a, (![o] : Fin 1 → Nat) a + S16.size a ≤ S512.size a) (ho : o = base + 16 * k)
    (g B : (rV).view.ty.Contents (Elt F)) (w : Vec F S16 .f32 → FVec F S16 .f32) (hw : ∀ v i, w v i = lane (v i))
    (hinv : ∀ p : S512.Idx, g p = if base ≤ (p 0).val ∧ (p 0).val < base + 16 * k then lane (B p) else B p) :
    ∀ p : S512.Idx,
      ((rV).access (Rect.unit (s := S512) ![o] S16.size hb)).write (Elt F) g
          (w ((rV).view.readAt (Elt F) (Rect.unit (s := S512) ![o] S16.size hb).toLoadRect g)) Finset.univ p
        = if base ≤ (p 0).val ∧ (p 0).val < base + 16 * (k + 1) then lane (B p) else B p := by
  intro p
  by_cases hp : p ∈ (Rect.unit (s := S512) ![o] S16.size hb).set
  · obtain ⟨x, rfl⟩ := (Rect.unit (s := S512) ![o] S16.size hb).exists_idx_of_mem hp
    have h0 : (((Rect.unit (s := S512) ![o] S16.size hb).idx x) 0).val = o + 1 * (x 0).val := rfl
    have h0' : (((Rect.unit (s := S512) ![o] S16.size hb).emb x) 0).val = o + 1 * (x 0).val := rfl
    have hx : (x 0).val < 16 := (x 0).isLt
    refine (write_whole_emb (Val := Elt F) cc0_scratch1 (Rect.unit (s := S512) ![o] S16.size hb) g _ x).trans ?_
    refine (hw _ x).trans ?_
    refine (congrArg lane ((readAt_whole_apply (Val := Elt F) cc0_scratch1 (Rect.unit (s := S512) ![o] S16.size hb) g x).trans
      ((hinv _).trans (if_neg (by omega))))).trans ?_
    exact (if_pos (by omega)).symm
  · refine (write_whole_of_not_mem (Val := Elt F) cc0_scratch1 (Rect.unit (s := S512) ![o] S16.size hb) g _ p hp).trans ?_
    have hout : ¬ (o ≤ (p 0).val ∧ (p 0).val < o + 16) := fun h =>
      hp (Rect.mem_set_unit.mpr (Fin.forall_fin_one.mpr ⟨h.1, h.2⟩))
    refine (hinv p).trans ?_
    by_cases hc : base ≤ (p 0).val ∧ (p 0).val < base + 16 * k
    · rw [if_pos hc, if_pos (by omega)]
    · rw [if_neg hc, if_neg (by omega)]

/-! ## The halves, and the copy-out of a finished half -/

/-- The low half of the row scratch (elements 0 … 255) and the high half (256 … 511). -/
abbrev rLoK : Memref sig .scVector .vmem S256 .f32 :=
  (rV).slice (Rect.unit (s := S512) ![0] S256.size inb_S512_S256_0) (fun _ => rfl)
abbrev rHiK : Memref sig .scVector .vmem S256 .f32 :=
  (rV).slice (Rect.unit (s := S512) ![256] S256.size inb_S512_S256_256) (fun _ => rfl)

/-- Where element `y` of the low half sits in the scratch: at `y`. -/
theorem emb_lo (y : S256.Idx) : (((rLoK).view.emb y) 0).val = (y 0).val := by
  show 0 + 1 * (y 0).val = (y 0).val
  omega

/-- Where element `y` of the high half sits in the scratch: at `256 + y`. -/
theorem emb_hi (y : S256.Idx) : (((rHiK).view.emb y) 0).val = 256 + (y 0).val := by
  show 256 + 1 * (y 0).val = 256 + (y 0).val
  omega

/-- A half filled by one whole fetch `G` holds `G y` at its element `y`, whatever it held before. -/
theorem base_lo (G : S256.Idx → Elt F .f32) (y : S256.Idx) :
    ((rLoK).view.writes (Elt F) (rLoK).view.junk [⟨Rect.whole S256, G⟩]) ((rLoK).view.emb y) = G y := by
  have h := View.write_emb_of_mem (v := (rLoK).view.slice (Rect.whole S256)) (Val := Elt F) (rLoK).view.junk G
    (M := Finset.univ) (x := y) (Finset.mem_univ _)
  have he : ((rLoK).view.slice (Rect.whole S256)).emb y = (rLoK).view.emb y :=
    congrArg (rLoK).view.emb (Rect.emb_whole_apply S256 y)
  rw [he] at h
  exact h

theorem base_hi (G : S256.Idx → Elt F .f32) (y : S256.Idx) :
    ((rHiK).view.writes (Elt F) (rHiK).view.junk [⟨Rect.whole S256, G⟩]) ((rHiK).view.emb y) = G y := by
  have h := View.write_emb_of_mem (v := (rHiK).view.slice (Rect.whole S256)) (Val := Elt F) (rHiK).view.junk G
    (M := Finset.univ) (x := y) (Finset.mem_univ _)
  have he : ((rHiK).view.slice (Rect.whole S256)).emb y = (rHiK).view.emb y :=
    congrArg (rHiK).view.emb (Rect.emb_whole_apply S256 y)
  rw [he] at h
  exact h

/-- What the copy-out of the low half moves at `y`: the scratch's contents at the element `y` sits at. -/
theorem read_lo (W : (rV).view.ty.Contents (Elt F)) (y : S256.Idx) :
    (ReadAs.same : ReadAs (Elt F) S256 .f32 S256 .f32).apply
        (View.read (Elt F) ((Memref.whole cc0_scratch1).slice (Rect.unit (s := S512) ![0] S256.size inb_S512_S256_0) (fun _ => rfl)).view W) y
      = W ((rLoK).view.emb y) := rfl

theorem read_hi (W : (rV).view.ty.Contents (Elt F)) (y : S256.Idx) :
    (ReadAs.same : ReadAs (Elt F) S256 .f32 S256 .f32).apply
        (View.read (Elt F) ((Memref.whole cc0_scratch1).slice (Rect.unit (s := S512) ![256] S256.size inb_S512_S256_256) (fun _ => rfl)).view W) y
      = W ((rHiK).view.emb y) := rfl

/-- A FINISHED LOW HALF: contents that are the lane function of `B` on `[0, 256)`, `B` the scratch after the half's
    fetch `G`, are copied out as the lane function of `G`. -/
theorem half_done_lo (W B : (rV).view.ty.Contents (Elt F)) (G : S256.Idx → Elt F .f32)
    (hW : ∀ p : S512.Idx, W p = if 0 ≤ (p 0).val ∧ (p 0).val < 0 + 16 * 16 then lane (B p) else B p)
    (hB : B = (rLoK).view.writes (Elt F) (rLoK).view.junk [⟨Rect.whole S256, G⟩]) (y : S256.Idx) :
    (ReadAs.same : ReadAs (Elt F) S256 .f32 S256 .f32).apply
        (View.read (Elt F) ((Memref.whole cc0_scratch1).slice (Rect.unit (s := S512) ![0] S256.size inb_S512_S256_0) (fun _ => rfl)).view W) y
      = lane (G y) := by
  have hy : (y 0).val < 256 := (y 0).isLt
  have he := emb_lo y
  refine (read_lo W y).trans ((hW _).trans ((if_pos (by omega)).trans (congrArg lane ?_)))
  rw [hB]; exact base_lo G y

/-- A FINISHED HIGH HALF, likewise on `[256, 512)`. -/
theorem half_done_hi (W B : (rV).view.ty.Contents (Elt F)) (G : S256.Idx → Elt F .f32)
    (hW : ∀ p : S512.Idx, W p = if 256 ≤ (p 0).val ∧ (p 0).val < 256 + 16 * 16 then lane (B p) else B p)
    (hB : B = (rHiK).view.writes (Elt F) (rHiK).view.junk [⟨Rect.whole S256, G⟩]) (y : S256.Idx) :
    (ReadAs.same : ReadAs (Elt F) S256 .f32 S256 .f32).apply
        (View.read (Elt F) ((Memref.whole cc0_scratch1).slice (Rect.unit (s := S512) ![256] S256.size inb_S512_S256_256) (fun _ => rfl)).view W) y
      = lane (G y) := by
  have hy : (y 0).val < 256 := (y 0).isLt
  have he := emb_hi y
  refine (read_hi W y).trans ((hW _).trans ((if_pos (by omega)).trans (congrArg lane ?_)))
  rw [hB]; exact base_hi G y

end Cert.KernelIdeal.Chunk

end
-- ==== Proof.FetchIdeal.lean ====
/-
  What one indexed fetch delivers, read at an entry; and where the slices of the three arrays sit.
  A subcore copies its run of 512 index words into an index scratch, written whole, and then fetches, for each half of
  256 of the scratch, the table entries those words name: entry y of a fetch over a list of words is the table's entry
  at the list's y-th word. Here that is stated as a fact about functions: the payload of the fetch at y is the table
  at the word the scratch holds under y — for the lower half the scratch's entry y, for the upper half its entry
  256 + y. Beside it, the bookkeeping of positions: entry z of a subcore's run of the index array is entry
  base + z of that array (base = 1024·subcore + 512·core), the two output halves sit at base + y and base + 256 + y,
  so the entry of the index array under a scratch position and the entry of the output array under the same
  position are the same number; and an output half written whole reads back, at each of its entries, what was
  written.
-/
import proofs.«207177_g90812788506957_cont_sun_c4_559_12_alg».proof.Proof.BlocksIdeal
import Idealize.ShloMosaic.Lib.SparseCore.Stream
import Idealize.ShloMosaic.Lib.ValueIdx
import Idealize.ShloMosaic.Lib.Writes

noncomputable section

namespace Cert.KernelIdeal.Fetch

open Cert.KernelIdeal Cert.KernelIdeal.Gen Cert.KernelIdeal.Blocks Idealize.ShloMosaic

/-! ## The arrays and their slices -/

/-- The index array, the table, the output array, and the index scratch, each whole. -/
abbrev iV : Memref sig .scVector .hbm S16384 .i32 := Memref.whole main_arg0_scv
abbrev xV : Memref sig .scVector .hbm S100000 .f32 := Memref.whole main_arg1_scv
abbrev oV : Memref sig .scVector .hbm S16384 .f32 := Memref.whole main_v0_scv
abbrev sV : Memref sig .scVector .vmem S512 .i32 := Memref.whole cc0_scratch0

/-- Subcore L's run of 512 of the index array. -/
abbrev iBlkK (L : grid0.Coords) : Memref sig .scVector .hbm S512 .i32 :=
  iV.slice (Rect.unit (s := S16384) (k0_off1 L) S512.size (k0_off1_inb L)) (fun _ => rfl)
/-- The lower and the upper 256 of subcore L's run of the output array. -/
abbrev oLoK (L : grid0.Coords) : Memref sig .scVector .hbm S256 .f32 :=
  oV.slice (Rect.unit (s := S16384) (k0_off2 L 0#32) S256.size (k0_off2_inb L 0)) (fun _ => rfl)
abbrev oHiK (L : grid0.Coords) : Memref sig .scVector .hbm S256 .f32 :=
  oV.slice (Rect.unit (s := S16384) (k0_off2 L 256#32) S256.size (k0_off2_inb L 1)) (fun _ => rfl)
/-- The lower and the upper 256 of the index scratch. -/
abbrev sLoK : Memref sig .scVector .vmem S256 .i32 :=
  sV.slice (Rect.unit (s := S512) ![0] S256.size inb_S512_S256_0) (fun _ => rfl)
abbrev sHiK : Memref sig .scVector .vmem S256 .i32 :=
  sV.slice (Rect.unit (s := S512) ![256] S256.size inb_S512_S256_256) (fun _ => rfl)
/-- The table, sliced whole. -/
abbrev xAllK : Memref sig .scVector .hbm S100000 .f32 :=
  xV.slice (Rect.unit (s := S100000) ![0] S100000.size inb_S100000_S100000_0) (fun _ => rfl)

/-- The element sets of these slices are the sets of entries named before. -/
theorem iSet_eq (L : grid0.Coords) : iSet L = (iBlkK L).view.set := rfl
theorem oLoSet_eq (L : grid0.Coords) : oLoSet L = (oLoK L).view.set := rfl
theorem oHiSet_eq (L : grid0.Coords) : oHiSet L = (oHiK L).view.set := rfl

/-! ## Positions -/

/-- Entry z of subcore L's run of the index array is entry base + z of the array. -/
theorem iBlk_emb_val (L : grid0.Coords) (z : S512.Idx) :
    (((iBlkK L).view.emb z) 0).val = 1024 * (L 1).val + 512 * (L 0).val + (z 0).val := by
  show (k0_off1 L) 0 + 1 * (z 0).val = _
  rw [k0_off1_eq]
  simp

/-- Entry y of the lower output half is entry base + y of the output array. -/
theorem oLo_emb_val (L : grid0.Coords) (y : S256.Idx) :
    (((oLoK L).view.emb y) 0).val = 1024 * (L 1).val + 512 * (L 0).val + (y 0).val := by
  show (k0_off2 L 0#32) 0 + 1 * (y 0).val = _
  have e : k0_off2 L 0#32 = ![1024 * (L 1).val + 512 * (L 0).val + 256 * 0] := k0_off2_eq L ⟨0, by decide⟩
  rw [e]
  simp

/-- Entry y of the upper output half is entry base + 256 + y of the output array. -/
theorem oHi_emb_val (L : grid0.Coords) (y : S256.Idx) :
    (((oHiK L).view.emb y) 0).val = 1024 * (L 1).val + 512 * (L 0).val + 256 + (y 0).val := by
  show (k0_off2 L 256#32) 0 + 1 * (y 0).val = _
  have e : k0_off2 L 256#32 = ![1024 * (L 1).val + 512 * (L 0).val + 256 * 1] := k0_off2_eq L ⟨1, by decide⟩
  rw [e]
  simp

/-- Entry y of the lower half of the scratch is its entry y; of the upper half, its entry 256 + y. -/
theorem sLo_emb_val (y : S256.Idx) : (((sLoK).view.emb y) 0).val = (y 0).val := by
  show (![0] : Fin 1 → Nat) 0 + 1 * (y 0).val = _
  simp

theorem sHi_emb_val (y : S256.Idx) : (((sHiK).view.emb y) 0).val = 256 + (y 0).val := by
  show (![256] : Fin 1 → Nat) 0 + 1 * (y 0).val = _
  simp

/-- The table sliced whole places each entry at itself. -/
theorem xAll_emb (i : S100000.Idx) : (xAllK).view.emb i = i := by
  funext a
  apply Fin.ext
  fin_cases a
  show (![0] : Fin 1 → Nat) 0 + 1 * (i 0).val = (i 0).val
  simp

/-- The index entry under position y of the lower scratch half and the output entry under y of the lower output
    half are the same entry of the 16384; likewise for the upper halves. -/
theorem iBlk_emb_sLo (L : grid0.Coords) (y : S256.Idx) :
    ((iBlkK L).view.emb ((sLoK).view.emb y) : S16384.Idx) = ((oLoK L).view.emb y : S16384.Idx) := by
  funext a
  apply Fin.ext
  fin_cases a
  show (((iBlkK L).view.emb ((sLoK).view.emb y)) 0).val = (((oLoK L).view.emb y) 0).val
  rw [iBlk_emb_val, oLo_emb_val, sLo_emb_val]

theorem iBlk_emb_sHi (L : grid0.Coords) (y : S256.Idx) :
    ((iBlkK L).view.emb ((sHiK).view.emb y) : S16384.Idx) = ((oHiK L).view.emb y : S16384.Idx) := by
  funext a
  apply Fin.ext
  fin_cases a
  show (((iBlkK L).view.emb ((sHiK).view.emb y)) 0).val = (((oHiK L).view.emb y) 0).val
  rw [iBlk_emb_val, oHi_emb_val, sHi_emb_val]
  omega

/-- Every entry of an output half is under some position of the half. -/
theorem exists_of_mem_oLo (L : grid0.Coords) (i : S16384.Idx) (hi : i ∈ (oLoK L).view.set) :
    ∃ y : S256.Idx, ((oLoK L).view.emb y : S16384.Idx) = i := by
  obtain ⟨y, -, e⟩ := Finset.mem_map.mp hi
  exact ⟨y, e⟩

theorem exists_of_mem_oHi (L : grid0.Coords) (i : S16384.Idx) (hi : i ∈ (oHiK L).view.set) :
    ∃ y : S256.Idx, ((oHiK L).view.emb y : S16384.Idx) = i := by
  obtain ⟨y, -, e⟩ := Finset.mem_map.mp hi
  exact ⟨y, e⟩

variable {F : FTy → Type}

/-! ## The index scratch and the fetch -/

/-- The index scratch, written whole, holds what was written. -/
theorem scratch_written (fs : (sV).view.ty.Contents (Elt F)) (pay : S512.Idx → Elt F .i32) :
    View.write (Elt F) (sV).view fs pay Finset.univ = pay :=
  View.write_whole_univ cc0_scratch0 fs pay

/-- Read through a half of the scratch written whole: the word written under the half's position. -/
theorem sLo_read (fs : (sV).view.ty.Contents (Elt F)) (pay : S512.Idx → Elt F .i32) (x : S256.Idx) :
    (sLoK).view.read (Elt F) (View.write (Elt F) (sV).view fs pay Finset.univ) x = pay ((sLoK).view.emb x) := by
  rw [View.read_apply, scratch_written]
  rfl

theorem sHi_read (fs : (sV).view.ty.Contents (Elt F)) (pay : S512.Idx → Elt F .i32) (x : S256.Idx) :
    (sHiK).view.read (Elt F) (View.write (Elt F) (sV).view fs pay Finset.univ) x = pay ((sHiK).view.emb x) := by
  rw [View.read_apply, scratch_written]
  rfl

/-- In a one-axis shape the row-major position is the coordinate: the index at position (y 0) is y. -/
theorem rowMajor_symm_cast (y : S256.Idx) (n : Nat) (hn : S256.numel = n) (k : Fin n) (hk : k.val = (y 0).val) :
    S256.rowMajor.symm (k.cast hn.symm) = y := by
  rw [Equiv.symm_apply_eq]
  apply Fin.ext
  rw [Shape.rowMajor_val_one]
  exact hk

/-- A fetch from the table over a list of 256 words, read at entry y: the table at any entry whose number is the
    list's y-th word. -/
theorem fetch_of (vars : (xV).view.ty.Contents (Elt F)) (idx : S256.Idx → Elt F .i32)
    (hn : S256.numel = S256.size gathers_S100000_S256.axis')
    (hin : ∀ x, (idx x).toNat < S100000.size gathers_S100000_S256.axis)
    (y : S256.Idx) (j : S100000.Idx) (hj : (j 0).val = (idx y).toNat) :
    SparseCore.gatherPayload gathers_S100000_S256 (View.read (Elt F) (xAllK).view vars) (SparseCore.rows idx hn hin) y
      = vars j := by
  unfold SparseCore.gatherPayload
  rw [View.read_apply, xAll_emb]
  have hidx : gathers_S100000_S256.idx (SparseCore.rows idx hn hin) y = j := by
    funext a
    apply Fin.ext
    fin_cases a
    have h1 := congrArg Fin.val (Shape.Gathers.idx_axis gathers_S100000_S256 (SparseCore.rows idx hn hin) y)
    refine h1.trans (Eq.trans ?_ hj.symm)
    show (idx (S256.rowMajor.symm ((y gathers_S100000_S256.axis').cast hn.symm))).toNat = _
    rw [rowMajor_symm_cast y _ hn (y gathers_S100000_S256.axis') rfl]
  rw [hidx]
  rfl

/-- The fetch over the lower half of the scratch, read at entry y: the table at the word the scratch holds under
    the lower half's position y. Stated for every table entry j of that number. -/
theorem fetch_lo_of (vars : (xV).view.ty.Contents (Elt F)) (fs : (sV).view.ty.Contents (Elt F)) (pay : S512.Idx → Elt F .i32)
    (hn : S256.numel = S256.size gathers_S100000_S256.axis')
    (hin : ∀ x, ((sLoK).view.read (Elt F) (View.write (Elt F) (sV).view fs pay Finset.univ) x).toNat
      < S100000.size gathers_S100000_S256.axis)
    (y : S256.Idx) (j : S100000.Idx) (hj : (j 0).val = (pay ((sLoK).view.emb y)).toNat) :
    SparseCore.gatherPayload gathers_S100000_S256 (View.read (Elt F) (xAllK).view vars)
        (SparseCore.rows (View.read (Elt F) (sLoK).view (View.write (Elt F) (sV).view fs pay Finset.univ)) hn hin) y
      = vars j :=
  fetch_of vars _ hn hin y j (by rw [sLo_read]; exact hj)

/-- The same over the upper half of the scratch. -/
theorem fetch_hi_of (vars : (xV).view.ty.Contents (Elt F)) (fs : (sV).view.ty.Contents (Elt F)) (pay : S512.Idx → Elt F .i32)
    (hn : S256.numel = S256.size gathers_S100000_S256.axis')
    (hin : ∀ x, ((sHiK).view.read (Elt F) (View.write (Elt F) (sV).view fs pay Finset.univ) x).toNat
      < S100000.size gathers_S100000_S256.axis)
    (y : S256.Idx) (j : S100000.Idx) (hj : (j 0).val = (pay ((sHiK).view.emb y)).toNat) :
    SparseCore.gatherPayload gathers_S100000_S256 (View.read (Elt F) (xAllK).view vars)
        (SparseCore.rows (View.read (Elt F) (sHiK).view (View.write (Elt F) (sV).view fs pay Finset.univ)) hn hin) y
      = vars j :=
  fetch_of vars _ hn hin y j (by rw [sHi_read]; exact hj)

/-- The words of the lower half are in range as numbers below 100000 (what the fetch asks of its list). -/
theorem word_lt_lo (fs : (sV).view.ty.Contents (Elt F)) (pay : S512.Idx → Elt F .i32)
    (hin : ∀ x, ((sLoK).view.read (Elt F) (View.write (Elt F) (sV).view fs pay Finset.univ) x).toNat
      < S100000.size gathers_S100000_S256.axis) (y : S256.Idx) :
    (pay ((sLoK).view.emb y)).toNat < 100000 := by
  have h := hin y
  rw [sLo_read] at h
  exact h

theorem word_lt_hi (fs : (sV).view.ty.Contents (Elt F)) (pay : S512.Idx → Elt F .i32)
    (hin : ∀ x, ((sHiK).view.read (Elt F) (View.write (Elt F) (sV).view fs pay Finset.univ) x).toNat
      < S100000.size gathers_S100000_S256.axis) (y : S256.Idx) :
    (pay ((sHiK).view.emb y)).toNat < 100000 := by
  have h := hin y
  rw [sHi_read] at h
  exact h

/-- The fetch over the lower half, at the table entry built from the word. -/
theorem fetch_lo (vars : (xV).view.ty.Contents (Elt F)) (fs : (sV).view.ty.Contents (Elt F)) (pay : S512.Idx → Elt F .i32)
    (hn : S256.numel = S256.size gathers_S100000_S256.axis')
    (hin : ∀ x, ((sLoK).view.read (Elt F) (View.write (Elt F) (sV).view fs pay Finset.univ) x).toNat
      < S100000.size gathers_S100000_S256.axis)
    (y : S256.Idx) :
    SparseCore.gatherPayload gathers_S100000_S256 (View.read (Elt F) (xAllK).view vars)
        (SparseCore.rows (View.read (Elt F) (sLoK).view (View.write (Elt F) (sV).view fs pay Finset.univ)) hn hin) y
      = vars (ValueIdx.ix1 ⟨(pay ((sLoK).view.emb y)).toNat, word_lt_lo fs pay hin y⟩) :=
  fetch_lo_of vars fs pay hn hin y _ rfl

/-- The fetch over the upper half, at the table entry built from the word. -/
theorem fetch_hi (vars : (xV).view.ty.Contents (Elt F)) (fs : (sV).view.ty.Contents (Elt F)) (pay : S512.Idx → Elt F .i32)
    (hn : S256.numel = S256.size gathers_S100000_S256.axis')
    (hin : ∀ x, ((sHiK).view.read (Elt F) (View.write (Elt F) (sV).view fs pay Finset.univ) x).toNat
      < S100000.size gathers_S100000_S256.axis)
    (y : S256.Idx) :
    SparseCore.gatherPayload gathers_S100000_S256 (View.read (Elt F) (xAllK).view vars)
        (SparseCore.rows (View.read (Elt F) (sHiK).view (View.write (Elt F) (sV).view fs pay Finset.univ)) hn hin) y
      = vars (ValueIdx.ix1 ⟨(pay ((sHiK).view.emb y)).toNat, word_lt_hi fs pay hin y⟩) :=
  fetch_hi_of vars fs pay hn hin y _ rfl

/-! ## What the copy-out leaves -/

/-- An output half written whole reads back, at its entry y, what was written there. -/
theorem out_lo_apply (L : grid0.Coords) (f0 : (oV).view.ty.Contents (Elt F)) (w : S256.Idx → Elt F .f32) (y : S256.Idx) :
    ((oLoK L).view.writes (Elt F) f0 [⟨Rect.whole S256, w⟩]) ((oLoK L).view.emb y) = w y := by
  have h := View.read_writes_cons_emb (oLoK L).view f0 (Rect.whole S256) w [] y
  rw [Rect.emb_whole_apply, View.read_apply] at h
  exact h

theorem out_hi_apply (L : grid0.Coords) (f0 : (oV).view.ty.Contents (Elt F)) (w : S256.Idx → Elt F .f32) (y : S256.Idx) :
    ((oHiK L).view.writes (Elt F) f0 [⟨Rect.whole S256, w⟩]) ((oHiK L).view.emb y) = w y := by
  have h := View.read_writes_cons_emb (oHiK L).view f0 (Rect.whole S256) w [] y
  rw [Rect.emb_whole_apply, View.read_apply] at h
  exact h

end Cert.KernelIdeal.Fetch

end
-- ==== Proof.TileIdeal.lean ====
/-
  One vector subcore's task of the lookup, at a symbolic place.

  The output is out[i] = exp (vars[ids[i]] * c) for a fixed constant c. Thirty-two subcores (two cores of sixteen) each own
  a run of 512 consecutive entries: subcore s of core k owns the entries from 1024·s + 512·k. A task copies its 512 indices
  into its index scratch, fetches the two halves of the rows they name by two indexed copies (one semaphore each) into
  the two halves of its row scratch, rewrites each half sixteen lanes at a time with the exponential, and copies each
  finished half to the matching 256 entries of the output (both copies on one semaphore, waited for at the end).
  Nothing a pending copy reads or writes is touched before that copy's wait: the second fetch lands in the upper half of the
  row scratch while the lower half is rewritten, and the first copy-out reads the lower half while the upper is rewritten.
-/
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import Idealize.ShloMosaic.Lib.ValueIdx
import proofs.«207177_g90812788506957_cont_sun_c4_559_12_alg».proof.Proof.Gen.KernelIdeal
import proofs.«207177_g90812788506957_cont_sun_c4_559_12_alg».proof.Proof.Gen.KernelIdeal.Skeleton
import proofs.«207177_g90812788506957_cont_sun_c4_559_12_alg».proof.Proof.BlocksIdeal
import proofs.«207177_g90812788506957_cont_sun_c4_559_12_alg».proof.Proof.LibShareDeal
import proofs.«207177_g90812788506957_cont_sun_c4_559_12_alg».proof.Proof.ChunkIdeal
import proofs.«207177_g90812788506957_cont_sun_c4_559_12_alg».proof.Proof.FetchIdeal

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareDeal (dealShare)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100000 EltTy.f32)
local notation "oV" => (Memref.whole Cert.KernelIdeal.main_v0_scv : Memref Cert.KernelIdeal.sig Kind.scVector Space.hbm Cert.KernelIdeal.S16384 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512 EltTy.f32)

variable [FloatOps F]

section Tile

variable (d : Dev nD) (L : grid0.Coords)

abbrev cV (L : grid0.Coords) : Fin τ.nSC := (L 0).castLE hcore0
abbrev jV (L : grid0.Coords) : Fin τ.nSub := (L 1).castLE hsub0

/-- The task's 512 indices and its two runs of 256 outputs, as the task addresses them. -/
abbrev iBlkK (L : grid0.Coords) : Memref sig .scVector .hbm S512 .i32 :=
  (iV).slice (Rect.unit (s := S16384) (k0_off1 L) S512.size (k0_off1_inb L)) (fun _ => rfl)
abbrev oLoK (L : grid0.Coords) : Memref sig .scVector .hbm S256 .f32 :=
  (oV).slice (Rect.unit (s := S16384) (k0_off2 L 0#32) S256.size (k0_off2_inb L 0)) (fun _ => rfl)
abbrev oHiK (L : grid0.Coords) : Memref sig .scVector .hbm S256 .f32 :=
  (oV).slice (Rect.unit (s := S16384) (k0_off2 L 256#32) S256.size (k0_off2_inb L 1)) (fun _ => rfl)

/-- The entries those three memrefs address, as sets of indices of the arrays. -/
def iSetK (L : grid0.Coords) : Finset S16384.Idx := (iBlkK L).view.set
def oLoSetK (L : grid0.Coords) : Finset S16384.Idx := (oLoK L).view.set
def oHiSetK (L : grid0.Coords) : Finset S16384.Idx := (oHiK L).view.set

omit [FloatOps F] in
theorem pts_iBlkK (f : Buf (Elt F) (iLoc d)) :
    ((iBlkK L).view.loc (V d (cV L) (jV L)) ↦[(iBlkK L).view.set]{fullShare} f : sProp 𝕄) = iLoc d ↦[iSetK L]{fullShare} f := rfl
omit [FloatOps F] in
theorem pts_oLoK (f : Buf (Elt F) (oLoc d)) :
    ((oLoK L).view.loc (V d (cV L) (jV L)) ↦[(oLoK L).view.set]{fullShare} f : sProp 𝕄) = oLoc d ↦[oLoSetK L]{fullShare} f := rfl
omit [FloatOps F] in
theorem pts_oHiK (f : Buf (Elt F) (oLoc d)) :
    ((oHiK L).view.loc (V d (cV L) (jV L)) ↦[(oHiK L).view.set]{fullShare} f : sProp 𝕄) = oLoc d ↦[oHiSetK L]{fullShare} f := rfl
omit [FloatOps F] in
theorem pts_xV (q : PosShare TreeShare) (f : Buf (Elt F) (xLoc d)) :
    ((xV).view.loc (V d (cV L) (jV L)) ↦{q} f : sProp 𝕄) = xLoc d ↦{q} f := rfl

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scratch4.sem)
abbrev cDcell (d : Dev nD) (c : Fin τ.nSC) (i : Fin τ.nSub) : GSem nD τ sig := (V d c i, .dma cc0_scratch5.sem)

omit [FloatOps F] in
/-- The subcore's four transfer counters are among its own cells. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0 ∗ semVal (cDcell d (cV L) (jV L)) 0
          ∗ bigSep (((((ownCells (V d (cV L) (jV L))).erase (cAcell d (cV L) (jV L))).erase (cBcell d (cV L) (jV L))).erase (cCcell d (cV L) (jV L))).erase (cDcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scratch4.sem : SemLoc sig).isScoped .scVector = true; decide⟩⟩⟩),
    SparseCore.bigSep_erase' (Finset.mem_erase.mpr ⟨by simp [cCcell, cDcell]; decide, Finset.mem_erase.mpr ⟨by simp [cBcell, cDcell]; decide,
      Finset.mem_erase.mpr ⟨by simp [cAcell, cDcell]; decide,
      (mem_ownCells (g := cDcell d (cV L) (jV L))).mpr ⟨rfl, by show (SemLoc.dma cc0_scratch5.sem : SemLoc sig).isScoped .scVector = true; decide⟩⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- What the proof asks of the launch memory: every index names a row of the table. -/
def PreOK : Prop := ∀ (d : Dev nD) (j : S16384.Idx), (m (iLoc d) j).toNat < 100000

/-- The scalar function applied to every fetched row: x ↦ exp (x · c), c the constant's word. -/
def lane (x : Elt F .f32) : Elt F .f32 := FloatOps.exp (FloatOps.mulf x (Scalar.ofBits .f32 0x3F317218#32))

/-- The whole output array as one function of the launch memory: entry i is the table's row named by index i, through
    the scalar function. -/
def outFn (hpre : PreOK m) (d : Dev nD) : Buf (Elt F) (oLoc d) :=
  fun i : S16384.Idx => lane (m (xLoc d) (ValueIdx.ix1 ⟨(m (iLoc d) i).toNat, hpre d i⟩))

/-- The two halves of the index scratch, as the indexed copies name their lists. -/
abbrev sLoK : Memref sig .scVector .vmem S256 .i32 := (sV).slice (Rect.unit (s := S512) ![0] S256.size inb_S512_S256_0) (fun _ => rfl)
abbrev sHiK : Memref sig .scVector .vmem S256 .i32 := (sV).slice (Rect.unit (s := S512) ![256] S256.size inb_S512_S256_256) (fun _ => rfl)

/-- The two halves of the row scratch. -/
abbrev rLoK : Memref sig .scVector .vmem S256 .f32 := (rV).slice (Rect.unit (s := S512) ![0] S256.size inb_S512_S256_0) (fun _ => rfl)
abbrev rHiK : Memref sig .scVector .vmem S256 .f32 := (rV).slice (Rect.unit (s := S512) ![256] S256.size inb_S512_S256_256) (fun _ => rfl)

omit [FloatOps F] in
/-- The lower half of the row scratch is its entries below 256, -/
theorem mem_rLo (p : S512.Idx) : p ∈ (rLoK).view.set ↔ (p 0).val < 256 := by
  show p ∈ ((View.whole (cc0_scratch1 : Ref sig .scVector)).slice (Rect.unit (s := S512) ![0] S256.size inb_S512_S256_0)).set ↔ _
  rw [View.set_slice_whole, Rect.mem_set_unit]
  constructor
  · intro h; have h0 := h 0; simpa using h0
  · intro h a; fin_cases a; simpa using h

omit [FloatOps F] in
/-- the upper half those from 256 on, -/
theorem mem_rHi (p : S512.Idx) : p ∈ (rHiK).view.set ↔ 256 ≤ (p 0).val := by
  show p ∈ ((View.whole (cc0_scratch1 : Ref sig .scVector)).slice (Rect.unit (s := S512) ![256] S256.size inb_S512_S256_256)).set ↔ _
  rw [View.set_slice_whole, Rect.mem_set_unit]
  have hp : (p 0).val < 512 := (p 0).isLt
  constructor
  · intro h; have h0 := h 0; simp at h0; omega
  · intro h a; fin_cases a; simp; omega

omit [FloatOps F] in
/-- and the upper half is what is left of the scratch beside the lower. -/
theorem compl_rLo : (Finset.univ \ (rLoK).view.set : Finset S512.Idx) = (rHiK).view.set := by
  ext p; rw [Finset.mem_sdiff, mem_rLo, mem_rHi]; simp

omit [FloatOps F] in
theorem pts_rLoK (g : Buf (Elt F) ((V d (cV L) (jV L)).loc cc0_scratch1)) :
    ((rLoK).view.loc (V d (cV L) (jV L)) ↦[(rLoK).view.set]{fullShare} g : sProp 𝕄)
      = (V d (cV L) (jV L)).loc cc0_scratch1 ↦[(rLoK).view.set]{fullShare} g := rfl
omit [FloatOps F] in
theorem pts_rHiK (g : Buf (Elt F) ((V d (cV L) (jV L)).loc cc0_scratch1)) :
    ((rHiK).view.loc (V d (cV L) (jV L)) ↦[(rHiK).view.set]{fullShare} g : sProp 𝕄)
      = (V d (cV L) (jV L)).loc cc0_scratch1 ↦[Finset.univ \ (rLoK).view.set]{fullShare} g := by
  rw [compl_rLo]

omit [FloatOps F] in
/-- The two halves of the row scratch, each at its own contents, are the whole scratch at some contents. -/
theorem scratch1_join (WL WH : Buf (Elt F) ((V d (cV L) (jV L)).loc cc0_scratch1)) :
    iprop(((rLoK).view.loc (V d (cV L) (jV L)) ↦[(rLoK).view.set]{fullShare} WL)
        ∗ ((rHiK).view.loc (V d (cV L) (jV L)) ↦[(rHiK).view.set]{fullShare} WH))
      ⊢ (iprop(∃ f, (V d (cV L) (jV L)).loc cc0_scratch1 ↦{fullShare} f) : sProp 𝕄) := by
  have hdis : Disjoint ((rLoK).view.set : Finset S512.Idx) (rHiK).view.set :=
    Finset.disjoint_left.mpr fun p h1 h2 => by rw [mem_rLo] at h1; rw [mem_rHi] at h2; omega
  have hcov : ((rLoK).view.set ∪ (rHiK).view.set : Finset S512.Idx) = Finset.univ :=
    Finset.eq_univ_iff_forall.mpr fun p => by rw [Finset.mem_union, mem_rLo, mem_rHi]; omega
  iintro ⟨HL, HH⟩
  ihave H := (pointsTo_join (ℓ := (V d (cV L) (jV L)).loc cc0_scratch1) (q := fullShare) (f := WL) (g := WH) hdis) $$ [HL HH]
  · isplitl [HL]
    · iexact HL
    · iexact HH
  rw [hcov]
  iexists _; iexact H

/-- Every word the index fetch brings in is one of the launch memory's indices, so it names a row of the table. -/
theorem fetched_lt (hpre : PreOK m) (j : S512.Idx) : ((iBlkK L).view.read (Elt F) (m (iLoc d)) j).toNat < 100000 := by
  rw [show (iBlkK L).view.read (Elt F) (m (iLoc d)) j = m (iLoc d) ((iBlkK L).view.emb j) from (View.read_apply _ _).trans (cast_eq _ _)]
  exact hpre d _

/-- The lower list's words are in range, whatever the index scratch held before the fetch. -/
theorem offs_lo_inb (hpre : PreOK m) (fs : Buf (Elt F) ((V d (cV L) (jV L)).loc cc0_scratch0)) (pay : S512.Idx → Elt F .i32)
    (hpay : pay = (iBlkK L).view.read (Elt F) (m (iLoc d))) :
    ∀ x, ((sLoK).view.read (Elt F) (View.write (Elt F) (sV).view fs pay Finset.univ) x).toNat < S100000.size gathers_S100000_S256.axis := by
  subst hpay; intro x
  simp only [Memref.view_whole, View.write_whole_univ]
  rw [show ∀ g : S512.Idx → Elt F .i32, (sLoK).view.read (Elt F) g x = g ((sLoK).view.emb x) from fun g => (View.read_apply _ _).trans (cast_eq _ _)]
  exact fetched_lt m d L hpre _

/-- The upper list's words likewise. -/
theorem offs_hi_inb (hpre : PreOK m) (fs : Buf (Elt F) ((V d (cV L) (jV L)).loc cc0_scratch0)) (pay : S512.Idx → Elt F .i32)
    (hpay : pay = (iBlkK L).view.read (Elt F) (m (iLoc d))) :
    ∀ x, ((sHiK).view.read (Elt F) (View.write (Elt F) (sV).view fs pay Finset.univ) x).toNat < S100000.size gathers_S100000_S256.axis := by
  subst hpay; intro x
  simp only [Memref.view_whole, View.write_whole_univ]
  rw [show ∀ g : S512.Idx → Elt F .i32, (sHiK).view.read (Elt F) g x = g ((sHiK).view.emb x) from fun g => (View.read_apply _ _).trans (cast_eq _ _)]
  exact fetched_lt m d L hpre _

/-- Where a half of the row scratch stands after k of its sixteen boxes: the entries of the boxes done hold the scalar
    function of what the fetch brought, every other entry still what it held (B, the contents when the rewriting began). -/
def BoxesDone (base k : Nat) (g B : (Chunk.rV).view.ty.Contents (Elt F)) : Prop :=
  ∀ p : S512.Idx, g p = if base ≤ (p 0).val ∧ (p 0).val < base + 16 * k then Chunk.lane (B p) else B p

theorem boxesDone_zero (base : Nat) (B : (Chunk.rV).view.ty.Contents (Elt F)) : BoxesDone base 0 B B :=
  fun p => (if_neg (by omega)).symm

/-- One more box: its sixteen lanes are loaded, passed through a lane-wise payload, and stored back. -/
theorem boxesDone_succ (base k o : Nat) (hb : ∀ a, (![o] : Fin 1 → Nat) a + S16.size a ≤ S512.size a) (ho : o = base + 16 * k)
    (g B : (Chunk.rV).view.ty.Contents (Elt F)) (w : Vec F S16 .f32 → FVec F S16 .f32) (hw : ∀ v i, w v i = Chunk.lane (v i))
    (h : BoxesDone base k g B) :
    BoxesDone base (k + 1)
      (View.write (Elt F) ((Chunk.rV).access (Rect.unit (s := S512) ![o] S16.size hb)) g
        (w (View.readAt (Elt F) (Chunk.rV).view (Rect.unit (s := S512) ![o] S16.size hb).toLoadRect g)) Finset.univ) B :=
  Chunk.chunk_inv base k o hb ho g B w hw h

set_option maxHeartbeats 4000000 in
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ ((iLoc d ↦[iSetK L]{fullShare} m (iLoc d)) ∗ (xLoc d ↦{q} m (xLoc d))
            ∗ (oLoc d ↦[oLoSetK L]{fullShare} m (oLoc d)) ∗ (oLoc d ↦[oHiSetK L]{fullShare} m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L iV (Memref.isWhole_whole _) xV (Memref.isWhole_whole _) oV (Memref.isWhole_whole _)
            sV (Memref.isWhole_whole _) rV (Memref.isWhole_whole _) cc0_scratch2 cc0_scratch3 cc0_scratch4 cc0_scratch5)
          fun _ => (iprop(((iLoc d ↦[iSetK L]{fullShare} m (iLoc d)) ∗ (xLoc d ↦{q} m (xLoc d))
              ∗ (oLoc d ↦[oLoSetK L]{fullShare} outFn m hpre d) ∗ (oLoc d ↦[oHiSetK L]{fullShare} outFn m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__body_eq_skeleton]; unfold cc0__body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho0, Ho1⟩, ⟨⟨%fs, Hs⟩, ⟨%fr, Hr⟩, Hbufs⟩, ⟨HsemA, HsemB, HsemC, HsemD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iBlkK (F := F) d L _).symm) $$ Hi
  ihave Hxx := (pointsTo_share (PosShare.mem_left_op_right q)).1 $$ Hx
  icases Hxx with ⟨Hxa, Hxb⟩
  ihave Hxa' := (Entails.of_eq (pts_xV (F := F) d L _ _).symm) $$ Hxa
  ihave Hxb' := (Entails.of_eq (pts_xV (F := F) d L _ _).symm) $$ Hxb
  ihave Ho0' := (Entails.of_eq (pts_oLoK (F := F) d L _).symm) $$ Ho0
  ihave Ho1' := (Entails.of_eq (pts_oHiK (F := F) d L _).symm) $$ Ho1
  ihave Hs' := (Entails.of_eq (pts_sV (F := F) d L _).symm) $$ Hs
  ihave Hsp := (pointsTo_split_subset (q := fullShare) (f := fr) (S := Finset.univ) (Finset.subset_univ (rLoK).view.set)).1 $$ Hr
  icases Hsp with ⟨HrL, HrH⟩
  ihave HrL' := (Entails.of_eq (pts_rLoK (F := F) d L _).symm) $$ HrL
  ihave HrH' := (Entails.of_eq (pts_rHiK (F := F) d L _).symm) $$ HrH
  have _plan : Transfers.BatchOf (V d (cV L) (jV L)) (SemLoc.dma (sig := sig) cc0_scratch5.sem) 2 := trivial
  sl_exec
  have hin0 := offs_lo_inb m d L hpre fs (tile_body.sl.dma0 m d L) rfl
  have hin1 := offs_hi_inb m d L hpre fs (tile_body.sl.dma0 m d L) rfl
  sl_exec
  sl_step
  -- the lower half of the row scratch, box by box: what its copy-out carries is the scalar function of the first fetch
  let B0 : (Chunk.rV).view.ty.Contents (Elt F) :=
    (Chunk.rLoK).view.writes (Elt F) (Chunk.rLoK).view.junk [⟨Rect.whole S256, tile_body.sl.gather0 m d L fs hin0⟩]
  have l0 : BoxesDone 0 0 B0 B0 := boxesDone_zero 0 B0
  have l1 : BoxesDone 0 1 (tile_body.sl.HrL'_w1 m d L fs hin0) B0 := boxesDone_succ 0 0 0 _ rfl _ _ k0_pay3 Chunk.pay3_lane l0
  have l2 : BoxesDone 0 2 (tile_body.sl.HrL'_w2 m d L fs hin0) B0 := boxesDone_succ 0 1 16 _ rfl _ _ k0_pay4 Chunk.pay4_lane l1
  have l3 : BoxesDone 0 3 (tile_body.sl.HrL'_w3 m d L fs hin0) B0 := boxesDone_succ 0 2 32 _ rfl _ _ k0_pay5 Chunk.pay5_lane l2
  have l4 : BoxesDone 0 4 (tile_body.sl.HrL'_w4 m d L fs hin0) B0 := boxesDone_succ 0 3 48 _ rfl _ _ k0_pay6 Chunk.pay6_lane l3
  have l5 : BoxesDone 0 5 (tile_body.sl.HrL'_w5 m d L fs hin0) B0 := boxesDone_succ 0 4 64 _ rfl _ _ k0_pay7 Chunk.pay7_lane l4
  have l6 : BoxesDone 0 6 (tile_body.sl.HrL'_w6 m d L fs hin0) B0 := boxesDone_succ 0 5 80 _ rfl _ _ k0_pay8 Chunk.pay8_lane l5
  have l7 : BoxesDone 0 7 (tile_body.sl.HrL'_w7 m d L fs hin0) B0 := boxesDone_succ 0 6 96 _ rfl _ _ k0_pay9 Chunk.pay9_lane l6
  have l8 : BoxesDone 0 8 (tile_body.sl.HrL'_w8 m d L fs hin0) B0 := boxesDone_succ 0 7 112 _ rfl _ _ k0_pay10 Chunk.pay10_lane l7
  have l9 : BoxesDone 0 9 (tile_body.sl.HrL'_w9 m d L fs hin0) B0 := boxesDone_succ 0 8 128 _ rfl _ _ k0_pay11 Chunk.pay11_lane l8
  have l10 : BoxesDone 0 10 (tile_body.sl.HrL'_w10 m d L fs hin0) B0 := boxesDone_succ 0 9 144 _ rfl _ _ k0_pay12 Chunk.pay12_lane l9
  have l11 : BoxesDone 0 11 (tile_body.sl.HrL'_w11 m d L fs hin0) B0 := boxesDone_succ 0 10 160 _ rfl _ _ k0_pay13 Chunk.pay13_lane l10
  have l12 : BoxesDone 0 12 (tile_body.sl.HrL'_w12 m d L fs hin0) B0 := boxesDone_succ 0 11 176 _ rfl _ _ k0_pay14 Chunk.pay14_lane l11
  have l13 : BoxesDone 0 13 (tile_body.sl.HrL'_w13 m d L fs hin0) B0 := boxesDone_succ 0 12 192 _ rfl _ _ k0_pay15 Chunk.pay15_lane l12
  have l14 : BoxesDone 0 14 (tile_body.sl.HrL'_w14 m d L fs hin0) B0 := boxesDone_succ 0 13 208 _ rfl _ _ k0_pay16 Chunk.pay16_lane l13
  have l15 : BoxesDone 0 15 (tile_body.sl.HrL'_w15 m d L fs hin0) B0 := boxesDone_succ 0 14 224 _ rfl _ _ k0_pay17 Chunk.pay17_lane l14
  have l16 : BoxesDone 0 16 (tile_body.sl.HrL'_w16 m d L fs hin0) B0 := boxesDone_succ 0 15 240 _ rfl _ _ k0_pay18 Chunk.pay18_lane l15
  have hd0 : ∀ y : S256.Idx, tile_body.sl.dma50 m d L fs hin0 y = Chunk.lane (tile_body.sl.gather0 m d L fs hin0 y) :=
    fun y => Chunk.half_done_lo _ B0 _ l16 rfl y
  -- the upper half likewise, from the second fetch
  let B1 : (Chunk.rV).view.ty.Contents (Elt F) :=
    (Chunk.rHiK).view.writes (Elt F) (Chunk.rHiK).view.junk [⟨Rect.whole S256, tile_body.sl.gather1 m d L fs hin1⟩]
  have u0 : BoxesDone 256 0 B1 B1 := boxesDone_zero 256 B1
  have u1 : BoxesDone 256 1 (tile_body.sl.HrH'_w17 m d L fs hin1) B1 := boxesDone_succ 256 0 256 _ rfl _ _ k0_pay19 Chunk.pay19_lane u0
  have u2 : BoxesDone 256 2 (tile_body.sl.HrH'_w18 m d L fs hin1) B1 := boxesDone_succ 256 1 272 _ rfl _ _ k0_pay20 Chunk.pay20_lane u1
  have u3 : BoxesDone 256 3 (tile_body.sl.HrH'_w19 m d L fs hin1) B1 := boxesDone_succ 256 2 288 _ rfl _ _ k0_pay21 Chunk.pay21_lane u2
  have u4 : BoxesDone 256 4 (tile_body.sl.HrH'_w20 m d L fs hin1) B1 := boxesDone_succ 256 3 304 _ rfl _ _ k0_pay22 Chunk.pay22_lane u3
  have u5 : BoxesDone 256 5 (tile_body.sl.HrH'_w21 m d L fs hin1) B1 := boxesDone_succ 256 4 320 _ rfl _ _ (fun v => k0_pay24 (k0_pay23 v)) Chunk.pay24_23_lane u4
  have u6 : BoxesDone 256 6 (tile_body.sl.HrH'_w22 m d L fs hin1) B1 := boxesDone_succ 256 5 336 _ rfl _ _ k0_pay25 Chunk.pay25_lane u5
  have u7 : BoxesDone 256 7 (tile_body.sl.HrH'_w23 m d L fs hin1) B1 := boxesDone_succ 256 6 352 _ rfl _ _ k0_pay26 Chunk.pay26_lane u6
  have u8 : BoxesDone 256 8 (tile_body.sl.HrH'_w24 m d L fs hin1) B1 := boxesDone_succ 256 7 368 _ rfl _ _ k0_pay27 Chunk.pay27_lane u7
  have u9 : BoxesDone 256 9 (tile_body.sl.HrH'_w25 m d L fs hin1) B1 := boxesDone_succ 256 8 384 _ rfl _ _ k0_pay28 Chunk.pay28_lane u8
  have u10 : BoxesDone 256 10 (tile_body.sl.HrH'_w26 m d L fs hin1) B1 := boxesDone_succ 256 9 400 _ rfl _ _ (fun v => k0_pay30 (k0_pay29 v)) Chunk.pay30_29_lane u9
  have u11 : BoxesDone 256 11 (tile_body.sl.HrH'_w27 m d L fs hin1) B1 := boxesDone_succ 256 10 416 _ rfl _ _ k0_pay31 Chunk.pay31_lane u10
  have u12 : BoxesDone 256 12 (tile_body.sl.HrH'_w28 m d L fs hin1) B1 := boxesDone_succ 256 11 432 _ rfl _ _ k0_pay32 Chunk.pay32_lane u11
  have u13 : BoxesDone 256 13 (tile_body.sl.HrH'_w29 m d L fs hin1) B1 := boxesDone_succ 256 12 448 _ rfl _ _ k0_pay33 Chunk.pay33_lane u12
  have u14 : BoxesDone 256 14 (tile_body.sl.HrH'_w30 m d L fs hin1) B1 := boxesDone_succ 256 13 464 _ rfl _ _ k0_pay34 Chunk.pay34_lane u13
  have u15 : BoxesDone 256 15 (tile_body.sl.HrH'_w31 m d L fs hin1) B1 := boxesDone_succ 256 14 480 _ rfl _ _ (fun v => k0_pay1 (k0_pay35 v)) Chunk.pay1_35_lane u14
  have u16 : BoxesDone 256 16 (tile_body.sl.HrH'_w32 m d L fs hin1) B1 := boxesDone_succ 256 15 496 _ rfl _ _ k0_pay2 Chunk.pay2_lane u15
  have hd1 : ∀ y : S256.Idx, tile_body.sl.dma99 m d L fs hin1 y = Chunk.lane (tile_body.sl.gather1 m d L fs hin1 y) :=
    fun y => Chunk.half_done_hi _ B1 _ u16 rfl y
  -- an output entry holds the scalar function of the table's row its own index names
  have hv0 : ∀ i ∈ oLoSetK L, (oLoK L).view.writes (Elt F) (m (oLoc d)) [⟨Rect.whole S256, tile_body.sl.dma50 m d L fs hin0⟩] i = outFn m hpre d i := by
    intro i hi
    obtain ⟨y, rfl⟩ := Fetch.exists_of_mem_oLo L i hi
    refine (Fetch.out_lo_apply L _ _ y).trans ((hd0 y).trans ?_)
    refine congrArg Chunk.lane ?_
    refine Fetch.fetch_lo_of (m (xLoc d)) fs (tile_body.sl.dma0 m d L) _ hin0 y _ ?_
    show (m (iLoc d) ((Fetch.oLoK L).view.emb y)).toNat = (tile_body.sl.dma0 m d L ((Fetch.sLoK).view.emb y)).toNat
    rw [← Fetch.iBlk_emb_sLo L y]; rfl
  have hv1 : ∀ i ∈ oHiSetK L, (oHiK L).view.writes (Elt F) (m (oLoc d)) [⟨Rect.whole S256, tile_body.sl.dma99 m d L fs hin1⟩] i = outFn m hpre d i := by
    intro i hi
    obtain ⟨y, rfl⟩ := Fetch.exists_of_mem_oHi L i hi
    refine (Fetch.out_hi_apply L _ _ y).trans ((hd1 y).trans ?_)
    refine congrArg Chunk.lane ?_
    refine Fetch.fetch_hi_of (m (xLoc d)) fs (tile_body.sl.dma0 m d L) _ hin1 y _ ?_
    show (m (iLoc d) ((Fetch.oHiK L).view.emb y)).toNat = (tile_body.sl.dma0 m d L ((Fetch.sHiK).view.emb y)).toNat
    rw [← Fetch.iBlk_emb_sHi L y]; rfl
  isplitl [Hi' Hxa' Hxb' Ho0' Ho1']
  · isplitl [Hi']; · iapply (Entails.of_eq (pts_iBlkK (F := F) d L _)); iexact Hi'
    isplitl [Hxa' Hxb']
    · iapply (pointsTo_share (PosShare.mem_left_op_right q)).2
      isplitl [Hxa']
      · iapply (Entails.of_eq (pts_xV (F := F) d L _ _)); iexact Hxa'
      · iapply (Entails.of_eq (pts_xV (F := F) d L _ _)); iexact Hxb'
    isplitl [Ho0']
    · iapply (Entails.of_eq ((pts_oLoK (F := F) d L _).trans (pointsTo_congr hv0))); iexact Ho0'
    · iapply (Entails.of_eq ((pts_oHiK (F := F) d L _).trans (pointsTo_congr hv1))); iexact Ho1'
  isplitl [Hs' HrL' HrH' Hbufs]
  · isplitl [Hs']; · iexists _; iapply (Entails.of_eq (pts_sV (F := F) d L _)); iexact Hs'
    isplitl [HrL' HrH']
    · iapply (scratch1_join (F := F) d L _ _); isplitl [HrL']
      · iexact HrL'
      · iexact HrH'
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## What the handshakes carry, and the obligation -/

end Tile

/-- Task i of core c, as coordinates. -/
abbrev LofV (c : Fin ((K (F := F)).nCore 0)) (i : Fin ((K (F := F)).nSub 0)) : grid0.Coords := Blocks.coords ⟨c.val, c.isLt⟩ ⟨i.val, i.isLt⟩
/-- Its read share of the table. -/
abbrev xq (c : Fin ((K (F := F)).nCore 0)) (i : Fin ((K (F := F)).nSub 0)) : PosShare TreeShare :=
  dealShare fullShare (Fin.cast nCore_zero c) (Fin.cast nSub_zero i)

/-- What a task is handed: its 512 indices, its read share of the table, its two runs of 256 outputs as launched; -/
abbrev goRes (d : Dev nD) (c : Fin ((K (F := F)).nCore 0)) (i : Fin ((K (F := F)).nSub 0)) : sProp 𝕄 :=
  iprop((iLoc d ↦[iSetK (LofV c i)]{fullShare} m (iLoc d)) ∗ (xLoc d ↦{xq c i} m (xLoc d))
    ∗ (oLoc d ↦[oLoSetK (LofV c i)]{fullShare} m (oLoc d)) ∗ (oLoc d ↦[oHiSetK (LofV c i)]{fullShare} m (oLoc d)))
/-- and what it hands back: the same, its outputs now the output function's. -/
abbrev tdRes (hpre : PreOK m) (d : Dev nD) (c : Fin ((K (F := F)).nCore 0)) (i : Fin ((K (F := F)).nSub 0)) : sProp 𝕄 :=
  iprop((iLoc d ↦[iSetK (LofV c i)]{fullShare} m (iLoc d)) ∗ (xLoc d ↦{xq c i} m (xLoc d))
    ∗ (oLoc d ↦[oLoSetK (LofV c i)]{fullShare} outFn m hpre d) ∗ (oLoc d ↦[oHiSetK (LofV c i)]{fullShare} outFn m hpre d))

/-- A core is handed its sixteen tasks' resources together and hands them back together; the split among the cores
    is made where the call is launched. -/
def P (hpre : PreOK m) : (K (F := F)).Pay (nD := nD) (Val := Elt F) (Name := ℕ) (U := UU) where
  st := fun q d c => match q with | 0 => bigSep Finset.univ fun i => goRes m d c i
  dn := fun q d c => match q with | 0 => bigSep Finset.univ fun i => tdRes m hpre d c i
  go := fun q d c i => match q with | 0 => goRes m d c i
  td := fun q d c i => match q with | 0 => tdRes m hpre d c i
  x := fun _ _ => iprop(emp)

instance P_storable (hpre : PreOK m) : (P (F := F) m hpre).IsStorable where
  st q d c := match q with
    | 0 => (inferInstance : BI.Storable (upEmb : UEmb _ 𝕄) (bigSep Finset.univ fun i => goRes m d c i))
  dn q d c := match q with
    | 0 => (inferInstance : BI.Storable (upEmb : UEmb _ 𝕄) (bigSep Finset.univ fun i => tdRes m hpre d c i))
  go q d c i := match q with
    | 0 => (inferInstance : BI.Storable (upEmb : UEmb _ 𝕄) (goRes m d c i))
  td q d c i := match q with
    | 0 => (inferInstance : BI.Storable (upEmb : UEmb _ 𝕄) (tdRes m hpre d c i))

theorem defs₀_vector (c : Fin τ.nSC) (s : Fin τ.nSub) :
    defs₀ (F := F) (.scVector c s) 0 ()
      = SparseCore.onTile hcore0 hsub0 (fun c s => cc0__body (Blocks.coords c s)
          iV (Memref.isWhole_whole _) xV (Memref.isWhole_whole _) oV (Memref.isWhole_whole _)
          sV (Memref.isWhole_whole _) rV (Memref.isWhole_whole _) cc0_scratch2 cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (Blocks.coords ⟨_, hci.1⟩ ⟨_, hci.2⟩) hF hpre (xq c i) O W hO).trans (wp_mono frame _ _ fun _ => obl_post)

end Cert.KernelIdeal.Lookup

end
-- ==== Proof.LaunchIdeal.lean ====
/-
  The launch of the lookup's thirty-two tasks, and what the program's run leaves.

  The TensorCore starts the one call holding the index array, the table and the output array whole. The index array and
  the output array are dealt out by runs of 512 entries (one run per task: the runs are pairwise disjoint and cover the
  arrays), the table by read shares (every task reads all of it at once, so each gets a share of the whole table, the
  full share halved five times). Each task returns its run of the output holding the output function's entries there,
  so the runs joined again are the output array holding the output function; the index array and the table come back as
  they were.
-/
import proofs.«207177_g90812788506957_cont_sun_c4_559_12_alg».proof.Proof.TileIdeal

noncomputable section

namespace Cert.KernelIdeal.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareDeal (dealShare pointsTo_deal)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A core's tasks: nothing to split, the core holds its tasks' resources as they are -/

theorem vecSplit (hpre : PreOK m) : (K (F := F)).VecSplit' (P m hpre) 0 := by
  intro d c
  show (bigSep Finset.univ fun i => goRes m d c i) ⊢ |={Set.univ}=> iprop(
      (bigSep Finset.univ fun i : Fin ((K (F := F)).nSub 0) => goRes m d c i)
      ∗ ((bigSep Finset.univ fun i : Fin ((K (F := F)).nSub 0) => tdRes m hpre d c i)
          -∗ bigSep Finset.univ fun i : Fin ((K (F := F)).nSub 0) => tdRes m hpre d c i))
  iintro H; imodintro
  isplitl [H]; · iexact H
  iintro H'; iexact H'

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_emp']
  iempintro

/-! ## The arrays dealt to the tasks -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f

omit [FloatOps F] in
/-- An array of 16384 entries held whole is its thirty-two runs of 512 held together, -/
theorem deal_i (d : Dev nD) (f : Buf (Elt F) (iLoc d)) :
    (iLoc d ↦{fullShare} f : sProp 𝕄)
      = bigSep Finset.univ fun c : Fin ((K (F := F)).nCore 0) => bigSep Finset.univ fun i : Fin ((K (F := F)).nSub 0) => iLoc d ↦[iSetK (LofV c i)]{fullShare} f := by
  have e1 : ∀ c : Fin ((K (F := F)).nCore 0),
      (bigSep Finset.univ fun i : Fin ((K (F := F)).nSub 0) => (iLoc d ↦[iSetK (LofV c i)]{fullShare} f : sProp 𝕄))
        = iLoc d ↦[Finset.univ.biUnion fun i : Fin ((K (F := F)).nSub 0) => iSetK (LofV c i)]{fullShare} f :=
    fun c => (pointsTo_biUnion Finset.univ (ℓ := iLoc d) (fun i : Fin ((K (F := F)).nSub 0) => iSetK (LofV c i)) (Blocks.iSet_inner c)).symm
  rw [show (bigSep Finset.univ fun c : Fin ((K (F := F)).nCore 0) => bigSep Finset.univ fun i : Fin ((K (F := F)).nSub 0) => (iLoc d ↦[iSetK (LofV c i)]{fullShare} f : sProp 𝕄))
      = bigSep Finset.univ fun c : Fin ((K (F := F)).nCore 0) => iLoc d ↦[Finset.univ.biUnion fun i : Fin ((K (F := F)).nSub 0) => iSetK (LofV c i)]{fullShare} f from
    bigSep_congr fun c _ => e1 c]
  exact (congrArg (fun S => (iLoc d ↦[S]{fullShare} f : sProp 𝕄)) Blocks.iSet_cover.symm).trans
    (pointsTo_biUnion Finset.univ (ℓ := iLoc d) (q := fullShare) (f := f)
      (fun c : Fin ((K (F := F)).nCore 0) => Finset.univ.biUnion fun i : Fin ((K (F := F)).nSub 0) => iSetK (LofV c i)) Blocks.iSet_outer)

omit [FloatOps F] in
/-- likewise with each run in its two halves, -/
theorem deal_o (d : Dev nD) (f : Buf (Elt F) (oLoc d)) :
    (oLoc d ↦{fullShare} f : sProp 𝕄)
      = bigSep Finset.univ fun c : Fin ((K (F := F)).nCore 0) => bigSep Finset.univ fun i : Fin ((K (F := F)).nSub 0) =>
          iprop((oLoc d ↦[oLoSetK (LofV c i)]{fullShare} f) ∗ oLoc d ↦[oHiSetK (LofV c i)]{fullShare} f) := by
  have e0 : ∀ (c : Fin ((K (F := F)).nCore 0)) (i : Fin ((K (F := F)).nSub 0)),
      (iprop((oLoc d ↦[oLoSetK (LofV c i)]{fullShare} f) ∗ oLoc d ↦[oHiSetK (LofV c i)]{fullShare} f) : sProp 𝕄)
        = oLoc d ↦[oLoSetK (LofV c i) ∪ oHiSetK (LofV c i)]{fullShare} f :=
    fun c i => (BI.Entails.antisymm (pointsTo_union (Blocks.disjoint_oLo_oHi (LofV c i))).1 (pointsTo_union (Blocks.disjoint_oLo_oHi (LofV c i))).2).symm
  have e1 : ∀ c : Fin ((K (F := F)).nCore 0),
      (bigSep Finset.univ fun i : Fin ((K (F := F)).nSub 0) =>
          (iprop((oLoc d ↦[oLoSetK (LofV c i)]{fullShare} f) ∗ oLoc d ↦[oHiSetK (LofV c i)]{fullShare} f) : sProp 𝕄))
        = oLoc d ↦[Finset.univ.biUnion fun i : Fin ((K (F := F)).nSub 0) => oLoSetK (LofV c i) ∪ oHiSetK (LofV c i)]{fullShare} f :=
    fun c => (bigSep_congr fun i _ => e0 c i).trans
      (pointsTo_biUnion Finset.univ (ℓ := oLoc d) (fun i : Fin ((K (F := F)).nSub 0) => oLoSetK (LofV c i) ∪ oHiSetK (LofV c i)) (Blocks.oSet_inner c)).symm
  rw [show (bigSep Finset.univ fun c : Fin ((K (F := F)).nCore 0) => bigSep Finset.univ fun i : Fin ((K (F := F)).nSub 0) =>
          (iprop((oLoc d ↦[oLoSetK (LofV c i)]{fullShare} f) ∗ oLoc d ↦[oHiSetK (LofV c i)]{fullShare} f) : sProp 𝕄))
      = bigSep Finset.univ fun c : Fin ((K (F := F)).nCore 0) => oLoc d ↦[Finset.univ.biUnion fun i : Fin ((K (F := F)).nSub 0) => oLoSetK (LofV c i) ∪ oHiSetK (LofV c i)]{fullShare} f from
    bigSep_congr fun c _ => e1 c]
  exact (congrArg (fun S => (oLoc d ↦[S]{fullShare} f : sProp 𝕄)) Blocks.oSet_cover.symm).trans
    (pointsTo_biUnion Finset.univ (ℓ := oLoc d) (q := fullShare) (f := f)
      (fun c : Fin ((K (F := F)).nCore 0) => Finset.univ.biUnion fun i : Fin ((K (F := F)).nSub 0) => oLoSetK (LofV c i) ∪ oHiSetK (LofV c i)) Blocks.oSet_outer)

omit [FloatOps F] in
/-- and the table held whole is its thirty-two read shares held together. -/
theorem deal_x (d : Dev nD) (f : Buf (Elt F) (xLoc d)) :
    (xLoc d ↦{fullShare} f : sProp 𝕄)
      = bigSep Finset.univ fun c : Fin ((K (F := F)).nCore 0) => bigSep Finset.univ fun i : Fin ((K (F := F)).nSub 0) => xLoc d ↦{xq c i} f :=
  pointsTo_deal (xLoc d) Finset.univ f fullShare

omit [FloatOps F] in
/-- Four families held task by task are the four held family by family. -/
theorem bigSep_four (A B C E : Fin ((K (F := F)).nCore 0) → Fin ((K (F := F)).nSub 0) → sProp 𝕄) :
    (bigSep Finset.univ fun c => bigSep Finset.univ fun i => iprop(A c i ∗ B c i ∗ C c i ∗ E c i))
      = iprop((bigSep Finset.univ fun c => bigSep Finset.univ fun i => A c i) ∗ (bigSep Finset.univ fun c => bigSep Finset.univ fun i => B c i)
          ∗ (bigSep Finset.univ fun c => bigSep Finset.univ fun i => iprop(C c i ∗ E c i))) := by
  rw [show (bigSep Finset.univ fun c => bigSep Finset.univ fun i => iprop(A c i ∗ B c i ∗ C c i ∗ E c i))
      = bigSep Finset.univ fun c => iprop((bigSep Finset.univ fun i => A c i) ∗ (bigSep Finset.univ fun i => B c i) ∗ (bigSep Finset.univ fun i => iprop(C c i ∗ E c i))) from
    bigSep_congr fun c _ => by rw [bigSep_sep', bigSep_sep'], bigSep_sep', bigSep_sep']

theorem st0_eq (hpre : PreOK m) (d : Dev nD) :
    (bigSep Finset.univ fun c : Fin ((K (F := F)).nCore 0) => (P m hpre).st 0 d c) = iprop(iPts m d ∗ xPts m d ∗ oPts d (m (oLoc d))) := by
  show (bigSep Finset.univ fun c => bigSep Finset.univ fun i => goRes m d c i) = _
  unfold iPts xPts oPts
  rw [deal_i, deal_x, deal_o]
  exact bigSep_four _ _ _ _

theorem dn0_eq (hpre : PreOK m) (d : Dev nD) :
    (bigSep Finset.univ fun c : Fin ((K (F := F)).nCore 0) => (P m hpre).dn 0 d c) = iprop(iPts m d ∗ xPts m d ∗ oPts d (outFn m hpre d)) := by
  show (bigSep Finset.univ fun c => bigSep Finset.univ fun i => tdRes m hpre d c i) = _
  unfold iPts xPts oPts
  rw [deal_i, deal_x, deal_o]
  exact bigSep_four _ _ _ _

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

abbrev FIN (hpre : PreOK m) (d : Dev nD) : sProp 𝕄 := iprop(iPts m d ∗ xPts m d ∗ oPts d (outFn m hpre d))

/-- @main on device d's TensorCore: the one call, from the three arrays; the index array and the table kept, the output
    array left at the output function. -/
theorem hmain (hpre : PreOK m) (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [unscopedBufs_eq]
  simp only [main, wp_bind, wp_pure]
  iintro ⟨#Hctx, Hst, ⟨Hb, ⟨Hi, Hx, Ho⟩, -, -⟩, -⟩
  iapply ((K (F := F)).wp_run (D (F := F)) 𝒱 (EH := EH) (P := P m hpre) κ d 0) $$ [Hst Hi Hx Ho]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m hpre d)) $$ Hdn
  icases Hdn' with ⟨Hi, Hx, Ho⟩
  imodintro
  isplitl [Hst]; · iexact Hst
  isplitl [Hi]; · iexact Hi
  isplitl [Hx]; · iexact Hx
  iexact Ho

def fq (hpre : PreOK m) (d : Dev nD) (s' : Phys nD τ sig (Elt F)) : Prop :=
  s'.mem.mem (oLoc d) = outFn m hpre d ∧ s'.mem.mem (iLoc d) = m (iLoc d) ∧ s'.mem.mem (xLoc d) = m (xLoc d)

set_option maxRecDepth 16384 in
theorem hfin (hpre : PreOK m) (d : Dev nD) (s' : Phys nD τ sig (Elt F)) : iprop(FIN m hpre d ∗ SI s') ⊢ (⌜fq m hpre d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outFn m hpre d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC (hpre : PreOK m) : PUnit × MemSt nD τ sig (Elt F) → Prop := fun r => ∀ c : Dev nD,
  r.2.mem (oLoc c) = outFn m hpre c ∧ r.2.mem (iLoc c) = m (iLoc c) ∧ r.2.mem (xLoc c) = m (xLoc c)

/-- Every weakly fair execution of the program from a launch memory whose indices name rows of the table terminates,
    nothing faulting, with the output array holding the output function of the launch memory and the two argument arrays
    unchanged. -/
theorem run_main [∀ e, Nonempty (Elt F e)] (hpre : PreOK m) :
    θ_run (Cert.KernelIdeal.defs (F := F)) (Cert.KernelIdeal.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (fq m hpre) (hfin m hpre) (QC m hpre) (fun _ h => h)

end Cert.KernelIdeal.Lookup

end
-- ==== Proof.RefRun.lean ====
/-
  The reference program's @main as the list of its 26 host operations (the outlined gather function and the select
  it calls written out at the call site over the call's buffers), and its run read back: every weakly fair
  execution terminates with the result buffer at the operations' composed pure term `out` of the two arguments'
  launch contents, the arguments unchanged.
-/
import proofs.«207177_g90812788506957_cont_sun_c4_559_12_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-! ## The value computed -/

/-- The index array with negative entries wrapped once: `ids + 100000` where `ids < 0` (signed), `ids` elsewhere. -/
def wrapped (ids : IVec S16384 32) : IVec S16384 32 :=
  select (cmpi .slt ids (broadcastInDim S16384 ![] bcast_S_S16384 (constantI S_ 32 0#32)))
    (addi ids (broadcastInDim S16384 ![] bcast_S_S16384 (constantI S_ 32 100000#32))) ids

/-- The wrapped indices as a column of one-coordinate start indices. -/
def starts (ids : IVec S16384 32) : IVec S16384x1 32 :=
  broadcastInDim S16384x1 ![0] bcast_S16384_S16384x1_0 (wrapped ids)

/-- Per row, whether the start index lies in `[0, 99999]` (signed): the conjunction over the row's one coordinate. -/
def inRange (ids : IVec S16384 32) : IVec S16384 1 :=
  Host.reduce IntOp.andi
    (andi (cmpi .sge (starts ids) (broadcastInDim S16384x1 ![] bcast_S_S16384x1 (constantI S_ 32 0#32)))
      (cmpi .sle (starts ids)
        (broadcastInDim S16384x1 ![0, 1] bcast_S1x1_S16384x1_0_1
          (broadcastInDim S1x1 ![1] bcast_S1_S1x1_1 (constantI S1 32 99999#32)))))
    (constantI S_ 1 1#1) reducesTo_S16384x1_S16384_d1 h_S_

/-- The gathered entries where the start index is in range, the fill word elsewhere. -/
def taken (ids : IVec S16384 32) (vars : FVec F S100000 .f32) : FVec F S16384 .f32 :=
  select (inRange ids) (Host.gather gather_S100000_S16384x1_S16384_n_0_n_n_0_1_1 vars (starts ids))
    (broadcastInDim S16384 ![] bcast_S_S16384 (constant S_ .f32 0x7FC00000#32))

/-- What the reference computes from the two arguments' contents: the exponential of the constant times the taken entries. -/
def out (ids : IVec S16384 32) (vars : FVec F S100000 .f32) : FVec F S16384 .f32 :=
  Host.exp (mulf (broadcastInDim S16384 ![] bcast_S_S16384 (constant S_ .f32 0x3F317218#32)) (taken ids vars))

/-! ## The program as a list of operations -/

/-- @main's 26 operations in order, the two calls unfolded: the gather function's 21 own operations with the
    select of the function it calls in seventh place, all over the call's buffers, then @main's own four. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S100000_S16384x1_S16384_n_0_n_n_0_1_1 x i),
    TRef.nullary main_call0.cst (constant S_ .f32 0x7FC00000#32),
    TRef.unary main_call0.cst main_call0.v14 (broadcastInDim S16384 ![] bcast_S_S16384),
    TRef.ternary main_call0.v12 main_call0.v13 main_call0.v14 main_call0.v15 select,
    nullary main_cst (constant S_ .f32 0x3F317218#32),
    unary main_cst main_v1 (broadcastInDim S16384 ![] bcast_S_S16384 : (⟨S_, .f32⟩ : BufTy).Contents (Elt F) → (⟨S16384, .f32⟩ : BufTy).Contents (Elt F)),
    binary main_v1 main_v0 main_v2 (mulf : (⟨S16384, .f32⟩ : BufTy).Contents (Elt F) → (⟨S16384, .f32⟩ : BufTy).Contents (Elt F) → (⟨S16384, .f32⟩ : BufTy).Contents (Elt F)),
    unary main_v2 main_v3 (Host.exp : (⟨S16384, .f32⟩ : BufTy).Contents (Elt F) → (⟨S16384, .f32⟩ : BufTy).Contents (Elt F)) ]

set_option maxRecDepth 1024 in
/-- @main is that straight line: the two functions' definitions unfolded at their calls, both sides are one chain
    of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., unary_bufs_sub .., binary_bufs_sub .., unary_bufs_sub ..⟩

/-- Contents moved to a typed reference's buffer type and back are the contents. -/
theorem ofBuf_toBuf {T : BufTy} (x : TRef sig T) (v : T.Contents (Elt F)) : x.ofBuf (x.toBuf v) = v := by
  obtain ⟨r, h, _, _⟩ := x; subst h; rfl

/-- At the two argument buffers and at the buffer the gather function's result is written to, whose types are the
    values' by computation, the transport is the identity. -/
theorem ofBuf_arg0 (h1 h2 h3) (V : Valuation τ sig (Elt F)) :
    (TRef.of (T := ⟨S16384, .i32⟩) main_arg0 h1 h2 h3).ofBuf (V (main_arg0 : DevRef τ sig)) = V (main_arg0 : DevRef τ sig) := rfl
theorem ofBuf_arg1 (h1 h2 h3) (V : Valuation τ sig (Elt F)) :
    (TRef.of (T := ⟨S100000, .f32⟩) main_arg1 h1 h2 h3).ofBuf (V (main_arg1 : DevRef τ sig)) = V (main_arg1 : DevRef τ sig) := rfl
theorem toBuf_v0 (h1 h2 h3) (v : (⟨S16384, .f32⟩ : BufTy).Contents (Elt F)) :
    (TRef.of (T := ⟨S16384, .f32⟩) main_v0 h1 h2 h3).toBuf v = v := rfl

set_option maxRecDepth 8192 in
/-- The fold at the result buffer is `out` of the two arguments' contents: the fold unrolled, each operation's
    result at its own buffer is its function's value and at any other buffer what was there, and the typed
    references' casts are the identity at these literal references. -/
theorem out_eq (V : Valuation τ sig (Elt F)) :
    after ops V (main_v3 : DevRef τ sig) = out (V (main_arg0 : DevRef τ sig)) (V (main_arg1 : DevRef τ sig)) := by
  unfold out taken inRange starts wrapped
  after_results_simp
  simp only [ofBuf_toBuf, toBuf_v0]
  rw [ofBuf_arg0, ofBuf_arg1]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of
    @main terminates with the result at `out` of the arguments and the arguments unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v3)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v3).trans (out_eq _), (h c main_arg0).trans (arg0_eq _),
      (h c main_arg1).trans (arg1_eq _)⟩)
    (run_seq scopedRefs_eq scopedSems_eq defs main (fun _ => ops) main_eq (fun _ => ops_sub) m g)

end Cert.ReferenceIdeal.RefRun

end
-- ==== Proof.RefValue.lean ====
/-
  The reference's value at an index. Under the integer range `0 ≤ ids ≤ 99999` (signed) the wrap of negative
  indices is the identity, every row's start index is in range (so the fill is never selected), the gather's clamp is
  the identity, and the result at `i` is the exponential of the constant times the table's entry at `ids i`.
-/
import proofs.«207177_g90812788506957_cont_sun_c4_559_12_alg».proof.Proof.RefRun
import Idealize.ShloMosaic.Lib.ValueIdx
import Idealize.ShloMosaic.PureOps.Reduce

noncomputable section

namespace Cert.ReferenceIdeal.RefValue

open Cert.ReferenceIdeal Cert.ReferenceIdeal.RefRun Idealize.ShloMosaic Idealize.ShloMosaic.ValueIdx
open Cert.ReferenceIdeal.Facts₀ Cert.ReferenceIdeal.Facts

/-! ## Words -/

/-- A 32-bit word whose signed value is in `[0, 99999]` has that value unsigned too. -/
theorem toNat_lt {x : BitVec 32} (h : (0 : Int) ≤ x.toInt ∧ x.toInt ≤ 99999) : x.toNat < 100000 := by
  have hc := BitVec.toInt_eq_toNat_cond x
  have hl := x.isLt
  split at hc <;> omega

/-- The signed value of a non-negative word, as a natural number, is its unsigned value. -/
theorem toInt_toNat {x : BitVec 32} (h : (0 : Int) ≤ x.toInt) : x.toInt.toNat = x.toNat := by
  have hc := BitVec.toInt_eq_toNat_cond x
  have hl := x.isLt
  split at hc <;> omega

/-- A non-negative word is not wrapped: the select on `x < 0` takes `x`. -/
theorem wrap_word (x : BitVec 32) (h : (0 : Int) ≤ x.toInt) :
    Scalar.select (IntOp.cmpi .slt x 0#32) (IntOp.addi x 100000#32) x = x := by
  have hs : x.slt 0#32 = false := by
    rw [Bool.eq_false_iff]; intro hlt; rw [BitVec.slt_iff_toInt_lt] at hlt
    have h0 : (0#32 : BitVec 32).toInt = 0 := by decide
    omega
  show Scalar.select (BitVec.ofBool (x.slt 0#32)) _ _ = x
  rw [hs]; exact select_zero _ _

/-- A word in `[0, 99999]` passes both range comparisons. -/
theorem in_range_word (x : BitVec 32) (h : (0 : Int) ≤ x.toInt ∧ x.toInt ≤ 99999) :
    IntOp.andi (IntOp.cmpi .sge x 0#32) (IntOp.cmpi .sle x 99999#32) = 1#1 := by
  have h0 : (0#32 : BitVec 32).toInt = 0 := by decide
  have h9 : (99999#32 : BitVec 32).toInt = 99999 := by decide
  have h1 : (0#32 : BitVec 32).sle x = true := by rw [BitVec.sle_iff_toInt_le]; omega
  have h2 : x.sle 99999#32 = true := by rw [BitVec.sle_iff_toInt_le]; omega
  show IntOp.andi (BitVec.ofBool ((0#32 : BitVec 32).sle x)) (BitVec.ofBool (x.sle 99999#32)) = 1#1
  rw [h1, h2]; rfl

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]; exact foldl_andi_one f hf l

/-! ## The vector operations at an index, for any shape -/

section AnyShape
variable {s t u : Shape} {w : Nat} {α : Type}

theorem cmpi_apply (p : CmpIPredicate) (x y : IVec s w) (i : s.Idx) : cmpi p x y i = IntOp.cmpi p (x i) (y i) := rfl
theorem addi_apply (x y : IVec s w) (i : s.Idx) : addi x y i = IntOp.addi (x i) (y i) := rfl
theorem andi_apply (x y : IVec s w) (i : s.Idx) : andi x y i = IntOp.andi (x i) (y i) := rfl
theorem hostExp_apply {φ : FTy} (x : FVec Ideal s φ) (i : s.Idx) : Host.exp x i = Ideal.exp (x i) := rfl

/-- A broadcast of a constant array is the constant array, whatever the axes. -/
theorem bcastI (dims : Fin s.rank → Fin t.rank) (h : s.BroadcastsInDim t dims) (c : BitVec w) :
    broadcastInDim t dims h (constantI s w c) = broadcast t c := rfl
theorem bcast_bcast (dims : Fin s.rank → Fin t.rank) (h : s.BroadcastsInDim t dims) (c : α) :
    broadcastInDim t dims h (broadcast s c) = broadcast t c := rfl
theorem bcastF {φ : FTy} (dims : Fin s.rank → Fin t.rank) (h : s.BroadcastsInDim t dims) (b : BitVec φ.bits) :
    broadcastInDim t dims h (constant (F := Ideal) s φ b) = broadcast t (Ideal.ofBits φ b) := rfl

/-- A reduction by `and` from 1 of an array that is 1 everywhere is 1. -/
theorem reduce_andi_one {axes : List (Fin s.rank)} (x : s.Idx → BitVec 1) (init : u.Idx → BitVec 1)
    (h : s.ReducesTo axes t) (hu : 0 < u.numel) (hx : ∀ n, x n = 1#1) (hi : ∀ k, init k = 1#1) (j : t.Idx) :
    Host.reduce IntOp.andi x init h hu j = 1#1 := by
  rw [Host.reduce_eq_foldl, hi]; exact foldl_andi_one x hx _

end AnyShape

/-! ## A flat array as a column, and the gather of a flat table at a column of start indices -/

theorem idx1_lt {n : Nat} (j : (⟨1, ![n]⟩ : Shape).Idx) : (j 0).val < n := (j 0).isLt

/-- The column index `[r, 0]` of a row index `[r]`. -/
abbrev colIdx {R : Nat} (y : (⟨1, ![R]⟩ : Shape).Idx) : (⟨2, ![R, 1]⟩ : Shape).Idx :=
  fun a => match a with | ⟨0, _⟩ => ⟨(y 0).val, idx1_lt y⟩ | ⟨1, _⟩ => ⟨0, Nat.one_pos⟩

/-- A flat array broadcast along axis 0 into a column reads the array at the row. -/
theorem bcast_col_apply {α : Type} {n : Nat} (hn : n ≠ 1)
    (h : (⟨1, ![n]⟩ : Shape).BroadcastsInDim ⟨2, ![n, 1]⟩ ![0])
    (x : (⟨1, ![n]⟩ : Shape).Idx → α) (j : (⟨2, ![n, 1]⟩ : Shape).Idx) :
    broadcastInDim ⟨2, ![n, 1]⟩ ![0] h x j = x (ix1 (j 0)) := by
  unfold broadcastInDim
  congr 1
  funext a
  match a with
  | ⟨0, _⟩ =>
    split
    · next h1 => exact absurd h1 hn
    · rfl

/-- The dimension numbers of `x[idx]` for a flat table `[N]`, start indices `[R, 1]` and result `[R]`. -/
abbrev takeDims1 (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- That gather read at row `r`: the table at the start index `idx[r, 0]`, read signed and clamped into
    `[0, N − 1]`. -/
theorem gather_take1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (takeDims1 N R wf) x idx y = x (ix1 ⟨min (idx (colIdx y)).toInt.toNat (N - 1), by omega⟩) := by
  unfold Host.gather
  congr 1
  funext a
  obtain rfl : a = 0 := Subsingleton.elim _ _
  refine Fin.ext ?_
  show (takeDims1 N R wf).start y idx 0 + (takeDims1 N R wf).batchCoord y 0 + (takeDims1 N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx y ⟨List.idxOf (0 : Fin 1) (takeDims1 N R wf).startIndexMap,
      List.idxOf_lt_length_iff.2 (List.mem_singleton.mpr rfl)⟩ = colIdx y := by
    funext b; refine Fin.ext ?_
    match b with
    | ⟨0, _⟩ => rfl
    | ⟨1, _⟩ => rfl
  rw [hsi]
  rfl

/-! ## The reference's intermediate arrays at an index -/

variable [Cert.ReferenceIdeal.Facts]

theorem wrapped_apply (ids : IVec S16384 32) (i : S16384.Idx) (h : (0 : Int) ≤ (ids i).toInt) :
    wrapped ids i = ids i := by
  unfold wrapped
  rw [bcastI, bcastI, select_apply, cmpi_apply, addi_apply, broadcast_apply, broadcast_apply]
  exact wrap_word _ h

theorem starts_apply (ids : IVec S16384 32) (j : S16384x1.Idx) : starts ids j = wrapped ids (ix1 (j 0)) := by
  unfold starts
  exact bcast_col_apply (by decide) _ _ _

theorem inRange_apply (ids : IVec S16384 32) (hr : ∀ i, (0 : Int) ≤ (ids i).toInt ∧ (ids i).toInt ≤ 99999)
    (i : S16384.Idx) : inRange ids i = 1#1 := by
  unfold inRange
  refine reduce_andi_one _ _ _ _ (fun n => ?_) (fun _ => rfl) i
  rw [bcastI, bcastI, bcast_bcast, andi_apply, cmpi_apply, cmpi_apply, broadcast_apply, broadcast_apply, starts_apply,
    wrapped_apply ids _ (hr _).1]
  exact in_range_word _ (hr _)

theorem gather_apply (vars : FVec Ideal S100000 .f32) (idx : IVec S16384x1 32) (i : S16384.Idx) (k : Nat)
    (hk : k < 100000) (h : min (idx (colIdx i)).toInt.toNat (100000 - 1) = k) :
    Host.gather gather_S100000_S16384x1_S16384_n_0_n_n_0_1_1 vars idx i = vars (ix1 ⟨k, hk⟩) := by
  have e := gather_take1_apply (N := 100000) (R := 16384) (by decide)
    gather_S100000_S16384x1_S16384_n_0_n_n_0_1_1_wf vars idx i
  exact e.trans (congrArg vars (congrArg ix1 (Fin.ext h)))

theorem taken_apply (ids : IVec S16384 32) (vars : FVec Ideal S100000 .f32)
    (hr : ∀ i, (0 : Int) ≤ (ids i).toInt ∧ (ids i).toInt ≤ 99999) (i : S16384.Idx) :
    taken ids vars i = vars (ix1 ⟨(ids i).toNat, toNat_lt (hr i)⟩) := by
  have e : (ix1 ((colIdx i) 0) : S16384.Idx) = i := (eq_ix1 i).symm
  have hw : starts ids (colIdx i) = ids i :=
    (starts_apply ids (colIdx i)).trans ((congrArg (wrapped ids) e).trans (wrapped_apply ids i (hr i).1))
  unfold taken
  rw [select_apply, inRange_apply ids hr i, select_one]
  refine gather_apply vars _ i _ _ ?_
  rw [hw, toInt_toNat (hr i).1]
  have := toNat_lt (hr i)
  omega

/-- THE REFERENCE AT AN INDEX: the exponential of the constant times the table's entry at `ids i`. -/
theorem out_apply (ids : IVec S16384 32) (vars : FVec Ideal S100000 .f32)
    (hr : ∀ i, (0 : Int) ≤ (ids i).toInt ∧ (ids i).toInt ≤ 99999) (i : S16384.Idx) :
    out ids vars i
      = Ideal.exp (Ideal.ofBits .f32 0x3F317218#32 * vars (ix1 ⟨(ids i).toNat, toNat_lt (hr i)⟩)) := by
  unfold out
  rw [bcastF, hostExp_apply, mulf_apply, broadcast_apply, taken_apply ids vars hr i]

end Cert.ReferenceIdeal.RefValue

end
-- ==== Proof.lean ====
/- The five claims, assembled.

   Both programs compute, from an index array `ids` (16384 words) and a table `vars` (100000 floats), the array whose
   entry `i` is `exp (vars[ids[i]] · c)`, `c` the single-precision constant nearest ln 2. The precondition makes every
   index, read signed, lie in [0, 99999]; so it names a row of the table read unsigned as well, the reference's wrap of
   negative indices and its out-of-range fill never apply, and its gather's clamp is the identity. The kernel's run
   leaves the output at `exp (vars[ids[i]] · c)` and both arguments unchanged, at the word level and over the extended
   reals alike; the reference's run leaves `exp (c · vars[ids[i]])` and both arguments unchanged. Over the extended reals
   the product commutes, so from memories that agree on the arguments the two results are equal entry by entry. The
   frames are the runs with the value forgotten; the idealization rewrote no operation, so it preserves trivially. -/
import proofs.«207177_g90812788506957_cont_sun_c4_559_12_alg».proof.Defs
import proofs.«207177_g90812788506957_cont_sun_c4_559_12_alg».proof.Proof.Gen.Kernel
import proofs.«207177_g90812788506957_cont_sun_c4_559_12_alg».proof.Proof.Gen.Kernel.Skeleton
import proofs.«207177_g90812788506957_cont_sun_c4_559_12_alg».proof.Proof.Gen.KernelIdeal
import proofs.«207177_g90812788506957_cont_sun_c4_559_12_alg».proof.Proof.Gen.KernelIdeal.Skeleton
import proofs.«207177_g90812788506957_cont_sun_c4_559_12_alg».proof.Proof.Gen.ReferenceIdeal
import proofs.«207177_g90812788506957_cont_sun_c4_559_12_alg».proof.Proof.Gen.Pre_input_domain
import proofs.«207177_g90812788506957_cont_sun_c4_559_12_alg».proof.Proof.PreRange
import proofs.«207177_g90812788506957_cont_sun_c4_559_12_alg».proof.Proof.LaunchBits
import proofs.«207177_g90812788506957_cont_sun_c4_559_12_alg».proof.Proof.LaunchIdeal
import proofs.«207177_g90812788506957_cont_sun_c4_559_12_alg».proof.Proof.RefRun
import proofs.«207177_g90812788506957_cont_sun_c4_559_12_alg».proof.Proof.RefValue
import Idealize.ShloMosaic.Adequacy
import Idealize.ShloMosaic.Init

noncomputable section

namespace Cert.Proof

open Idealize.ShloMosaic Idealize.SL.Sem

/-! ## The precondition names rows of the table -/

/-- Under the precondition every index word of the word-level program's launch memory is below 100000. -/
theorem preOK_bits (m : (ℓ : Loc Cert.Kernel.nD Cert.Kernel.τ Cert.Kernel.sig) → Buf (Elt Bits) ℓ)
    (h : Cert.Pre_Kernel m) : Cert.Kernel.Lookup.PreOK (F := Bits) m :=
  fun d j => Cert.PreRange.ids_lt _ _ (h d) j

/-- The same over the extended reals. -/
theorem preOK_ideal (m : (ℓ : Loc Cert.KernelIdeal.nD Cert.KernelIdeal.τ Cert.KernelIdeal.sig) → Buf (Elt Ideal) ℓ)
    (h : Cert.Pre_KernelIdeal m) : Cert.KernelIdeal.Lookup.PreOK (F := Ideal) m :=
  fun d j => Cert.PreRange.ids_lt _ _ (h d) j

/-! ## The kernel's output function is the reference's term -/

/-- Entry by entry, over the extended reals: the kernel's `exp (vars[ids[i]] · c)` is the reference's term read at
    `i` under the index range, `exp (c · vars[ids[i]])`, by the commutativity of the product. -/
theorem bridge_apply (m : (ℓ : Loc Cert.KernelIdeal.nD Cert.KernelIdeal.τ Cert.KernelIdeal.sig) → Buf (Elt Ideal) ℓ)
    (hm : Cert.Pre_KernelIdeal m) (hpre : Cert.KernelIdeal.Lookup.PreOK (F := Ideal) m) (c : Dev Cert.KernelIdeal.nD)
    (i : Cert.ReferenceIdeal.S16384.Idx) :
    Cert.ReferenceIdeal.RefRun.out (F := Ideal) (m (Cert.KernelIdeal.Lookup.iLoc c)) (m (Cert.KernelIdeal.Lookup.xLoc c)) i
      = Cert.KernelIdeal.Lookup.outFn (F := Ideal) m hpre c i :=
  (Cert.ReferenceIdeal.RefValue.out_apply (m (Cert.KernelIdeal.Lookup.iLoc c)) (m (Cert.KernelIdeal.Lookup.xLoc c))
      (Cert.PreRange.ids_range _ _ (hm c)) i).trans
    (congrArg Ideal.exp (mul_comm _ _))

/-- The same of the whole arrays. -/
theorem bridge (m : (ℓ : Loc Cert.KernelIdeal.nD Cert.KernelIdeal.τ Cert.KernelIdeal.sig) → Buf (Elt Ideal) ℓ)
    (hm : Cert.Pre_KernelIdeal m) (hpre : Cert.KernelIdeal.Lookup.PreOK (F := Ideal) m) (c : Dev Cert.KernelIdeal.nD) :
    Cert.ReferenceIdeal.RefRun.out (F := Ideal) (m (Cert.KernelIdeal.Lookup.iLoc c)) (m (Cert.KernelIdeal.Lookup.xLoc c))
      = Cert.KernelIdeal.Lookup.outFn (F := Ideal) m hpre c :=
  funext fun i => bridge_apply m hm hpre c i

/-! ## The claims -/

/-- The word-level program runs and leaves its arguments unchanged: its run, the value forgotten. -/
theorem frame_p : Cert.frame_Kernel := fun m g hm =>
  (θ_run Cert.Kernel.defs _ _).mono (fun _ h c => (h c).2)
    (Cert.Kernel.Lookup.run_main (F := Bits) m g (preOK_bits m hm))

/-- The same program over the extended reals. -/
theorem frame_pi : Cert.frame_KernelIdeal := fun m g hm =>
  (θ_run Cert.KernelIdeal.defs _ _).mono (fun _ h c => (h c).2)
    (Cert.KernelIdeal.Lookup.run_main (F := Ideal) m g (preOK_ideal m hm))

/-- The reference runs from any memory and leaves its arguments unchanged. -/
theorem frame_ri : Cert.frame_ReferenceIdeal := fun m g _ =>
  (θ_run Cert.ReferenceIdeal.defs _ _).mono (fun _ h c => (h c).2) (Cert.ReferenceIdeal.RefRun.run (F := Ideal) m g)

/-- The idealization rewrote no operation. -/
theorem preserves : Cert.preserves_Kernel_KernelIdeal := trivial

/-- Over the extended reals, from memories that agree on the arguments, both programs run, leave their arguments
    unchanged, and end with the same result: the kernel's output function, which is the reference's term. -/
theorem algebraic : Cert.algebraic_KernelIdeal_ReferenceIdeal := by
  intro m g m' g' hm hagree
  have hpre := preOK_ideal m hm
  refine ⟨fun c => Cert.KernelIdeal.Lookup.outFn (F := Ideal) m hpre c,
    Cert.KernelIdeal.Lookup.run_main (F := Ideal) m g hpre, ?_⟩
  refine (θ_run Cert.ReferenceIdeal.defs _ _).mono (fun _ h c => ⟨(h c).1.trans ?_, (h c).2⟩)
    (Cert.ReferenceIdeal.RefRun.run (F := Ideal) m' g')
  exact (congr (congrArg (Cert.ReferenceIdeal.RefRun.out (F := Ideal)) (hagree c).1) (hagree c).2).trans
    (bridge m hm hpre c)

theorem claim : Cert.Claim := ⟨Cert.Kernel.Gen.facts, Cert.KernelIdeal.Gen.facts, Cert.ReferenceIdeal.Gen.facts, Cert.Pre_input_domain.Gen.facts,
  frame_p, frame_pi, frame_ri, preserves, algebraic⟩

end Cert.Proof

end
